-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x256x256 : Shape := ⟨4, ![32, 16, 256, 256]⟩
abbrev S32x256x256 : Shape := ⟨3, ![32, 256, 256]⟩
abbrev S_ : Shape := ⟨0, ![]⟩

class Facts : Prop where
  bcast_S_S32x16x256x256 : S_.BroadcastsInDim S32x16x256x256 (![] : Fin 0 → Fin S32x16x256x256.rank)
  reducesTo_S32x16x256x256_S_d0_1_2_3 : S32x16x256x256.ReducesTo [0, 1, 2, 3] S_
  h_S_ : 0 < S_.numel
  bcast_S_S32x256x256 : S_.BroadcastsInDim S32x256x256 (![] : Fin 0 → Fin S32x256x256.rank)
  reducesTo_S32x256x256_S_d0_1_2 : S32x256x256.ReducesTo [0, 1, 2] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S32x16x256x256 .f32) (main_arg1 : FVec F S32x16x256x256 .f32) (main_arg2 : IVec S32x256x256 32) : IVec S_ 1 :=
  let main_v0 : FVec F S32x16x256x256 .f32 := Host.absf main_arg0
  let main_cst : FVec F S_ .f32 := constant S_ .f32 0x7F800000#32
  let main_v1 : FVec F S32x16x256x256 .f32 := broadcastInDim S32x16x256x256 ![] bcast_S_S32x16x256x256 main_cst
  let main_v2 : IVec S32x16x256x256 1 := cmpf .olt main_v0 main_v1
  let main_c : IVec S_ 1 := constantI S_ 1 1#1
  let main_v3 : IVec S_ 1 := (fun x v => Host.reduce IntOp.andi x v reducesTo_S32x16x256x256_S_d0_1_2_3 h_S_) main_v2 main_c
  let main_v4 : FVec F S32x16x256x256 .f32 := Host.absf main_arg1
  let main_cst_0 : FVec F S_ .f32 := constant S_ .f32 0x7F800000#32
  let main_v5 : FVec F S32x16x256x256 .f32 := broadcastInDim S32x16x256x256 ![] bcast_S_S32x16x256x256 main_cst_0
  let main_v6 : IVec S32x16x256x256 1 := cmpf .olt main_v4 main_v5
  let main_c_1 : IVec S_ 1 := constantI S_ 1 1#1
  let main_v7 : IVec S_ 1 := (fun x v => Host.reduce IntOp.andi x v reducesTo_S32x16x256x256_S_d0_1_2_3 h_S_) main_v6 main_c_1
  let main_v8 : IVec S_ 1 := andi main_v3 main_v7
  let main_c_2 : IVec S_ 32 := constantI S_ 32 0#32
  let main_v9 : IVec S32x256x256 32 := broadcastInDim S32x256x256 ![] bcast_S_S32x256x256 main_c_2
  let main_v10 : IVec S32x256x256 1 := cmpi .sge main_arg2 main_v9
  let main_c_3 : IVec S_ 1 := constantI S_ 1 1#1
  let main_v11 : IVec S_ 1 := (fun x v => Host.reduce IntOp.andi x v reducesTo_S32x256x256_S_d0_1_2 h_S_) main_v10 main_c_3
  let main_v12 : IVec S_ 1 := andi main_v8 main_v11
  let main_c_4 : IVec S_ 32 := constantI S_ 32 2#32
  let main_v13 : IVec S32x256x256 32 := broadcastInDim S32x256x256 ![] bcast_S_S32x256x256 main_c_4
  let main_v14 : IVec S32x256x256 1 := cmpi .slt main_arg2 main_v13
  let main_c_5 : IVec S_ 1 := constantI S_ 1 1#1
  let main_v15 : IVec S_ 1 := (fun x v => Host.reduce IntOp.andi x v reducesTo_S32x256x256_S_d0_1_2 h_S_) main_v14 main_c_5
  fn_part1 (F := F) main_v12 main_v15
-- ==== Kernel.lean ====
abbrev S32x16x256x256 : Shape := ⟨4, ![32, 16, 256, 256]⟩
abbrev S32x256x256 : Shape := ⟨3, ![32, 256, 256]⟩
abbrev S32x1x64 : Shape := ⟨3, ![32, 1, 64]⟩
abbrev S32x1x1 : Shape := ⟨3, ![32, 1, 1]⟩
abbrev S1x16x128x256 : Shape := ⟨4, ![1, 16, 128, 256]⟩
abbrev S1x128x256 : Shape := ⟨3, ![1, 128, 256]⟩
abbrev S1x1x64 : Shape := ⟨3, ![1, 1, 64]⟩
abbrev S1x1x1 : Shape := ⟨3, ![1, 1, 1]⟩
abbrev S16x128x256 : Shape := ⟨3, ![16, 128, 256]⟩
abbrev S128x256 : Shape := ⟨2, ![128, 256]⟩
abbrev S16x128 : Shape := ⟨2, ![16, 128]⟩
abbrev S16x128x1 : Shape := ⟨3, ![16, 128, 1]⟩
abbrev S16x1 : Shape := ⟨2, ![16, 1]⟩
abbrev S16x1x1 : Shape := ⟨3, ![16, 1, 1]⟩
abbrev S128 : Shape := ⟨1, ![128]⟩
abbrev S128x1 : Shape := ⟨2, ![128, 1]⟩
abbrev S1 : Shape := ⟨1, ![1]⟩
abbrev S1x1 : Shape := ⟨2, ![1, 1]⟩
abbrev S64x1x1 : Shape := ⟨3, ![64, 1, 1]⟩
abbrev S32x1x16 : Shape := ⟨3, ![32, 1, 16]⟩
abbrev S_ : Shape := ⟨0, ![]⟩
abbrev S32x1 : Shape := ⟨2, ![32, 1]⟩
abbrev S32x16x1x1 : Shape := ⟨4, ![32, 16, 1, 1]⟩
abbrev S32x2x1x1 : Shape := ⟨4, ![32, 2, 1, 1]⟩
abbrev S1x16x1x1 : Shape := ⟨4, ![1, 16, 1, 1]⟩
abbrev S1x1x1x1 : Shape := ⟨4, ![1, 1, 1, 1]⟩
abbrev S1x128 : Shape := ⟨2, ![1, 128]⟩
abbrev S1x128x1 : Shape := ⟨3, ![1, 128, 1]⟩

abbrev nBuf : Space → Nat
  | .hbm => 63
  | .vmem => 36
  | .smem => 0
  | _ => 0

abbrev bufTy : (tb : Table) → Fin (tcTables nBuf tb) → BufTy
  | .hbm, ⟨0, _⟩ => ⟨S32x16x256x256, .f32⟩
  | .hbm, ⟨1, _⟩ => ⟨S32x16x256x256, .f32⟩
  | .hbm, ⟨2, _⟩ => ⟨S32x256x256, .i32⟩
  | .hbm, ⟨3, _⟩ => ⟨S32x1x64, .f32⟩
  | .hbm, ⟨4, _⟩ => ⟨S32x1x1, .f32⟩
  | .hbm, ⟨5, _⟩ => ⟨S32x1x16, .f32⟩
  | .hbm, ⟨6, _⟩ => ⟨S32x1x16, .f32⟩
  | .hbm, ⟨7, _⟩ => ⟨S32x1x16, .f32⟩
  | .hbm, ⟨8, _⟩ => ⟨S32x1x16, .f32⟩
  | .hbm, ⟨9, _⟩ => ⟨S_, .f32⟩
  | .hbm, ⟨10, _⟩ => ⟨S32x1x1, .f32⟩
  | .hbm, ⟨11, _⟩ => ⟨S32x1x1, .f32⟩
  | .hbm, ⟨12, _⟩ => ⟨S_, .f32⟩
  | .hbm, ⟨13, _⟩ => ⟨S32x1x1, .f32⟩
  | .hbm, ⟨14, _⟩ => ⟨S32x1x1, .f32⟩
  | .hbm, ⟨15, _⟩ => ⟨S32x1x16, .f32⟩
  | .hbm, ⟨16, _⟩ => ⟨S32x1x16, .f32⟩
  | .hbm, ⟨17, _⟩ => ⟨S32x1x16, .f32⟩
  | .hbm, ⟨18, _⟩ => ⟨S_, .f32⟩
  | .hbm, ⟨19, _⟩ => ⟨S32x1x1, .f32⟩
  | .hbm, ⟨20, _⟩ => ⟨S32x1x1, .f32⟩
  | .hbm, ⟨21, _⟩ => ⟨S32x1x16, .f32⟩
  | .hbm, ⟨22, _⟩ => ⟨S32x1x16, .f32⟩
  | .hbm, ⟨23, _⟩ => ⟨S_, .f32⟩
  | .hbm, ⟨24, _⟩ => ⟨S32x1x1, .f32⟩
  | .hbm, ⟨25, _⟩ => ⟨S32x1x1, .f32⟩
  | .hbm, ⟨26, _⟩ => ⟨S32x1x16, .f32⟩
  | .hbm, ⟨27, _⟩ => ⟨S32x1x16, .f32⟩
  | .hbm, ⟨28, _⟩ => ⟨S32x1x16, .f32⟩
  | .hbm, ⟨29, _⟩ => ⟨S_, .f32⟩
  | .hbm, ⟨30, _⟩ => ⟨S32x1x1, .f32⟩
  | .hbm, ⟨31, _⟩ => ⟨S32x1x1, .f32⟩
  | .hbm, ⟨32, _⟩ => ⟨S32x1x16, .f32⟩
  | .hbm, ⟨33, _⟩ => ⟨S32x1x16, .f32⟩
  | .hbm, ⟨34, _⟩ => ⟨S32x1x16, .f32⟩
  | .hbm, ⟨35, _⟩ => ⟨S_, .f32⟩
  | .hbm, ⟨36, _⟩ => ⟨S32x1, .f32⟩
  | .hbm, ⟨37, _⟩ => ⟨S32x1x1, .f32⟩
  | .hbm, ⟨38, _⟩ => ⟨S32x1x1, .f32⟩
  | .hbm, ⟨39, _⟩ => ⟨S32x1x16, .f32⟩
  | .hbm, ⟨40, _⟩ => ⟨S_, .f32⟩
  | .hbm, ⟨41, _⟩ => ⟨S32x1, .f32⟩
  | .hbm, ⟨42, _⟩ => ⟨S32x1x1, .f32⟩
  | .hbm, ⟨43, _⟩ => ⟨S32x1x1, .f32⟩
  | .hbm, ⟨44, _⟩ => ⟨S32x1x16, .f32⟩
  | .hbm, ⟨45, _⟩ => ⟨S_, .f32⟩
  | .hbm, ⟨46, _⟩ => ⟨S32x1, .f32⟩
  | .hbm, ⟨47, _⟩ => ⟨S32x1x1, .f32⟩
  | .hbm, ⟨48, _⟩ => ⟨S32x1x1, .f32⟩
  | .hbm, ⟨49, _⟩ => ⟨S32x1x16, .f32⟩
  | .hbm, ⟨50, _⟩ => ⟨S_, .f32⟩
  | .hbm, ⟨51, _⟩ => ⟨S32x1, .f32⟩
  | .hbm, ⟨52, _⟩ => ⟨S32x1x1, .f32⟩
  | .hbm, ⟨53, _⟩ => ⟨S32x1x1, .f32⟩
  | .hbm, ⟨54, _⟩ => ⟨S32x16x1x1, .f32⟩
  | .hbm, ⟨55, _⟩ => ⟨S32x16x1x1, .f32⟩
  | .hbm, ⟨56, _⟩ => ⟨S32x16x1x1, .f32⟩
  | .hbm, ⟨57, _⟩ => ⟨S32x16x1x1, .f32⟩
  | .hbm, ⟨58, _⟩ => ⟨S32x2x1x1, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .local _ .vmem, ⟨0, _⟩ => ⟨S1x16x128x256, .f32⟩
  | .local _ .vmem, ⟨1, _⟩ => ⟨S1x16x128x256, .f32⟩
  | .local _ .vmem, ⟨2, _⟩ => ⟨S1x16x128x256, .f32⟩
  | .local _ .vmem, ⟨3, _⟩ => ⟨S1x16x128x256, .f32⟩
  | .local _ .vmem, ⟨4, _⟩ => ⟨S1x128x256, .i32⟩
  | .local _ .vmem, ⟨5, _⟩ => ⟨S1x128x256, .i32⟩
  | .local _ .vmem, ⟨6, _⟩ => ⟨S1x1x64, .f32⟩
  | .local _ .vmem, ⟨7, _⟩ => ⟨S1x1x64, .f32⟩
  | .local _ .vmem, ⟨8, _⟩ => ⟨S1x1x1, .f32⟩
  | .local _ .vmem, ⟨9, _⟩ => ⟨S1x1x1, .f32⟩
  | .local _ .vmem, ⟨10, _⟩ => ⟨S1x1x64, .f32⟩
  | .local _ .vmem, ⟨11, _⟩ => ⟨S1x1x1, .f32⟩
  | .local _ .vmem, ⟨12, _⟩ => ⟨S1x16x128x256, .f32⟩
  | .local _ .vmem, ⟨13, _⟩ => ⟨S1x16x128x256, .f32⟩
  | .local _ .vmem, ⟨14, _⟩ => ⟨S1x16x128x256, .f32⟩
  | .local _ .vmem, ⟨15, _⟩ => ⟨S1x16x128x256, .f32⟩
  | .local _ .vmem, ⟨16, _⟩ => ⟨S1x128x256, .i32⟩
  | .local _ .vmem, ⟨17, _⟩ => ⟨S1x128x256, .i32⟩
  | .local _ .vmem, ⟨18, _⟩ => ⟨S1x16x1x1, .f32⟩
  | .local _ .vmem, ⟨19, _⟩ => ⟨S1x16x1x1, .f32⟩
  | .local _ .vmem, ⟨20, _⟩ => ⟨S1x16x1x1, .f32⟩
  | .local _ .vmem, ⟨21, _⟩ => ⟨S1x16x1x1, .f32⟩
  | .local _ .vmem, ⟨22, _⟩ => ⟨S1x16x1x1, .f32⟩
  | .local _ .vmem, ⟨23, _⟩ => ⟨S1x16x1x1, .f32⟩
  | .local _ .vmem, ⟨24, _⟩ => ⟨S1x16x1x1, .f32⟩
  | .local _ .vmem, ⟨25, _⟩ => ⟨S1x16x1x1, .f32⟩
  | .local _ .vmem, ⟨26, _⟩ => ⟨S1x1x1, .f32⟩
  | .local _ .vmem, ⟨27, _⟩ => ⟨S1x1x1, .f32⟩
  | .local _ .vmem, ⟨28, _⟩ => ⟨S1x1x1, .f32⟩
  | .local _ .vmem, ⟨29, _⟩ => ⟨S1x1x1, .f32⟩
  | .local _ .vmem, ⟨30, _⟩ => ⟨S1x1x1, .f32⟩
  | .local _ .vmem, ⟨31, _⟩ => ⟨S1x1x1, .f32⟩
  | .local _ .vmem, ⟨32, _⟩ => ⟨S1x1x1, .f32⟩
  | .local _ .vmem, ⟨33, _⟩ => ⟨S1x1x1, .f32⟩
  | .local _ .vmem, ⟨34, _⟩ => ⟨S1x1x1x1, .f32⟩
  | .local _ .vmem, ⟨35, _⟩ => ⟨S1x1x1x1, .f32⟩
  | _, _ => ⟨S32x16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_8 : Ref sig .tc := ⟨.hbm, 59, rfl⟩
abbrev main_v46 : Ref sig .tc := ⟨.hbm, 60, rfl⟩
abbrev main_cst_9 : Ref sig .tc := ⟨.hbm, 61, rfl⟩
abbrev main_v47 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_stg10_1 : Ref sig .tc := ⟨.vmem, 33, rfl⟩
abbrev cc1_stg11_0 : Ref sig .tc := ⟨.vmem, 34, rfl⟩
abbrev cc1_stg11_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem10_1 : DmaSem sig := 31
abbrev cc1_sem11_0 : DmaSem sig := 32
abbrev cc1_sem11_1 : DmaSem sig := 33

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v68 : BitVec 1 := Scalar.cmpi .eq arg1 c1_i32
  let v69 : BitVec 32 := Scalar.extui v68
  let c0_i32_37 : BitVec 32 := 0#32
  let v70 : BitVec 1 := Scalar.cmpi .ne v69 c0_i32_37
  v70

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![32, 2], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x16x128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x256 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x16x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x16x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x16x1x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x16x1x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x1x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x1x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x1x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S1x1x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S1x1x1x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

class Facts₀ : Prop where
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S1x16x128x256_S1x16x128x256_0_0_0_0 : ∀ a, (![0, 0, 0, 0] : Fin 4 → Nat) a + S1x16x128x256.size a ≤ S1x16x128x256.size a
  h_S1x16x128x256 : 0 < S1x16x128x256.numel
  shapeCasts_S1x16x128x256_S16x128x256 : S1x16x128x256.ShapeCasts S16x128x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  reduces_S16x128x256_S128x256 : S16x128x256.Reduces [0] S128x256
  shapeCasts_S128x256_S1x128x256 : S128x256.ShapeCasts S1x128x256
  broadcasts_S1x128x256_S16x128x256 : S1x128x256.Broadcasts S16x128x256
  natLt_1_32 : 1 < 32
  reduces_S16x128x256_S16x128 : S16x128x256.Reduces [2] S16x128
  shapeCasts_S16x128_S16x128x1 : S16x128.ShapeCasts S16x128x1
  reduces_S16x128x1_S16x1 : S16x128x1.Reduces [1] S16x1
  shapeCasts_S16x1_S16x1x1 : S16x1.ShapeCasts S16x1x1
  reduces_S128x256_S128 : S128x256.Reduces [1] S128
  shapeCasts_S128_S128x1 : S128.ShapeCasts S128x1
  reduces_S128x1_S1 : S128x1.Reduces [0] S1
  shapeCasts_S1_S1x1 : S1.ShapeCasts S1x1
  concatenates_S16x1x1_S16x1x1_S16x1x1_S16x1x1_S64x1x1_d0 : Shape.Concatenates [S16x1x1, S16x1x1, S16x1x1, S16x1x1] S64x1x1 0
  shapeCasts_S64x1x1_S1x1x64 : S64x1x1.ShapeCasts S1x1x64
  shapeCasts_S1x1_S1x1x1 : S1x1.ShapeCasts S1x1x1
  slices_S32x1x64_S32x1x16_0_0_0 : S32x1x64.Slices ![0, 0, 0] S32x1x16
  slices_S32x1x64_S32x1x16_0_0_16 : S32x1x64.Slices ![0, 0, 16] S32x1x16
  slices_S32x1x64_S32x1x16_0_0_32 : S32x1x64.Slices ![0, 0, 32] S32x1x16
  slices_S32x1x64_S32x1x16_0_0_48 : S32x1x64.Slices ![0, 0, 48] S32x1x16
  bcast_S_S32x1x1 : S_.BroadcastsInDim S32x1x1 (![] : Fin 0 → Fin S32x1x1.rank)
  bcast_S32x1x1_S32x1x16_0_1_2 : S32x1x1.BroadcastsInDim S32x1x16 (![0, 1, 2] : Fin 3 → Fin S32x1x16.rank)
  reducesTo_S32x1x16_S32x1_d2 : S32x1x16.ReducesTo [2] S32x1
  h_S_ : 0 < S_.numel
  bcast_S32x1_S32x1x1_0_1 : S32x1.BroadcastsInDim S32x1x1 (![0, 1] : Fin 2 → Fin S32x1x1.rank)
  shapeCasts_S32x1x16_S32x16x1x1 : S32x1x16.ShapeCasts S32x16x1x1
  inb_S1x16x1x1_S1x16x1x1_0_0_0_0 : ∀ a, (![0, 0, 0, 0] : Fin 4 → Nat) a + S1x16x1x1.size a ≤ S1x16x1x1.size a
  h_S1x16x1x1 : 0 < S1x16x1x1.numel
  shapeCasts_S1x16x1x1_S16x1x1 : S1x16x1x1.ShapeCasts S16x1x1
  broadcasts_S16x1x1_S16x128x256 : S16x1x1.Broadcasts S16x128x256
  broadcasts_S1x1x1_S1x128x256 : S1x1x1.Broadcasts S1x128x256
  reduces_S1x128x256_S1x128 : S1x128x256.Reduces [2] S1x128
  shapeCasts_S1x128_S1x128x1 : S1x128.ShapeCasts S1x128x1
  reduces_S1x128x1_S1x1 : S1x128x1.Reduces [1] S1x1
  shapeCasts_S1x1x1_S1x1x1x1 : S1x1x1.ShapeCasts S1x1x1x1
  inb_S1x1x1x1_S1x1x1x1_0_0_0_0 : ∀ a, (![0, 0, 0, 0] : Fin 4 → Nat) a + S1x1x1x1.size a ≤ S1x1x1x1.size a
  h_S1x1x1x1 : 0 < S1x1x1x1.numel
  reducesTo_S32x2x1x1_S_d0_1_2_3 : S32x2x1x1.ReducesTo [0, 1, 2, 3] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128x256.size a ≤ S32x16x256x256.size a
  hwx0_0 : ∀ i : grid0.Coords, EltTy.bits .f32 = 32 ∨ (Rect.block (s := S32x16x256x256) S1x16x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x128x256.size a ≤ S32x16x256x256.size a
  hwx0_1 : ∀ i : grid0.Coords, EltTy.bits .f32 = 32 ∨ (Rect.block (s := S32x16x256x256) S1x16x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x256.size a ≤ S32x256x256.size a
  hwx0_2 : ∀ i : grid0.Coords, EltTy.bits .i32 = 32 ∨ (Rect.block (s := S32x256x256) S1x128x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64.size a ≤ S32x1x64.size a
  hwx0_3 : ∀ i : grid0.Coords, EltTy.bits .f32 = 32 ∨ (Rect.block (s := S32x1x64) S1x1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S32x1x1.size a
  hwx0_4 : ∀ i : grid0.Coords, EltTy.bits .f32 = 32 ∨ (Rect.block (s := S32x1x1) S1x1x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x128x256.size a ≤ S32x16x256x256.size a
  hwx1_0 : ∀ i : grid1.Coords, EltTy.bits .f32 = 32 ∨ (Rect.block (s := S32x16x256x256) S1x16x128x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x128x256.size a ≤ S32x16x256x256.size a
  hwx1_1 : ∀ i : grid1.Coords, EltTy.bits .f32 = 32 ∨ (Rect.block (s := S32x16x256x256) S1x16x128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x256.size a ≤ S32x256x256.size a
  hwx1_2 : ∀ i : grid1.Coords, EltTy.bits .i32 = 32 ∨ (Rect.block (s := S32x256x256) S1x128x256.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x16x1x1.size a ≤ S32x16x1x1.size a
  hwx1_3 : ∀ i : grid1.Coords, EltTy.bits .f32 = 32 ∨ (Rect.block (s := S32x16x1x1) S1x16x1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x16x1x1.size a ≤ S32x16x1x1.size a
  hwx1_4 : ∀ i : grid1.Coords, EltTy.bits .f32 = 32 ∨ (Rect.block (s := S32x16x1x1) S1x16x1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x16x1x1.size a ≤ S32x16x1x1.size a
  hwx1_5 : ∀ i : grid1.Coords, EltTy.bits .f32 = 32 ∨ (Rect.block (s := S32x16x1x1) S1x16x1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x16x1x1.size a ≤ S32x16x1x1.size a
  hwx1_6 : ∀ i : grid1.Coords, EltTy.bits .f32 = 32 ∨ (Rect.block (s := S32x16x1x1) S1x16x1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x1.size a ≤ S32x1x1.size a
  hwx1_7 : ∀ i : grid1.Coords, EltTy.bits .f32 = 32 ∨ (Rect.block (s := S32x1x1) S1x1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x1.size a ≤ S32x1x1.size a
  hwx1_8 : ∀ i : grid1.Coords, EltTy.bits .f32 = 32 ∨ (Rect.block (s := S32x1x1) S1x1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1x1.size a ≤ S32x1x1.size a
  hwx1_9 : ∀ i : grid1.Coords, EltTy.bits .f32 = 32 ∨ (Rect.block (s := S32x1x1) S1x1x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x1x1.size a ≤ S32x1x1.size a
  hwx1_10 : ∀ i : grid1.Coords, EltTy.bits .f32 = 32 ∨ (Rect.block (s := S32x1x1) S1x1x1.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1x1x1x1.size a ≤ S32x2x1x1.size a
  hwx1_11 : ∀ i : grid1.Coords, EltTy.bits .f32 = 32 ∨ (Rect.block (s := S32x2x1x1) S1x1x1x1.size (cc1_transform_11 i) (hinb1_11 i)).WholeWords (EltTy.packing .f32)

variable [Facts₀]

abbrev win0_0 : Pipeline.Window sig grid0 :=
  Pipeline.Window.ofSpec (Memref.whole main_arg0) S1x16x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S1x16x128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x16x128x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x128x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x16x1x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x16x1x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x16x1x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v44) S1x16x1x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v28) S1x1x1.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v32) S1x1x1.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v36) S1x1x1.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_v40) S1x1x1.size cc1_transform_10 reads1_10 false false 2 stage1_10 sem1_10
    hrank1 hreads1_10 hinb1_10 nbuf1_10 (Memref.isWhole_whole _) hwx1_10 hstage1_10

abbrev win1_11 : Pipeline.Window sig grid1 :=
  Pipeline.Window.ofSpec (Memref.whole main_v45) S1x1x1x1.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S32x16x256x256 : Shape := ⟨4, ![32, 16, 256, 256]⟩
abbrev S32x256x256 : Shape := ⟨3, ![32, 256, 256]⟩
abbrev S_ : Shape := ⟨0, ![]⟩
abbrev S32x1x256x256 : Shape := ⟨4, ![32, 1, 256, 256]⟩
abbrev S32x1 : Shape := ⟨2, ![32, 1]⟩
abbrev S32x16 : Shape := ⟨2, ![32, 16]⟩
abbrev S32x16x1x1 : Shape := ⟨4, ![32, 16, 1, 1]⟩

abbrev nBuf : Space → Nat
  | .hbm => 217
  | .vmem => 0
  | .smem => 0
  | _ => 0

abbrev hbmTy0_0 (i : Nat) : BufTy := match i % 128 with
  | 0 => ⟨S32x16x256x256, .f32⟩
  | 1 => ⟨S32x16x256x256, .f32⟩
  | 2 => ⟨S32x256x256, .i32⟩
  | 3 => ⟨S32x16x256x256, .f32⟩
  | 4 => ⟨S_, .f32⟩
  | 5 => ⟨S32x256x256, .f32⟩
  | 6 => ⟨S32x1x256x256, .f32⟩
  | 7 => ⟨S32x1x256x256, .f32⟩
  | 8 => ⟨S_, .f32⟩
  | 9 => ⟨S32x1x256x256, .f32⟩
  | 10 => ⟨S32x1x256x256, .f32⟩
  | 11 => ⟨S32x16x256x256, .f32⟩
  | 12 => ⟨S32x16x256x256, .f32⟩
  | 13 => ⟨S32x16x256x256, .f32⟩
  | 14 => ⟨S_, .f32⟩
  | 15 => ⟨S32x256x256, .f32⟩
  | 16 => ⟨S32x1x256x256, .f32⟩
  | 17 => ⟨S32x1x256x256, .f32⟩
  | 18 => ⟨S_, .f32⟩
  | 19 => ⟨S32x1x256x256, .f32⟩
  | 20 => ⟨S32x1x256x256, .f32⟩
  | 21 => ⟨S32x16x256x256, .f32⟩
  | 22 => ⟨S32x16x256x256, .f32⟩
  | 23 => ⟨S32x1x256x256, .i32⟩
  | 24 => ⟨S32x1x256x256, .f32⟩
  | 25 => ⟨S_, .f32⟩
  | 26 => ⟨S32x1x256x256, .f32⟩
  | 27 => ⟨S32x1x256x256, .i1⟩
  | 28 => ⟨S32x1x256x256, .f32⟩
  | 29 => ⟨S_, .f32⟩
  | 30 => ⟨S32x1, .f32⟩
  | 31 => ⟨S_, .f32⟩
  | 32 => ⟨S32x1, .f32⟩
  | 33 => ⟨S32x1, .f32⟩
  | 34 => ⟨S32x16x256x256, .f32⟩
  | 35 => ⟨S32x16x256x256, .f32⟩
  | 36 => ⟨S_, .f32⟩
  | 37 => ⟨S32x16, .f32⟩
  | 38 => ⟨S32x16, .f32⟩
  | 39 => ⟨S32x16, .f32⟩
  | 40 => ⟨S32x16x1x1, .f32⟩
  | 41 => ⟨S32x16x256x256, .f32⟩
  | 42 => ⟨S32x16x256x256, .f32⟩
  | 43 => ⟨S_, .f32⟩
  | 44 => ⟨S32x16, .f32⟩
  | 45 => ⟨S32x16, .f32⟩
  | 46 => ⟨S32x16, .f32⟩
  | 47 => ⟨S32x16x1x1, .f32⟩
  | 48 => ⟨S_, .f32⟩
  | 49 => ⟨S32x1x256x256, .f32⟩
  | 50 => ⟨S32x1x256x256, .f32⟩
  | 51 => ⟨S32x16x256x256, .f32⟩
  | 52 => ⟨S32x16x256x256, .f32⟩
  | 53 => ⟨S32x16x256x256, .f32⟩
  | 54 => ⟨S32x16x256x256, .f32⟩
  | 55 => ⟨S32x16x256x256, .f32⟩
  | 56 => ⟨S32x16x256x256, .f32⟩
  | 57 => ⟨S_, .f32⟩
  | 58 => ⟨S32x1x256x256, .f32⟩
  | 59 => ⟨S32x1x256x256, .f32⟩
  | 60 => ⟨S32x16x256x256, .f32⟩
  | 61 => ⟨S32x16x256x256, .f32⟩
  | 62 => ⟨S32x16x256x256, .f32⟩
  | 63 => ⟨S32x16x256x256, .f32⟩
  | 64 => ⟨S32x16x256x256, .f32⟩
  | 65 => ⟨S32x16x256x256, .f32⟩
  | 66 => ⟨S32x16x256x256, .f32⟩
  | 67 => ⟨S32x16x256x256, .f32⟩
  | 68 => ⟨S_, .f32⟩
  | 69 => ⟨S32x1x256x256, .f32⟩
  | 70 => ⟨S32x1x256x256, .f32⟩
  | 71 => ⟨S32x16x256x256, .f32⟩
  | 72 => ⟨S32x16x256x256, .f32⟩
  | 73 => ⟨S32x16x256x256, .f32⟩
  | 74 => ⟨S32x16x256x256, .f32⟩
  | 75 => ⟨S32x16x256x256, .f32⟩
  | 76 => ⟨S32x16x256x256, .f32⟩
  | 77 => ⟨S_, .f32⟩
  | 78 => ⟨S32x1x256x256, .f32⟩
  | 79 => ⟨S32x1x256x256, .f32⟩
  | 80 => ⟨S32x16x256x256, .f32⟩
  | 81 => ⟨S32x16x256x256, .f32⟩
  | 82 => ⟨S32x16x256x256, .f32⟩
  | 83 => ⟨S32x16x256x256, .f32⟩
  | 84 => ⟨S_, .f32⟩
  | 85 => ⟨S32x1x256x256, .f32⟩
  | 86 => ⟨S32x1x256x256, .i1⟩
  | 87 => ⟨S32x1x256x256, .f32⟩
  | 88 => ⟨S_, .f32⟩
  | 89 => ⟨S32x1, .f32⟩
  | 90 => ⟨S_, .f32⟩
  | 91 => ⟨S32x1, .f32⟩
  | 92 => ⟨S32x1, .f32⟩
  | 93 => ⟨S32x16x256x256, .f32⟩
  | 94 => ⟨S32x16x256x256, .f32⟩
  | 95 => ⟨S_, .f32⟩
  | 96 => ⟨S32x16, .f32⟩
  | 97 => ⟨S32x16, .f32⟩
  | 98 => ⟨S32x16, .f32⟩
  | 99 => ⟨S32x16x1x1, .f32⟩
  | 100 => ⟨S32x16x256x256, .f32⟩
  | 101 => ⟨S32x16x256x256, .f32⟩
  | 102 => ⟨S_, .f32⟩
  | 103 => ⟨S32x16, .f32⟩
  | 104 => ⟨S32x16, .f32⟩
  | 105 => ⟨S32x16, .f32⟩
  | 106 => ⟨S32x16x1x1, .f32⟩
  | 107 => ⟨S_, .f32⟩
  | 108 => ⟨S32x1x256x256, .f32⟩
  | 109 => ⟨S32x1x256x256, .f32⟩
  | 110 => ⟨S32x16x256x256, .f32⟩
  | 111 => ⟨S32x16x256x256, .f32⟩
  | 112 => ⟨S32x16x256x256, .f32⟩
  | 113 => ⟨S32x16x256x256, .f32⟩
  | 114 => ⟨S32x16x256x256, .f32⟩
  | 115 => ⟨S32x16x256x256, .f32⟩
  | 116 => ⟨S_, .f32⟩
  | 117 => ⟨S32x1x256x256, .f32⟩
  | 118 => ⟨S32x1x256x256, .f32⟩
  | 119 => ⟨S32x16x256x256, .f32⟩
  | 120 => ⟨S32x16x256x256, .f32⟩
  | 121 => ⟨S32x16x256x256, .f32⟩
  | 122 => ⟨S32x16x256x256, .f32⟩
  | 123 => ⟨S32x16x256x256, .f32⟩
  | 124 => ⟨S32x16x256x256, .f32⟩
  | 125 => ⟨S32x16x256x256, .f32⟩
  | 126 => ⟨S32x16x256x256, .f32⟩
  | 127 => ⟨S_, .f32⟩
  | _ => ⟨S32x16x256x256, .f32⟩

abbrev hbmTy0_1 (i : Nat) : BufTy := match i % 128 with
  | 0 => ⟨S32x1x256x256, .f32⟩
  | 1 => ⟨S32x1x256x256, .f32⟩
  | 2 => ⟨S32x16x256x256, .f32⟩
  | 3 => ⟨S32x16x256x256, .f32⟩
  | 4 => ⟨S32x16x256x256, .f32⟩
  | 5 => ⟨S32x16x256x256, .f32⟩
  | 6 => ⟨S32x16x256x256, .f32⟩
  | 7 => ⟨S32x16x256x256, .f32⟩
  | 8 => ⟨S_, .f32⟩
  | 9 => ⟨S32x1x256x256, .f32⟩
  | 10 => ⟨S32x1x256x256, .f32⟩
  | 11 => ⟨S32x16x256x256, .f32⟩
  | 12 => ⟨S32x16x256x256, .f32⟩
  | 13 => ⟨S32x16x256x256, .f32⟩
  | 14 => ⟨S32x16x256x256, .f32⟩
  | 15 => ⟨S32x16x256x256, .f32⟩
  | 16 => ⟨S_, .f32⟩
  | 17 => ⟨S32x256x256, .f32⟩
  | 18 => ⟨S32x16x256x256, .f32⟩
  | 19 => ⟨S_, .f32⟩
  | 20 => ⟨S32x256x256, .f32⟩
  | 21 => ⟨S32x256x256, .f32⟩
  | 22 => ⟨S32x16x256x256, .f32⟩
  | 23 => ⟨S_, .f32⟩
  | 24 => ⟨S32x256x256, .f32⟩
  | 25 => ⟨S32x256x256, .f32⟩
  | 26 => ⟨S32x256x256, .f32⟩
  | 27 => ⟨S_, .f32⟩
  | 28 => ⟨S32x256x256, .f32⟩
  | 29 => ⟨S32x256x256, .f32⟩
  | 30 => ⟨S32x256x256, .f32⟩
  | 31 => ⟨S32x16x256x256, .f32⟩
  | 32 => ⟨S_, .f32⟩
  | 33 => ⟨S32x256x256, .f32⟩
  | 34 => ⟨S32x16x256x256, .f32⟩
  | 35 => ⟨S_, .f32⟩
  | 36 => ⟨S32x256x256, .f32⟩
  | 37 => ⟨S32x256x256, .f32⟩
  | 38 => ⟨S32x16x256x256, .f32⟩
  | 39 => ⟨S_, .f32⟩
  | 40 => ⟨S32x256x256, .f32⟩
  | 41 => ⟨S32x256x256, .f32⟩
  | 42 => ⟨S32x256x256, .f32⟩
  | 43 => ⟨S_, .f32⟩
  | 44 => ⟨S32x256x256, .f32⟩
  | 45 => ⟨S32x256x256, .f32⟩
  | 46 => ⟨S32x256x256, .f32⟩
  | 47 => ⟨S32x256x256, .f32⟩
  | 48 => ⟨S32x256x256, .f32⟩
  | 49 => ⟨S32x16x256x256, .f32⟩
  | 50 => ⟨S_, .f32⟩
  | 51 => ⟨S32x256x256, .f32⟩
  | 52 => ⟨S32x16x256x256, .f32⟩
  | 53 => ⟨S_, .f32⟩
  | 54 => ⟨S32x256x256, .f32⟩
  | 55 => ⟨S32x256x256, .f32⟩
  | 56 => ⟨S32x16x256x256, .f32⟩
  | 57 => ⟨S_, .f32⟩
  | 58 => ⟨S32x256x256, .f32⟩
  | 59 => ⟨S32x256x256, .f32⟩
  | 60 => ⟨S32x256x256, .f32⟩
  | 61 => ⟨S_, .f32⟩
  | 62 => ⟨S32x256x256, .f32⟩
  | 63 => ⟨S32x256x256, .f32⟩
  | 64 => ⟨S32x256x256, .f32⟩
  | 65 => ⟨S32x16x256x256, .f32⟩
  | 66 => ⟨S_, .f32⟩
  | 67 => ⟨S32x256x256, .f32⟩
  | 68 => ⟨S32x16x256x256, .f32⟩
  | 69 => ⟨S_, .f32⟩
  | 70 => ⟨S32x256x256, .f32⟩
  | 71 => ⟨S32x256x256, .f32⟩
  | 72 => ⟨S32x16x256x256, .f32⟩
  | 73 => ⟨S_, .f32⟩
  | 74 => ⟨S32x256x256, .f32⟩
  | 75 => ⟨S32x256x256, .f32⟩
  | 76 => ⟨S32x256x256, .f32⟩
  | 77 => ⟨S_, .f32⟩
  | 78 => ⟨S32x256x256, .f32⟩
  | 79 => ⟨S32x256x256, .f32⟩
  | 80 => ⟨S32x256x256, .f32⟩
  | 81 => ⟨S32x256x256, .f32⟩
  | 82 => ⟨S32x256x256, .f32⟩
  | 83 => ⟨S32x256x256, .f32⟩
  | 84 => ⟨S32x256x256, .f32⟩
  | 85 => ⟨S_, .f32⟩
  | 86 => ⟨S_, .f32⟩
  | 87 => ⟨S_, .f32⟩
  | 88 => ⟨S_, .f32⟩
  | _ => ⟨S32x16x256x256, .f32⟩

abbrev hbmTy (i : Nat) : BufTy := match i / 128 with
  | 0 => hbmTy0_0 i
  | 1 => hbmTy0_1 i
  | _ => ⟨S32x16x256x256, .f32⟩

abbrev bufTy : (tb : Table) → Fin (tcTables nBuf tb) → BufTy
  | .hbm, ⟨i, _⟩ => hbmTy i
  | _, _ => ⟨S32x16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_9 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_10 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_11 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_12 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_13 : Ref sig .tc := ⟨.hbm, 88, rfl⟩
abbrev main_v71 : Ref sig .tc := ⟨.hbm, 89, rfl⟩
abbrev main_cst_14 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_15 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_16 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_17 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_18 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_cst_19 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_cst_20 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_cst_21 : Ref sig .tc := ⟨.hbm, 144, rfl⟩
abbrev main_v119 : Ref sig .tc := ⟨.hbm, 145, rfl⟩
abbrev main_v120 : Ref sig .tc := ⟨.hbm, 146, rfl⟩
abbrev main_cst_22 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_cst_23 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_cst_24 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_cst_25 : Ref sig .tc := ⟨.hbm, 160, rfl⟩
abbrev main_v131 : Ref sig .tc := ⟨.hbm, 161, rfl⟩
abbrev main_v132 : Ref sig .tc := ⟨.hbm, 162, rfl⟩
abbrev main_cst_26 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_cst_27 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_cst_28 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_cst_29 : Ref sig .tc := ⟨.hbm, 178, rfl⟩
abbrev main_v145 : Ref sig .tc := ⟨.hbm, 179, rfl⟩
abbrev main_v146 : Ref sig .tc := ⟨.hbm, 180, rfl⟩
abbrev main_cst_30 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_cst_31 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_cst_32 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_cst_33 : Ref sig .tc := ⟨.hbm, 194, rfl⟩
abbrev main_v157 : Ref sig .tc := ⟨.hbm, 195, rfl⟩
abbrev main_v158 : Ref sig .tc := ⟨.hbm, 196, rfl⟩
abbrev main_cst_34 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_cst_35 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_cst_36 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_cst_37 : Ref sig .tc := ⟨.hbm, 213, rfl⟩
abbrev main_v172 : Ref sig .tc := ⟨.hbm, 214, rfl⟩
abbrev main_cst_38 : Ref sig .tc := ⟨.hbm, 215, rfl⟩
abbrev main_v173 : Ref sig .tc := ⟨.hbm, 216, rfl⟩

abbrev nD : Nat := 1
abbrev τ : Topo := Topo.v7x

variable {F : FTy → Type} [FloatOps F]

class Facts₀ : Prop where
  reducesTo_S32x16x256x256_S32x256x256_d1 : S32x16x256x256.ReducesTo [1] S32x256x256
  h_S_ : 0 < S_.numel
  bcast_S32x256x256_S32x1x256x256_0_2_3 : S32x256x256.BroadcastsInDim S32x1x256x256 (![0, 2, 3] : Fin 3 → Fin S32x1x256x256.rank)
  bcast_S_S32x1x256x256 : S_.BroadcastsInDim S32x1x256x256 (![] : Fin 0 → Fin S32x1x256x256.rank)
  bcast_S32x1x256x256_S32x16x256x256_0_1_2_3 : S32x1x256x256.BroadcastsInDim S32x16x256x256 (![0, 1, 2, 3] : Fin 4 → Fin S32x16x256x256.rank)
  reducesTo_S32x1x256x256_S32x1_d2_3 : S32x1x256x256.ReducesTo [2, 3] S32x1
  bcast_S_S32x1 : S_.BroadcastsInDim S32x1 (![] : Fin 0 → Fin S32x1.rank)
  reducesTo_S32x16x256x256_S32x16_d2_3 : S32x16x256x256.ReducesTo [2, 3] S32x16
  bcast_S32x1_S32x16_0_1 : S32x1.BroadcastsInDim S32x16 (![0, 1] : Fin 2 → Fin S32x16.rank)
  bcast_S32x16_S32x16x1x1_0_1 : S32x16.BroadcastsInDim S32x16x1x1 (![0, 1] : Fin 2 → Fin S32x16x1x1.rank)
  bcast_S32x16x1x1_S32x16x256x256_0_1_2_3 : S32x16x1x1.BroadcastsInDim S32x16x256x256 (![0, 1, 2, 3] : Fin 4 → Fin S32x16x256x256.rank)
  bcast_S_S32x256x256 : S_.BroadcastsInDim S32x256x256 (![] : Fin 0 → Fin S32x256x256.rank)
  reducesTo_S32x256x256_S_d0_1_2 : S32x256x256.ReducesTo [0, 1, 2] S_

variable [Facts₀]

class Facts : Prop extends Facts₀ where

variable [Facts]
-- ==== Proof.RefFrame.lean ====
/-
  The reference program has no kernel: its @main is a straight line of host operations, and its generated run
  states that every weakly fair execution terminates with the result at the operations' composed term and the
  three argument arrays unchanged. Dropping the result's conjunct leaves the frame claim.
-/
import proofs.«142478_j79491254714952_2_alg».proof.Defs
import proofs.«142478_j79491254714952_2_alg».proof.Proof.Gen.ReferenceIdeal
import proofs.«142478_j79491254714952_2_alg».proof.Proof.Gen.Pre_finite_inputs
import proofs.«142478_j79491254714952_2_alg».proof.Proof.Gen.ReferenceIdeal.Run

noncomputable section

namespace Cert.Proof.RefFrame

open Idealize.ShloMosaic Idealize.SL.Sem

/-- The reference runs to the end, faults nowhere, and leaves its arguments as launched. -/
theorem frame_ri :
    Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

end Cert.Proof.RefFrame

end
-- ==== Proof.PreDecode.lean ====
/-
  What the precondition says of the argument arrays, at the extended reals: every entry of the two float arrays
  is a real number (its absolute value is below +∞), and every label is 0 or 1 (it is ≥ 0 and < 2 as a signed
  word). The predicate is a conjunction of four all-quantified comparisons, each printed as a reduction by "and"
  from the constant 1 over every axis; a reduction that ends at 1 met only 1s.
-/
import proofs.«142478_j79491254714952_2_alg».proof.Pre_finite_inputs
import proofs.«142478_j79491254714952_2_alg».proof.Proof.Gen.Pre_finite_inputs
import Idealize.ShloMosaic.PureOps.Ideal
import Idealize.ShloMosaic.Lib.ReduceAll
import Idealize.ShloMosaic.Lib.ValueIdx

noncomputable section

namespace Cert.Proof.PreDecode

open Idealize.ShloMosaic Cert.Pre_finite_inputs

instance : Subsingleton S_.Idx := ⟨fun a b => funext fun d => d.elim0⟩

attribute [local instance] Cert.Pre_finite_inputs.Gen.facts

/-- An extended real whose absolute value is below the pattern of +∞ is a real number. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  induction x using EReal.rec with
  | bot => exact absurd h (by simp [FloatOps.cmpf, FloatOps.hostAbsf, FloatOps.absf, Ideal.cmp, Ideal.ofBits, Ideal.ieee])
  | coe r => exact ⟨r, rfl⟩
  | top => exact absurd h (by simp [FloatOps.cmpf, FloatOps.hostAbsf, FloatOps.absf, Ideal.cmp, Ideal.ofBits, Ideal.ieee])

/-- A signed word that is ≥ 0 and < 2 is 0 or 1. -/
theorem zero_or_one (g : BitVec 32) (h0 : IntOp.cmpi .sge g 0#32 = 1#1) (h2 : IntOp.cmpi .slt g 2#32 = 1#1) :
    g = 0#32 ∨ g = 1#32 := by
  rw [IntOp.cmpi_sge] at h0
  rw [IntOp.cmpi_slt] at h2
  have e0 : (0#32 : BitVec 32).toInt = 0 := by decide
  have e2 : (2#32 : BitVec 32).toInt = 2 := by decide
  rw [e0] at h0; rw [e2] at h2
  have : g.toInt = 0 ∨ g.toInt = 1 := by omega
  rcases this with h | h
  · left; exact BitVec.eq_of_toInt_eq (by rw [h, e0])
  · right; exact BitVec.eq_of_toInt_eq (by rw [h]; decide)

/-- The precondition, decoded. -/
theorem decode (A0 A1 : FVec Ideal S32x16x256x256 .f32) (G : IVec S32x256x256 32)
    (h : Cert.Pre_finite_inputs.fn (F := Ideal) A0 A1 G = fun _ => 1#1) :
    (∀ i, ∃ r : ℝ, A0 i = (r : EReal)) ∧ (∀ i, ∃ r : ℝ, A1 i = (r : EReal)) ∧ (∀ i, G i = 0#32 ∨ G i = 1#32) := by
  have h0 := congrFun h ValueIdx.ix0
  dsimp only [fn, fn_part1, andi] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_⟩
  · exact real_of_abs_lt (A0 i) (Host.reduce_andi_all _ _ _ _ _ h1 i)
  · exact real_of_abs_lt (A1 i) (Host.reduce_andi_all _ _ _ _ _ h2 i)
  · exact zero_or_one (G i) (Host.reduce_andi_all _ _ _ _ _ h3 i) (Host.reduce_andi_all _ _ _ _ _ h4 i)

end Cert.Proof.PreDecode

end
-- ==== Proof.K.Region0Runs.lean ====
/- Region 0 (the first pallas_call, the per-batch reduction kernel): what its two control cases share.
   The grid is (32, 2), point t = 2*b + h. At h = 0 (even points) the kernel zeroes its two accumulators
   before adding the tile's sums into them and stores nothing into its outputs; at h = 1 (odd points)
   it adds the tile's sums to what the point before left and copies the accumulators to the outputs.
   Here: the windows' blocks at the region-entry contents, the two conditions in closed form, where the
   output windows are idle, the staging and scratch memrefs, and the region invariant opened at the two
   accumulators. -/
import proofs.«142478_j79491254714952_2_alg».proof.Proof.Gen.Kernel.Launch
import proofs.«142478_j79491254714952_2_alg».proof.Proof.Gen.Kernel.Skeleton
import proofs.«142478_j79491254714952_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Blocks
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any
    proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The body's two conditions -/

/-- `h == 0`: the condition under which the accumulators are zeroed, from the grid coordinates. -/
abbrev cond0_0 (i : grid0.Coords) : Prop := (Scalar.cmpi .ne (Scalar.extui (Scalar.cmpi .eq (BitVec.ofNat 32 (i 1).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- `h == last`: the condition under which the accumulators are copied to the outputs. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At the even points the two outputs are idle (nothing is stored into them) and are not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
/-- At the odd points both outputs are live: the body stores into them. -/
theorem liveAt0_3_B : ∀ t : Fin cfg0.N, ¬cond0_0 (grid0.coords t) → cond0_1 (grid0.coords t) → cfg0.idle 3 (grid0.coords t) = false := by decide +kernel
theorem liveAt0_4_B : ∀ t : Fin cfg0.N, ¬cond0_0 (grid0.coords t) → cond0_1 (grid0.coords t) → cfg0.idle 4 (grid0.coords t) = false := by decide +kernel

/-! ## The staging and scratch memrefs -/

/-- One staging buffer of each output window, through which its contents are stated. -/
abbrev VO0_3 : View sig .tc .vmem S1x1x64 .f32 := (Memref.whole cc0_stg3_0 : Memref sig .tc .vmem S1x1x64 .f32).view
abbrev VO0_4 : View sig .tc .vmem S1x1x1 .f32 := (Memref.whole cc0_stg4_0 : Memref sig .tc .vmem S1x1x1 .f32).view
/-- Each window's current staging memref at point `t`, as the pipeline passes it to the body, and its wholeness. -/
abbrev ms0_0 (t : Fin cfg0.N) : Memref sig .tc .vmem S1x16x128x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16x128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x256 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1 .f32 := win0_4.stage (cfg0.slots t 4)
abbrev hs0_4 (t : Fin cfg0.N) : (ms0_4 t).IsWhole := hstage0_4 ((cfg0.slots t 4).cast nbuf0_4)
/-- The two accumulators: whole scoped buffers of the kernel's own, passed beside the windows. -/
abbrev scM0_0 : Memref sig .tc .vmem S1x1x64 .f32 := Memref.whole cc0_scratch0
abbrev scM0_1 : Memref sig .tc .vmem S1x1x1 .f32 := Memref.whole cc0_scratch1
/-- The accumulators as views: what they hold is stated through them. -/
abbrev VS0_0 : View sig .tc .vmem S1x1x64 .f32 := scM0_0.view
abbrev VS0_1 : View sig .tc .vmem S1x1x1 .f32 := scM0_1.view

/-- The scoped buffers of this call that are not its own: carried along unopened. -/
abbrev restBut0 (c : Dev nD) : sProp 𝕄 :=
  Pipeline.scopedRestBut (Ix := Unit) (Name := ℕ) (U := UR sig nD τ) (Lvl := ℕ) (Val := Elt F) spec0 c [cc0_scratch0, cc0_scratch1]

/-- The launch's invariant with the two accumulators as memrefs owned at some contents, the other scoped
    buffers unopened, and the generator register at some state. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ restBut0 c) ∗ (∃ r, prngReg c r)) := by
  unfold Pipeline.ΦA; rw [scopedRest0_split]; simp only [scM0_0, scM0_1, owns_whole]; try rfl

end Cert.Kernel.Hand

end
-- ==== Proof.K.Region0RunA.lean ====
/- Region 0, the even points (h = 0): the whole body run once. The accumulators are zeroed, the tile's
   masked and total channel sums and its class-0 pixel count are added to the zeros, and nothing is stored
   into the two outputs. -/
import proofs.«142478_j79491254714952_2_alg».proof.Proof.K.Region0Runs

-- membership in a rectangle of full extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref and in each accumulator, as pieces (last first),
    at an even point (the first condition holds, the second does not), with the proof that on whole memrefs —
    the three inputs' at their contents `x·`, the two outputs' (idle here) at contents `xi·` handed back untouched,
    the two accumulators at anything — the body runs to the continuation holding the inputs' as they were, the
    outputs' as they were, and each accumulator with its pieces written. -/
noncomputable def kernelRun0_A (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : cond0_0 i) (hc1 : ¬cond0_1 i)
    (x0 : Vec F S1x16x128x256 .f32) (x1 : Vec F S1x16x128x256 .f32) (x2 : Vec F S1x128x256 .i32) :
    Σ' (L3 : List (View.Piece (Elt F) S1x1x64 .f32)) (L4 : List (View.Piece (Elt F) S1x1x1 .f32)) (LS0 : List (View.Piece (Elt F) S1x1x64 .f32)), { LS1 : List (View.Piece (Elt F) S1x1x1 .f32) //
      ∀ (xi3 : Vec F S1x1x64 .f32) (xi4 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel1 i arg2 harg2 arg3 harg3 arg4 harg4 arg5 harg5 arg6 harg6 arg7 harg7 arg8 harg8) K } := by
  refine ⟨[], [], ?_, ?_, fun xi3 xi4 E K => ?run⟩
  case run =>
    simp only [cc0__kernel1_eq_skeleton]; unfold cc0__kernel1_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.K.Region0RunB.lean ====
/- Region 0, the odd points (h = 1, the last tile of a batch element): the whole body run once. The tile's
   sums are added to what the point before left in the accumulators, and the accumulators are copied to
   the two outputs. -/
import proofs.«142478_j79491254714952_2_alg».proof.Proof.K.Region0RunA

-- membership in a rectangle of full extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref and in each accumulator, as pieces (last first),
    at an odd point (the first condition fails, the second holds), with the proof that on whole memrefs —
    the three inputs' at their contents `x·`, the two outputs' at anything, the two accumulators at the contents
    `xs·` the point before left — the body runs to the continuation holding the inputs' as they were and each
    output and each accumulator with its pieces written. -/
noncomputable def kernelRun0_B (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : ¬cond0_0 i) (hc1 : cond0_1 i)
    (x0 : Vec F S1x16x128x256 .f32) (x1 : Vec F S1x16x128x256 .f32) (x2 : Vec F S1x128x256 .i32) (xs0 : Vec F S1x1x64 .f32) (xs1 : Vec F S1x1x1 .f32) :
    Σ' (L3 : List (View.Piece (Elt F) S1x1x64 .f32)) (L4 : List (View.Piece (Elt F) S1x1x1 .f32)) (LS0 : List (View.Piece (Elt F) S1x1x64 .f32)), { LS1 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel1 i arg2 harg2 arg3 harg3 arg4 harg4 arg5 harg5 arg6 harg6 arg7 harg7 arg8 harg8) K } := by
  refine ⟨?_, ?_, ?_, ?_, fun E K => ?run⟩
  case run =>
    simp only [cc0__kernel1_eq_skeleton]; unfold cc0__kernel1_skel
    simp only [k0_part2_eq_skeleton, k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.Kernel.Hand

end
-- ==== Proof.K.Region0Data.lean ====
/- Region 0 (the per-batch reduction kernel): what each control case leaves in the outputs and the two
   accumulators, what they hold point by point, the region invariant, and the pipeline's proof data, all at
   the region-entry buffer contents `V`. -/
import proofs.«142478_j79491254714952_2_alg».proof.Proof.K.Region0RunB

-- membership in a rectangle of full extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The pieces each case finds -/

/-- An even point stores nothing into output 3: no pieces, a placeholder nothing consults (the window is neither written back there nor read at the next point). -/
def out0_A_3 (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : cond0_0 i) (hc1 : ¬cond0_1 i)
    (x0 : Vec F S1x16x128x256 .f32) (x1 : Vec F S1x16x128x256 .f32) (x2 : Vec F S1x128x256 .i32) : Vec F S1x1x64 .f32 :=
  VO0_3.read (Elt F) (VO0_3.writes (Elt F) VO0_3.junk (kernelRun0_A c i arg2 harg2 arg3 harg3 arg4 harg4 arg5 harg5 arg6 harg6 arg7 harg7 arg8 harg8 hc0 hc1 x0 x1 x2).1)

/-- An even point stores nothing into output 4: no pieces, a placeholder nothing consults (the window is neither written back there nor read at the next point). -/
def out0_A_4 (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : cond0_0 i) (hc1 : ¬cond0_1 i)
    (x0 : Vec F S1x16x128x256 .f32) (x1 : Vec F S1x16x128x256 .f32) (x2 : Vec F S1x128x256 .i32) : Vec F S1x1x1 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1 x2).2.1)

/-- At an even point the pieces found for accumulator 0 tile its buffer (checked by evaluation), so they cover it. -/
theorem scover0_A_0 (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : cond0_0 i) (hc1 : ¬cond0_1 i)
    (x0 : Vec F S1x16x128x256 .f32) (x1 : Vec F S1x16x128x256 .f32) (x2 : Vec F S1x128x256 .i32) (y : S1x1x64.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL (kernelRun0_A c i arg2 harg2 arg3 harg3 arg4 harg4 arg5 harg5 arg6 harg6 arg7 harg7 arg8 harg8 hc0 hc1 x0 x1 x2).2.2.1 S1x1x64.size (by sl_kernel_rfl) y

/-- What an even point leaves in accumulator 0: its pieces read back. -/
def sout0_A_0 (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : cond0_0 i) (hc1 : ¬cond0_1 i)
    (x0 : Vec F S1x16x128x256 .f32) (x1 : Vec F S1x16x128x256 .f32) (x2 : Vec F S1x128x256 .i32) : Vec F S1x1x64 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).2.2.1)

/-- At an even point the pieces found for accumulator 1 tile its buffer (checked by evaluation), so they cover it. -/
theorem scover0_A_1 (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : cond0_0 i) (hc1 : ¬cond0_1 i)
    (x0 : Vec F S1x16x128x256 .f32) (x1 : Vec F S1x16x128x256 .f32) (x2 : Vec F S1x128x256 .i32) (y : S1x1x1.Idx) :
    ∃ pc ∈ (kernelRun0_A c i arg2 harg2 arg3 harg3 arg4 harg4 arg5 harg5 arg6 harg6 arg7 harg7 arg8 harg8 hc0 hc1 x0 x1 x2).2.2.2.1, y ∈ pc.1.set :=
  View.cover_of_tiledL (kernelRun0_A c i arg2 harg2 arg3 harg3 arg4 harg4 arg5 harg5 arg6 harg6 arg7 harg7 arg8 harg8 hc0 hc1 x0 x1 x2).2.2.2.1 S1x1x1.size (by sl_kernel_rfl) y

/-- What an even point leaves in accumulator 1: its pieces read back. -/
def sout0_A_1 (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : cond0_0 i) (hc1 : ¬cond0_1 i)
    (x0 : Vec F S1x16x128x256 .f32) (x1 : Vec F S1x16x128x256 .f32) (x2 : Vec F S1x128x256 .i32) : Vec F S1x1x1 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2).2.2.2.1)

/-- At an odd point the pieces found for output 3 tile its buffer (checked by evaluation), so they cover it. -/
theorem cover0_B_3 (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : ¬cond0_0 i) (hc1 : cond0_1 i)
    (x0 : Vec F S1x16x128x256 .f32) (x1 : Vec F S1x16x128x256 .f32) (x2 : Vec F S1x128x256 .i32) (xs0 : Vec F S1x1x64 .f32) (xs1 : Vec F S1x1x1 .f32) (y : S1x1x64.Idx) :
    ∃ pc ∈ (kernelRun0_B c i arg2 harg2 arg3 harg3 arg4 harg4 arg5 harg5 arg6 harg6 arg7 harg7 arg8 harg8 hc0 hc1 x0 x1 x2 xs0 xs1).1, y ∈ pc.1.set :=
  View.cover_of_tiledL (kernelRun0_B c i arg2 harg2 arg3 harg3 arg4 harg4 arg5 harg5 arg6 harg6 arg7 harg7 arg8 harg8 hc0 hc1 x0 x1 x2 xs0 xs1).1 S1x1x64.size (by sl_kernel_rfl) y

/-- What an odd point leaves in output 3's staging buffer: its pieces read back. -/
def out0_B_3 (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : ¬cond0_0 i) (hc1 : cond0_1 i)
    (x0 : Vec F S1x16x128x256 .f32) (x1 : Vec F S1x16x128x256 .f32) (x2 : Vec F S1x128x256 .i32) (xs0 : Vec F S1x1x64 .f32) (xs1 : Vec F S1x1x1 .f32) : Vec F S1x1x64 .f32 :=
  VO0_3.read (Elt F) (VO0_3.writes (Elt F) VO0_3.junk (kernelRun0_B c i arg2 harg2 arg3 harg3 arg4 harg4 arg5 harg5 arg6 harg6 arg7 harg7 arg8 harg8 hc0 hc1 x0 x1 x2 xs0 xs1).1)

/-- At an odd point the pieces found for output 4 tile its buffer (checked by evaluation), so they cover it. -/
theorem cover0_B_4 (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : ¬cond0_0 i) (hc1 : cond0_1 i)
    (x0 : Vec F S1x16x128x256 .f32) (x1 : Vec F S1x16x128x256 .f32) (x2 : Vec F S1x128x256 .i32) (xs0 : Vec F S1x1x64 .f32) (xs1 : Vec F S1x1x1 .f32) (y : S1x1x1.Idx) :
    ∃ pc ∈ (kernelRun0_B c i arg2 harg2 arg3 harg3 arg4 harg4 arg5 harg5 arg6 harg6 arg7 harg7 arg8 harg8 hc0 hc1 x0 x1 x2 xs0 xs1).2.1, y ∈ pc.1.set :=
  View.cover_of_tiledL (kernelRun0_B c i arg2 harg2 arg3 harg3 arg4 harg4 arg5 harg5 arg6 harg6 arg7 harg7 arg8 harg8 hc0 hc1 x0 x1 x2 xs0 xs1).2.1 S1x1x1.size (by sl_kernel_rfl) y

/-- What an odd point leaves in output 4's staging buffer: its pieces read back. -/
def out0_B_4 (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : ¬cond0_0 i) (hc1 : cond0_1 i)
    (x0 : Vec F S1x16x128x256 .f32) (x1 : Vec F S1x16x128x256 .f32) (x2 : Vec F S1x128x256 .i32) (xs0 : Vec F S1x1x64 .f32) (xs1 : Vec F S1x1x1 .f32) : Vec F S1x1x1 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 xs0 xs1).2.1)

/-- At an odd point the pieces found for accumulator 0 tile its buffer (checked by evaluation), so they cover it. -/
theorem scover0_B_0 (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : ¬cond0_0 i) (hc1 : cond0_1 i)
    (x0 : Vec F S1x16x128x256 .f32) (x1 : Vec F S1x16x128x256 .f32) (x2 : Vec F S1x128x256 .i32) (xs0 : Vec F S1x1x64 .f32) (xs1 : Vec F S1x1x1 .f32) (y : S1x1x64.Idx) :
    ∃ pc ∈ (kernelRun0_B c i arg2 harg2 arg3 harg3 arg4 harg4 arg5 harg5 arg6 harg6 arg7 harg7 arg8 harg8 hc0 hc1 x0 x1 x2 xs0 xs1).2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.1 S1x1x64.size (by sl_kernel_rfl) y

/-- What an odd point leaves in accumulator 0: its pieces read back. -/
def sout0_B_0 (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : ¬cond0_0 i) (hc1 : cond0_1 i)
    (x0 : Vec F S1x16x128x256 .f32) (x1 : Vec F S1x16x128x256 .f32) (x2 : Vec F S1x128x256 .i32) (xs0 : Vec F S1x1x64 .f32) (xs1 : Vec F S1x1x1 .f32) : Vec F S1x1x64 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 xs0 xs1).2.2.1)

/-- At an odd point the pieces found for accumulator 1 tile its buffer (checked by evaluation), so they cover it. -/
theorem scover0_B_1 (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : ¬cond0_0 i) (hc1 : cond0_1 i)
    (x0 : Vec F S1x16x128x256 .f32) (x1 : Vec F S1x16x128x256 .f32) (x2 : Vec F S1x128x256 .i32) (xs0 : Vec F S1x1x64 .f32) (xs1 : Vec F S1x1x1 .f32) (y : S1x1x1.Idx) :
    ∃ pc ∈ (kernelRun0_B c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.2.1 S1x1x1.size (by sl_kernel_rfl) y

/-- What an odd point leaves in accumulator 1: its pieces read back. -/
def sout0_B_1 (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : ¬cond0_0 i) (hc1 : cond0_1 i)
    (x0 : Vec F S1x16x128x256 .f32) (x1 : Vec F S1x16x128x256 .f32) (x2 : Vec F S1x128x256 .i32) (xs0 : Vec F S1x1x64 .f32) (xs1 : Vec F S1x1x1 .f32) : Vec F S1x1x1 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1).2.2.2.1)

section Data
-- the TensorCore's buffer contents when the region is entered
variable (V : (c : Dev nD) → (b : Ref sig .tc) → Buf (Elt F) ((c : Thread nD τ).loc b))

/-! ## What the outputs and the accumulators hold after each point -/

/-- The accumulation. What the two outputs' staging buffers and the two accumulators hold after the body at
    position `n` (outputs 3, 4, then accumulators 0, 1): at an even point the tile's sums over the zeros just
    stored; at an odd point the tile's sums over what the point before left, and the outputs at the copy. -/
def outsAt0 (c : Dev nD) : (n : ℕ) → n < cfg0.N → (Vec F S1x1x64 .f32 × Vec F S1x1x1 .f32) × (Vec F S1x1x64 .f32 × Vec F S1x1x1 .f32)
  | 0, hn => ((out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩)), (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩)))
  | n + 1, hn =>
    if h0 : (n + 1) % 2 = 0 then
      if h1 : (n + 1) % 2 = 1 then
        False.elim (by omega)
      else
        ((out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩)), (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩)))
    else
      if h1 : (n + 1) % 2 = 1 then
        ((out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2), (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2))
      else
        False.elim (by omega)

/-- `outsAt0` at an even point. -/
theorem outsAt0_A (c : Dev nD) (t : Fin cfg0.N) (h0 : t.val % 2 = 0) (h1 : ¬t.val % 2 = 1) :
    outsAt0 V c t.val t.isLt = ((out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t)), (sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t))) := by
  obtain ⟨n, hn⟩ := t
  cases n with
  | zero => exact rfl
  | succ n => exact (dif_pos h0).trans ((dif_neg h1).trans rfl)

/-- `outsAt0` at an odd point: over what the point before left in the accumulators. -/
theorem outsAt0_B (c : Dev nD) (t : Fin cfg0.N) (h0 : ¬t.val % 2 = 0) (h1 : t.val % 2 = 1) :
    outsAt0 V c t.val t.isLt = ((out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2), (sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2)) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the launch's (every scoped buffer at
    anything); afterwards the two accumulators at what the point before left in them, the other scoped buffers
    unopened, and the generator register at some state. -/
def PhiS (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.1) ∗ owns (c : Thread nD τ) scM0_1 fullShare ((outsAt0 V c n hn).2.2)) ∗ restBut0 c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the accumulators at that point's contents. -/
theorem PhiS_succ (c : Dev nD) (n : ℕ) (hn : n < cfg0.N) :
    PhiS V c (n + 1) hn = iprop(iprop(iprop(owns (c : Thread nD τ) scM0_0 fullShare ((outsAt0 V c n hn).2.1) ∗ owns (c : Thread nD τ) scM0_1 fullShare ((outsAt0 V c n hn).2.2)) ∗ restBut0 c) ∗ (∃ r, prngReg c r)) := rfl

/-- Before a point that is not the first: the accumulators at what the point before left. -/
theorem PhiS_pos (c : Dev nD) (n : ℕ) (h : n ≤ cfg0.N) (hz : n ≠ 0) :
    PhiS V c n h = iprop(iprop(iprop(owns (c : Thread nD τ) scM0_0 fullShare ((outsAt0 V c (n - 1) (by omega)).2.1) ∗ owns (c : Thread nD τ) scM0_1 fullShare ((outsAt0 V c (n - 1) (by omega)).2.2)) ∗ restBut0 c) ∗ (∃ r, prngReg c r)) := by
  cases n with
  | zero => exact absurd rfl hz
  | succ n => rfl

/-! ## The pipeline's proof data -/

/-- The proof data of pipeline 0 on core `c`: the arrays as the region finds them; after the body at point `t`
    each input's buffer at its block and the two outputs' at `outsAt0`; the invariant `PhiS`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1.1
    | ⟨4, _⟩ => (outsAt0 V c t.val t.isLt).1.2
  Φ t := PhiS V c t.val (Nat.le_of_lt_succ t.isLt)
  q _ := fullShare
  owed _ := 0

/-- The proof data's arrays are the region-entry contents (the definition projected, nothing unfolded). -/
theorem A_eq0 (c : Dev nD) (w : Fin cfg0.W) : (dat0 V c).A w = V c (Pipeline.arrRef spec0 w) := by
  dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1.1 := by dsimp only [dat0]
theorem after0_4 (c : Dev nD) (t : Fin cfg0.N) : (dat0 V c).after 4 t = (outsAt0 V c t.val t.isLt).1.2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Data

end Cert.Kernel.Hand

end
-- ==== Proof.K.Region0.lean ====
/- Region 0 (the per-batch reduction kernel): the body obligation of its pipeline at every grid point, and
   the passage between the launch's invariant and the region's. At an even point the accumulators may hold
   anything (they are zeroed first) and the outputs are handed back untouched; at an odd point the
   accumulators hold what the point before left and the outputs receive their copy. -/
import proofs.«142478_j79491254714952_2_alg».proof.Proof.K.Region0Data

-- membership in a rectangle of full extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Body
-- the TensorCore's buffer contents when the region is entered
variable (V : (c : Dev nD) → (b : Ref sig .tc) → Buf (Elt F) ((c : Thread nD τ).loc b))

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the parity of the point says which case it
    is in; the invariant hands the body the accumulators (at what the point before left; at anything at the
    first point), keeps the other scoped buffers and the generator register, and takes the accumulators back
    at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 2 = 0
  · by_cases h1 : t.val % 2 = 1
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A_0 sout0_A_1; (try dsimp only)
      by_cases hz : t.val = 0
      · rw [PhiS_castSucc V c t, PhiS_zero V c _ _ hz, PhiA0_eq]
        iintro ⟨⟨⟨⟨HS0, HS1⟩, Hrest⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t)).2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexists _; iexact H3
        iexists _; iexact H4
      · rw [PhiS_castSucc V c t, PhiS_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t)).2.2.2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexists _; iexact H3
        iexists _; iexact H4
  · by_cases h1 : t.val % 2 = 1
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_B t (fun h => h0 ((hcond0_0 t).mp h)) ((hcond0_1 t).mpr h1)], after0_3]
      rw [show (dat0 V c).leavesExact 4 t = owns (c : Thread nD τ) (ms0_4 t) fullShare ((dat0 V c).after 4 t) from by
        unfold Dat.leavesExact; rw [liveAt0_4_B t (fun h => h0 ((hcond0_0 t).mp h)) ((hcond0_1 t).mpr h1)], after0_4]
      rw [outsAt0_B V c t h0 h1]
      unfold out0_B_3 out0_B_4 sout0_B_0 sout0_B_1; (try dsimp only)
      by_cases hz : t.val = 0
      · exfalso; omega
      · rw [PhiS_castSucc V c t, PhiS_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ (fun h => h0 ((hcond0_0 t).mp h)) ((hcond0_1 t).mpr h1) (iblk0 V c 0 t) (iblk0 V c 1 t) (iblk0 V c 2 t) _ _).2.2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        iintro ⟨H0, H1, H2, ⟨%e3, H3⟩, ⟨%e4, H4⟩, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _)
              unfold owns; iexists _; isplitr
              swap; · iexact HS1
              ipureintro; exact View.read_writes_of_cover _ _ _ _ _ (scover0_B_1 c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_B_3 c _ _ _ _ _ _ _ _ _ _ _ _ _ _ _ _ _ _ _ _ _ _)
        unfold owns; iexists _; isplitr
        swap; · iexact H4
        ipureintro; exact View.read_writes_of_cover _ _ _ _ _ (cover0_B_4 c _ _ _ _ _ _ _ _ _ _ _ _ _ _ _ _ _ _ _ _ _ _)
    · exfalso; omega

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the launch's back: what the accumulators hold is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Body

end Cert.Kernel.Hand

end
-- ==== Proof.K.Region1.lean ====
import proofs.«142478_j79491254714952_2_alg».proof.Proof.Gen.Kernel.Launch
import proofs.«142478_j79491254714952_2_alg».proof.Proof.Gen.Kernel.Skeleton
import proofs.«142478_j79491254714952_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The second kernel's body, at one grid point

The second pallas_call runs over a 32 × 2 grid. At each point its body reads eleven blocks whole — the two
prediction blocks (16 channels × 128 rows × 256 columns), the label block (128 × 256), four per-channel
prototype columns (16 × 1 × 1) and four per-image scalars —, also reads the one-element output block (the
value read is never used), and writes the output block once, whole, with the point's partial sum.

So what the body leaves in the output's buffer is a function of the eleven input blocks alone: the single
stored value. This file states the body's Hoare triple in that form (the list of pieces the stores leave is
found by running the body symbolically, and it covers the block), the proof data of the pipeline that follow
from it (every input buffer holds its block, fetched at that point or kept from the point before; the output
buffer holds the stored value), and the body obligation of the pipeline loop at every point.
Everything is stated at a parameter `V`: the buffer contents when the region is entered.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's triple -/

set_option maxHeartbeats 4000000 in
/-- The pieces the body's stores leave in the output block's buffer (last first), WITH the proof that on whole
    buffers — the eleven inputs' at contents `x0 … x10`, the output's at anything — the body runs to the
    continuation holding the inputs' as they were and the output's with those pieces written over what it held.
    The pieces are found by running the body (its load of the output block reads whatever is there and the
    value goes nowhere). -/
noncomputable def kernelRun1 (c : Dev nD) (i : grid1.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x16x1x1 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1x1 .f32) (harg13 : arg13.IsWhole)
    (x0 : Vec F S1x16x128x256 .f32) (x1 : Vec F S1x16x128x256 .f32) (x2 : Vec F S1x128x256 .i32) (x3 : Vec F S1x16x1x1 .f32) (x4 : Vec F S1x16x1x1 .f32) (x5 : Vec F S1x16x1x1 .f32) (x6 : Vec F S1x16x1x1 .f32) (x7 : Vec F S1x1x1 .f32) (x8 : Vec F S1x1x1 .f32) (x9 : Vec F S1x1x1 .f32) (x10 : Vec F S1x1x1 .f32) :
    { L11 : List (View.Piece (Elt F) S1x1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11)) -∗ K ⟨⟩))
          ⊢ wp frame (wpE (defs₀ (F := F)) Variants.none c none) E (cc1__kernel2 i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc1__kernel2_eq_skeleton]; unfold cc1__kernel2_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact H11

/-! ## What the body leaves in the output block's buffer -/

/-- The pieces the run found cover the one-element block: one whole-block store. -/
theorem cover1_11 (c : Dev nD) (i : grid1.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x16x1x1 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1x1 .f32) (harg13 : arg13.IsWhole)
    (x0 : Vec F S1x16x128x256 .f32) (x1 : Vec F S1x16x128x256 .f32) (x2 : Vec F S1x128x256 .i32) (x3 : Vec F S1x16x1x1 .f32) (x4 : Vec F S1x16x1x1 .f32) (x5 : Vec F S1x16x1x1 .f32) (x6 : Vec F S1x16x1x1 .f32) (x7 : Vec F S1x1x1 .f32) (x8 : Vec F S1x1x1 .f32) (x9 : Vec F S1x1x1 .f32) (x10 : Vec F S1x1x1 .f32) (y : S1x1x1x1.Idx) :
    ∃ pc ∈ (kernelRun1 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1, y ∈ pc.1.set :=
  View.cover_of_tiledL (kernelRun1 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1 S1x1x1x1.size (by sl_kernel_rfl) y

/-- One buffer of the output window, through which its contents are stated (the choice does not matter: the pieces
    cover the block, so what they leave reads the same through any view over any prior contents). -/
abbrev VO1_11 : View sig .tc .vmem S1x1x1x1 .f32 := (Memref.whole cc1_stg11_0 : Memref sig .tc .vmem S1x1x1x1 .f32).view

/-- Each window's current buffer at point `t`, spelled as the pipeline passes it to the body, and its wholeness. -/
abbrev ms1_0 (t : Fin cfg1.N) : Memref sig .tc .vmem S1x16x128x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x16x128x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128x256 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x16x1x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x16x1x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x16x1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x16x1x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x1x1 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x1x1 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x1x1 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x1x1x1 .f32 := win1_11.stage (cfg1.slots t 11)
abbrev hs1_11 (t : Fin cfg1.N) : (ms1_11 t).IsWhole := hstage1_11 ((cfg1.slots t 11).cast nbuf1_11)

/-- What the body at point `t` leaves in the output block's buffer, from the eleven input blocks: the found pieces
    read back over arbitrary contents. -/
def out1_11 (c : Dev nD) (t : Fin cfg1.N) (x0 : Vec F S1x16x128x256 .f32) (x1 : Vec F S1x16x128x256 .f32) (x2 : Vec F S1x128x256 .i32) (x3 : Vec F S1x16x1x1 .f32) (x4 : Vec F S1x16x1x1 .f32) (x5 : Vec F S1x16x1x1 .f32) (x6 : Vec F S1x16x1x1 .f32) (x7 : Vec F S1x1x1 .f32) (x8 : Vec F S1x1x1 .f32) (x9 : Vec F S1x1x1 .f32) (x10 : Vec F S1x1x1 .f32) : Vec F S1x1x1x1 .f32 :=
  VO1_11.read (Elt F) (VO1_11.writes (Elt F) VO1_11.junk (kernelRun1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) x0 x1 x2 x3 x4 x5 x6 x7 x8 x9 x10).1)

/-! ## The stored value -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The found pieces, read back, are the one stored value: the point's partial sum as a function of the eleven
    input blocks (each load reads its whole buffer; the one store covers the block). -/
theorem kernelRun1_read (c : Dev nD) (i : grid1.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x16x1x1 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1x1 .f32) (harg13 : arg13.IsWhole)
    (x0 : Vec F S1x16x128x256 .f32) (x1 : Vec F S1x16x128x256 .f32) (x2 : Vec F S1x128x256 .i32) (x3 : Vec F S1x16x1x1 .f32) (x4 : Vec F S1x16x1x1 .f32) (x5 : Vec F S1x16x1x1 .f32) (x6 : Vec F S1x16x1x1 .f32) (x7 : Vec F S1x1x1 .f32) (x8 : Vec F S1x1x1 .f32) (x9 : Vec F S1x1x1 .f32) (x10 : Vec F S1x1x1 .f32) :
    VO1_11.read (Elt F) (VO1_11.writes (Elt F) VO1_11.junk (kernelRun1 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1)
      = k1_pay1 (k1_pay4 x2) (k1_pay7 x8) (k1_pay8 x9) (k1_pay9 x10) (k1_pay10 (k1_pay2 x0)) (k1_pay11 (k1_pay3 x1)) (k1_pay12 (k1_pay2 x0) (k1_pay5 x3)) (k1_pay13 (k1_pay2 x0) (k1_pay6 x4)) (k1_pay14 (k1_pay3 x1) x5) (k1_pay15 (k1_pay3 x1) x6) (k1_pay16 x7) := by
  rw [View.read_writes_eq_canon _ _ _ (cover1_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10)]
  unfold kernelRun1
  dsimp only
  sl_unfold_words
  rw [View.canon_unit_zero (S := S1x1x1x1) hz4]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x16x128x256) hz4, View.ld_unit_zero (S := S1x128x256) hz3, View.ld_unit_zero (S := S1x16x1x1) hz4, View.ld_unit_zero (S := S1x1x1) hz3]

/-- So the output block's buffer after the body at point `t` holds the stored value of the input blocks. -/
theorem out1_11_eq (c : Dev nD) (t : Fin cfg1.N) (x0 : Vec F S1x16x128x256 .f32) (x1 : Vec F S1x16x128x256 .f32) (x2 : Vec F S1x128x256 .i32) (x3 : Vec F S1x16x1x1 .f32) (x4 : Vec F S1x16x1x1 .f32) (x5 : Vec F S1x16x1x1 .f32) (x6 : Vec F S1x16x1x1 .f32) (x7 : Vec F S1x1x1 .f32) (x8 : Vec F S1x1x1 .f32) (x9 : Vec F S1x1x1 .f32) (x10 : Vec F S1x1x1 .f32) :
    out1_11 c t x0 x1 x2 x3 x4 x5 x6 x7 x8 x9 x10 = k1_pay1 (k1_pay4 x2) (k1_pay7 x8) (k1_pay8 x9) (k1_pay9 x10) (k1_pay10 (k1_pay2 x0)) (k1_pay11 (k1_pay3 x1)) (k1_pay12 (k1_pay2 x0) (k1_pay5 x3)) (k1_pay13 (k1_pay2 x0) (k1_pay6 x4)) (k1_pay14 (k1_pay3 x1) x5) (k1_pay15 (k1_pay3 x1) x6) (k1_pay16 x7) := by
  unfold out1_11
  exact kernelRun1_read c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) x0 x1 x2 x3 x4 x5 x6 x7 x8 x9 x10

/-! ## The windows' blocks and the proof data -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not (not fetched means the
    block index did not move, and the body left the block in place), for any proof data over `V`'s arrays. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not (not fetched means the
    block index did not move, and the body left the block in place), for any proof data over `V`'s arrays. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not (not fetched means the
    block index did not move, and the body left the block in place), for any proof data over `V`'s arrays. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not (not fetched means the
    block index did not move, and the body left the block in place), for any proof data over `V`'s arrays. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not (not fetched means the
    block index did not move, and the body left the block in place), for any proof data over `V`'s arrays. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current buffer holds its block at every point, fetched there or not (not fetched means the
    block index did not move, and the body left the block in place), for any proof data over `V`'s arrays. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current buffer holds its block at every point, fetched there or not (not fetched means the
    block index did not move, and the body left the block in place), for any proof data over `V`'s arrays. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current buffer holds its block at every point, fetched there or not (not fetched means the
    block index did not move, and the body left the block in place), for any proof data over `V`'s arrays. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current buffer holds its block at every point, fetched there or not (not fetched means the
    block index did not move, and the body left the block in place), for any proof data over `V`'s arrays. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current buffer holds its block at every point, fetched there or not (not fetched means the
    block index did not move, and the body left the block in place), for any proof data over `V`'s arrays. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10's current buffer holds its block at every point, fetched there or not (not fetched means the
    block index did not move, and the body left the block in place), for any proof data over `V`'s arrays. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- The proof data of the second pipeline on core `c`: the arrays as the region finds them; after the body at point
    `t` each input's buffer still at its block and the output's at the stored value; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 c t (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = out1_11 c t (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

set_option maxHeartbeats 4000000 in
/-- The body at any point: the inputs' buffers hold their blocks, so the run applies; the output's buffer comes back with
    the found pieces written, which cover it, so it reads the stored value whatever it held; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  unfold out1_11
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun1 c (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact View.read_writes_of_cover _ _ _ _ _ (cover1_11 c _ _ _ _ _ _ _ _ _ _ _ _ _ _ _ _ _ _ _ _ _ _ _ _ _ _ _ _ _ _ _ _ _ _ _ _)

/-- The pipeline loop's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The kernel program's run as a chain of four segments: the first call (the masked and total channel sums and
  the class-0 count, accumulated over the two row tiles of each batch), 53 host operations (the class means
  and their norms), the second call (each tile's sum of squared differences), 4 host operations (the sum over
  tiles and batches, divided by 32·256·256).

  Between two segments a core holds every unscoped buffer whole, at contents that are a fold from the launch
  memory: a call leaves each of its windows' arrays at what its write-backs folded over the grid leave (the input
  arrays as entered) and every other buffer as entered; a stretch of host operations leaves what the operations
  compute. The run's post reads the result buffer and the three arguments off the last fold.
-/
import proofs.«142478_j79491254714952_2_alg».proof.Proof.Gen.Kernel.Launch
import proofs.«142478_j79491254714952_2_alg».proof.Proof.Gen.Kernel.Skeleton
import proofs.«142478_j79491254714952_2_alg».proof.Proof.Gen.Kernel.Points
import proofs.«142478_j79491254714952_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«142478_j79491254714952_2_alg».proof.Proof.K.Region0
import proofs.«142478_j79491254714952_2_alg».proof.Proof.K.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch: what the first call is entered from. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- After the first call: its windows' arrays at what the write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the 53 host operations: what the second call is entered from. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- After the second call. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last 4 host operations: what the launch reads at the end. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Each call's proof data at its entry contents (a literal match on the call's number). -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The calls as segments -/

set_option backward.isDefEq.respectTransparency.types false in
/-- The first call: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1
        ∗ Pipeline.scopedRest (Pipeline.pin (pcfgs (F := F)) adm 0).spec c) : sProp 𝕄) ⊢ Pipeline.ΦA spec0 c := by
      unfold Pipeline.ΦA
      iintro ⟨Hp, -, Hr⟩
      isplitl [Hr]; · iexact Hr
      iexact Hp
    exact h.trans (hin0 (V0 m ρ) c)
  hout c := by
    rw [Pipeline.ownSems0_none]
    have h : (Pipeline.ΦA spec0 c : sProp 𝕄) ⊢ iprop((∃ r, prngReg c r) ∗ BI.emp
        ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0 (V0 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- THE RUN: every weakly fair execution of @main terminates, and in every final state each core's unscoped
    buffers hold the last fold's contents. -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := StableHlo.after_of_writes_sub hostOps1 _ hostOps1_writes (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := (W3_arr m ρ c 1).trans (((dat1 (V2 m ρ) c).arrAt_in 1 rfl _).trans (A_eq1 (V2 m ρ) c 1))
    _ = W1 m ρ c (Proc.devRef .tc main_arg1) := StableHlo.after_of_writes_sub hostOps1 _ hostOps1_writes (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := (W3_arr m ρ c 2).trans (((dat1 (V2 m ρ) c).arrAt_in 2 rfl _).trans (A_eq1 (V2 m ρ) c 2))
    _ = W1 m ρ c (Proc.devRef .tc main_arg2) := StableHlo.after_of_writes_sub hostOps1 _ hostOps1_writes (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl

/-- THE FRAME: every weakly fair execution terminates, nothing faulting, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_bufs m ρ)

end Cert.Kernel.Hand

end
-- ==== Proof.KI.Region0Runs.lean ====
/- Region 0 (the first pallas_call, the per-batch reduction kernel): what its two control cases share.
   The grid is (32, 2), point t = 2*b + h. At h = 0 (even points) the kernel zeroes its two accumulators
   before adding the tile's sums into them and stores nothing into its outputs; at h = 1 (odd points)
   it adds the tile's sums to what the point before left and copies the accumulators to the outputs.
   Here: the windows' blocks at the region-entry contents, the two conditions in closed form, where the
   output windows are idle, the staging and scratch memrefs, and the region invariant opened at the two
   accumulators. -/
import proofs.«142478_j79491254714952_2_alg».proof.Proof.Gen.KernelIdeal.Launch
import proofs.«142478_j79491254714952_2_alg».proof.Proof.Gen.KernelIdeal.Skeleton
import proofs.«142478_j79491254714952_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Blocks
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any
    proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The body's two conditions -/

/-- `h == 0`: the condition under which the accumulators are zeroed, from the grid coordinates. -/
abbrev cond0_0 (i : grid0.Coords) : Prop := (Scalar.cmpi .ne (Scalar.extui (Scalar.cmpi .eq (BitVec.ofNat 32 (i 1).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- `h == last`: the condition under which the accumulators are copied to the outputs. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At the even points the two outputs are idle (nothing is stored into them) and are not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
/-- At the odd points both outputs are live: the body stores into them. -/
theorem liveAt0_3_B : ∀ t : Fin cfg0.N, ¬cond0_0 (grid0.coords t) → cond0_1 (grid0.coords t) → cfg0.idle 3 (grid0.coords t) = false := by decide +kernel
theorem liveAt0_4_B : ∀ t : Fin cfg0.N, ¬cond0_0 (grid0.coords t) → cond0_1 (grid0.coords t) → cfg0.idle 4 (grid0.coords t) = false := by decide +kernel

/-! ## The staging and scratch memrefs -/

/-- One staging buffer of each output window, through which its contents are stated. -/
abbrev VO0_3 : View sig .tc .vmem S1x1x64 .f32 := (Memref.whole cc0_stg3_0 : Memref sig .tc .vmem S1x1x64 .f32).view
abbrev VO0_4 : View sig .tc .vmem S1x1x1 .f32 := (Memref.whole cc0_stg4_0 : Memref sig .tc .vmem S1x1x1 .f32).view
/-- Each window's current staging memref at point `t`, as the pipeline passes it to the body, and its wholeness. -/
abbrev ms0_0 (t : Fin cfg0.N) : Memref sig .tc .vmem S1x16x128x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16x128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x256 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1 .f32 := win0_4.stage (cfg0.slots t 4)
abbrev hs0_4 (t : Fin cfg0.N) : (ms0_4 t).IsWhole := hstage0_4 ((cfg0.slots t 4).cast nbuf0_4)
/-- The two accumulators: whole scoped buffers of the kernel's own, passed beside the windows. -/
abbrev scM0_0 : Memref sig .tc .vmem S1x1x64 .f32 := Memref.whole cc0_scratch0
abbrev scM0_1 : Memref sig .tc .vmem S1x1x1 .f32 := Memref.whole cc0_scratch1
/-- The accumulators as views: what they hold is stated through them. -/
abbrev VS0_0 : View sig .tc .vmem S1x1x64 .f32 := scM0_0.view
abbrev VS0_1 : View sig .tc .vmem S1x1x1 .f32 := scM0_1.view

/-- The scoped buffers of this call that are not its own: carried along unopened. -/
abbrev restBut0 (c : Dev nD) : sProp 𝕄 :=
  Pipeline.scopedRestBut (Ix := Unit) (Name := ℕ) (U := UR sig nD τ) (Lvl := ℕ) (Val := Elt F) spec0 c [cc0_scratch0, cc0_scratch1]

/-- The launch's invariant with the two accumulators as memrefs owned at some contents, the other scoped
    buffers unopened, and the generator register at some state. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ restBut0 c) ∗ (∃ r, prngReg c r)) := by
  unfold Pipeline.ΦA; rw [scopedRest0_split]; simp only [scM0_0, scM0_1, owns_whole]; try rfl

end Cert.KernelIdeal.Hand

end
-- ==== Proof.KI.Region0RunA.lean ====
/- Region 0, the even points (h = 0): the whole body run once. The accumulators are zeroed, the tile's
   masked and total channel sums and its class-0 pixel count are added to the zeros, and nothing is stored
   into the two outputs. -/
import proofs.«142478_j79491254714952_2_alg».proof.Proof.KI.Region0Runs

-- membership in a rectangle of full extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref and in each accumulator, as pieces (last first),
    at an even point (the first condition holds, the second does not), with the proof that on whole memrefs —
    the three inputs' at their contents `x·`, the two outputs' (idle here) at contents `xi·` handed back untouched,
    the two accumulators at anything — the body runs to the continuation holding the inputs' as they were, the
    outputs' as they were, and each accumulator with its pieces written. -/
noncomputable def kernelRun0_A (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : cond0_0 i) (hc1 : ¬cond0_1 i)
    (x0 : Vec F S1x16x128x256 .f32) (x1 : Vec F S1x16x128x256 .f32) (x2 : Vec F S1x128x256 .i32) :
    Σ' (L3 : List (View.Piece (Elt F) S1x1x64 .f32)) (L4 : List (View.Piece (Elt F) S1x1x1 .f32)) (LS0 : List (View.Piece (Elt F) S1x1x64 .f32)), { LS1 : List (View.Piece (Elt F) S1x1x1 .f32) //
      ∀ (xi3 : Vec F S1x1x64 .f32) (xi4 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel1 i arg2 harg2 arg3 harg3 arg4 harg4 arg5 harg5 arg6 harg6 arg7 harg7 arg8 harg8) K } := by
  refine ⟨[], [], ?_, ?_, fun xi3 xi4 E K => ?run⟩
  case run =>
    simp only [cc0__kernel1_eq_skeleton]; unfold cc0__kernel1_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.KI.Region0RunB.lean ====
/- Region 0, the odd points (h = 1, the last tile of a batch element): the whole body run once. The tile's
   sums are added to what the point before left in the accumulators, and the accumulators are copied to
   the two outputs. -/
import proofs.«142478_j79491254714952_2_alg».proof.Proof.KI.Region0RunA

-- membership in a rectangle of full extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref and in each accumulator, as pieces (last first),
    at an odd point (the first condition fails, the second holds), with the proof that on whole memrefs —
    the three inputs' at their contents `x·`, the two outputs' at anything, the two accumulators at the contents
    `xs·` the point before left — the body runs to the continuation holding the inputs' as they were and each
    output and each accumulator with its pieces written. -/
noncomputable def kernelRun0_B (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : ¬cond0_0 i) (hc1 : cond0_1 i)
    (x0 : Vec F S1x16x128x256 .f32) (x1 : Vec F S1x16x128x256 .f32) (x2 : Vec F S1x128x256 .i32) (xs0 : Vec F S1x1x64 .f32) (xs1 : Vec F S1x1x1 .f32) :
    Σ' (L3 : List (View.Piece (Elt F) S1x1x64 .f32)) (L4 : List (View.Piece (Elt F) S1x1x1 .f32)) (LS0 : List (View.Piece (Elt F) S1x1x64 .f32)), { LS1 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel1 i arg2 harg2 arg3 harg3 arg4 harg4 arg5 harg5 arg6 harg6 arg7 harg7 arg8 harg8) K } := by
  refine ⟨?_, ?_, ?_, ?_, fun E K => ?run⟩
  case run =>
    simp only [cc0__kernel1_eq_skeleton]; unfold cc0__kernel1_skel
    simp only [k0_part2_eq_skeleton, k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.KernelIdeal.Hand

end
-- ==== Proof.KI.Region0Data.lean ====
/- Region 0 (the per-batch reduction kernel): what each control case leaves in the outputs and the two
   accumulators, what they hold point by point, the region invariant, and the pipeline's proof data, all at
   the region-entry buffer contents `V`. -/
import proofs.«142478_j79491254714952_2_alg».proof.Proof.KI.Region0RunB

-- membership in a rectangle of full extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The pieces each case finds -/

/-- An even point stores nothing into output 3: no pieces, a placeholder nothing consults (the window is neither written back there nor read at the next point). -/
def out0_A_3 (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : cond0_0 i) (hc1 : ¬cond0_1 i)
    (x0 : Vec F S1x16x128x256 .f32) (x1 : Vec F S1x16x128x256 .f32) (x2 : Vec F S1x128x256 .i32) : Vec F S1x1x64 .f32 :=
  VO0_3.read (Elt F) (VO0_3.writes (Elt F) VO0_3.junk (kernelRun0_A c i arg2 harg2 arg3 harg3 arg4 harg4 arg5 harg5 arg6 harg6 arg7 harg7 arg8 harg8 hc0 hc1 x0 x1 x2).1)

/-- An even point stores nothing into output 4: no pieces, a placeholder nothing consults (the window is neither written back there nor read at the next point). -/
def out0_A_4 (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : cond0_0 i) (hc1 : ¬cond0_1 i)
    (x0 : Vec F S1x16x128x256 .f32) (x1 : Vec F S1x16x128x256 .f32) (x2 : Vec F S1x128x256 .i32) : Vec F S1x1x1 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1 x2).2.1)

/-- At an even point the pieces found for accumulator 0 tile its buffer (checked by evaluation), so they cover it. -/
theorem scover0_A_0 (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : cond0_0 i) (hc1 : ¬cond0_1 i)
    (x0 : Vec F S1x16x128x256 .f32) (x1 : Vec F S1x16x128x256 .f32) (x2 : Vec F S1x128x256 .i32) (y : S1x1x64.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL (kernelRun0_A c i arg2 harg2 arg3 harg3 arg4 harg4 arg5 harg5 arg6 harg6 arg7 harg7 arg8 harg8 hc0 hc1 x0 x1 x2).2.2.1 S1x1x64.size (by sl_kernel_rfl) y

/-- What an even point leaves in accumulator 0: its pieces read back. -/
def sout0_A_0 (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : cond0_0 i) (hc1 : ¬cond0_1 i)
    (x0 : Vec F S1x16x128x256 .f32) (x1 : Vec F S1x16x128x256 .f32) (x2 : Vec F S1x128x256 .i32) : Vec F S1x1x64 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).2.2.1)

/-- At an even point the pieces found for accumulator 1 tile its buffer (checked by evaluation), so they cover it. -/
theorem scover0_A_1 (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : cond0_0 i) (hc1 : ¬cond0_1 i)
    (x0 : Vec F S1x16x128x256 .f32) (x1 : Vec F S1x16x128x256 .f32) (x2 : Vec F S1x128x256 .i32) (y : S1x1x1.Idx) :
    ∃ pc ∈ (kernelRun0_A c i arg2 harg2 arg3 harg3 arg4 harg4 arg5 harg5 arg6 harg6 arg7 harg7 arg8 harg8 hc0 hc1 x0 x1 x2).2.2.2.1, y ∈ pc.1.set :=
  View.cover_of_tiledL (kernelRun0_A c i arg2 harg2 arg3 harg3 arg4 harg4 arg5 harg5 arg6 harg6 arg7 harg7 arg8 harg8 hc0 hc1 x0 x1 x2).2.2.2.1 S1x1x1.size (by sl_kernel_rfl) y

/-- What an even point leaves in accumulator 1: its pieces read back. -/
def sout0_A_1 (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : cond0_0 i) (hc1 : ¬cond0_1 i)
    (x0 : Vec F S1x16x128x256 .f32) (x1 : Vec F S1x16x128x256 .f32) (x2 : Vec F S1x128x256 .i32) : Vec F S1x1x1 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2).2.2.2.1)

/-- At an odd point the pieces found for output 3 tile its buffer (checked by evaluation), so they cover it. -/
theorem cover0_B_3 (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : ¬cond0_0 i) (hc1 : cond0_1 i)
    (x0 : Vec F S1x16x128x256 .f32) (x1 : Vec F S1x16x128x256 .f32) (x2 : Vec F S1x128x256 .i32) (xs0 : Vec F S1x1x64 .f32) (xs1 : Vec F S1x1x1 .f32) (y : S1x1x64.Idx) :
    ∃ pc ∈ (kernelRun0_B c i arg2 harg2 arg3 harg3 arg4 harg4 arg5 harg5 arg6 harg6 arg7 harg7 arg8 harg8 hc0 hc1 x0 x1 x2 xs0 xs1).1, y ∈ pc.1.set :=
  View.cover_of_tiledL (kernelRun0_B c i arg2 harg2 arg3 harg3 arg4 harg4 arg5 harg5 arg6 harg6 arg7 harg7 arg8 harg8 hc0 hc1 x0 x1 x2 xs0 xs1).1 S1x1x64.size (by sl_kernel_rfl) y

/-- What an odd point leaves in output 3's staging buffer: its pieces read back. -/
def out0_B_3 (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : ¬cond0_0 i) (hc1 : cond0_1 i)
    (x0 : Vec F S1x16x128x256 .f32) (x1 : Vec F S1x16x128x256 .f32) (x2 : Vec F S1x128x256 .i32) (xs0 : Vec F S1x1x64 .f32) (xs1 : Vec F S1x1x1 .f32) : Vec F S1x1x64 .f32 :=
  VO0_3.read (Elt F) (VO0_3.writes (Elt F) VO0_3.junk (kernelRun0_B c i arg2 harg2 arg3 harg3 arg4 harg4 arg5 harg5 arg6 harg6 arg7 harg7 arg8 harg8 hc0 hc1 x0 x1 x2 xs0 xs1).1)

/-- At an odd point the pieces found for output 4 tile its buffer (checked by evaluation), so they cover it. -/
theorem cover0_B_4 (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : ¬cond0_0 i) (hc1 : cond0_1 i)
    (x0 : Vec F S1x16x128x256 .f32) (x1 : Vec F S1x16x128x256 .f32) (x2 : Vec F S1x128x256 .i32) (xs0 : Vec F S1x1x64 .f32) (xs1 : Vec F S1x1x1 .f32) (y : S1x1x1.Idx) :
    ∃ pc ∈ (kernelRun0_B c i arg2 harg2 arg3 harg3 arg4 harg4 arg5 harg5 arg6 harg6 arg7 harg7 arg8 harg8 hc0 hc1 x0 x1 x2 xs0 xs1).2.1, y ∈ pc.1.set :=
  View.cover_of_tiledL (kernelRun0_B c i arg2 harg2 arg3 harg3 arg4 harg4 arg5 harg5 arg6 harg6 arg7 harg7 arg8 harg8 hc0 hc1 x0 x1 x2 xs0 xs1).2.1 S1x1x1.size (by sl_kernel_rfl) y

/-- What an odd point leaves in output 4's staging buffer: its pieces read back. -/
def out0_B_4 (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : ¬cond0_0 i) (hc1 : cond0_1 i)
    (x0 : Vec F S1x16x128x256 .f32) (x1 : Vec F S1x16x128x256 .f32) (x2 : Vec F S1x128x256 .i32) (xs0 : Vec F S1x1x64 .f32) (xs1 : Vec F S1x1x1 .f32) : Vec F S1x1x1 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 xs0 xs1).2.1)

/-- At an odd point the pieces found for accumulator 0 tile its buffer (checked by evaluation), so they cover it. -/
theorem scover0_B_0 (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : ¬cond0_0 i) (hc1 : cond0_1 i)
    (x0 : Vec F S1x16x128x256 .f32) (x1 : Vec F S1x16x128x256 .f32) (x2 : Vec F S1x128x256 .i32) (xs0 : Vec F S1x1x64 .f32) (xs1 : Vec F S1x1x1 .f32) (y : S1x1x64.Idx) :
    ∃ pc ∈ (kernelRun0_B c i arg2 harg2 arg3 harg3 arg4 harg4 arg5 harg5 arg6 harg6 arg7 harg7 arg8 harg8 hc0 hc1 x0 x1 x2 xs0 xs1).2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.1 S1x1x64.size (by sl_kernel_rfl) y

/-- What an odd point leaves in accumulator 0: its pieces read back. -/
def sout0_B_0 (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : ¬cond0_0 i) (hc1 : cond0_1 i)
    (x0 : Vec F S1x16x128x256 .f32) (x1 : Vec F S1x16x128x256 .f32) (x2 : Vec F S1x128x256 .i32) (xs0 : Vec F S1x1x64 .f32) (xs1 : Vec F S1x1x1 .f32) : Vec F S1x1x64 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 xs0 xs1).2.2.1)

/-- At an odd point the pieces found for accumulator 1 tile its buffer (checked by evaluation), so they cover it. -/
theorem scover0_B_1 (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : ¬cond0_0 i) (hc1 : cond0_1 i)
    (x0 : Vec F S1x16x128x256 .f32) (x1 : Vec F S1x16x128x256 .f32) (x2 : Vec F S1x128x256 .i32) (xs0 : Vec F S1x1x64 .f32) (xs1 : Vec F S1x1x1 .f32) (y : S1x1x1.Idx) :
    ∃ pc ∈ (kernelRun0_B c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.2.1 S1x1x1.size (by sl_kernel_rfl) y

/-- What an odd point leaves in accumulator 1: its pieces read back. -/
def sout0_B_1 (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : ¬cond0_0 i) (hc1 : cond0_1 i)
    (x0 : Vec F S1x16x128x256 .f32) (x1 : Vec F S1x16x128x256 .f32) (x2 : Vec F S1x128x256 .i32) (xs0 : Vec F S1x1x64 .f32) (xs1 : Vec F S1x1x1 .f32) : Vec F S1x1x1 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1).2.2.2.1)

section Data
-- the TensorCore's buffer contents when the region is entered
variable (V : (c : Dev nD) → (b : Ref sig .tc) → Buf (Elt F) ((c : Thread nD τ).loc b))

/-! ## What the outputs and the accumulators hold after each point -/

/-- The accumulation. What the two outputs' staging buffers and the two accumulators hold after the body at
    position `n` (outputs 3, 4, then accumulators 0, 1): at an even point the tile's sums over the zeros just
    stored; at an odd point the tile's sums over what the point before left, and the outputs at the copy. -/
def outsAt0 (c : Dev nD) : (n : ℕ) → n < cfg0.N → (Vec F S1x1x64 .f32 × Vec F S1x1x1 .f32) × (Vec F S1x1x64 .f32 × Vec F S1x1x1 .f32)
  | 0, hn => ((out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩)), (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩)))
  | n + 1, hn =>
    if h0 : (n + 1) % 2 = 0 then
      if h1 : (n + 1) % 2 = 1 then
        False.elim (by omega)
      else
        ((out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩)), (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩)))
    else
      if h1 : (n + 1) % 2 = 1 then
        ((out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2), (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2))
      else
        False.elim (by omega)

/-- `outsAt0` at an even point. -/
theorem outsAt0_A (c : Dev nD) (t : Fin cfg0.N) (h0 : t.val % 2 = 0) (h1 : ¬t.val % 2 = 1) :
    outsAt0 V c t.val t.isLt = ((out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t)), (sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t))) := by
  obtain ⟨n, hn⟩ := t
  cases n with
  | zero => exact rfl
  | succ n => exact (dif_pos h0).trans ((dif_neg h1).trans rfl)

/-- `outsAt0` at an odd point: over what the point before left in the accumulators. -/
theorem outsAt0_B (c : Dev nD) (t : Fin cfg0.N) (h0 : ¬t.val % 2 = 0) (h1 : t.val % 2 = 1) :
    outsAt0 V c t.val t.isLt = ((out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2), (sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2)) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the launch's (every scoped buffer at
    anything); afterwards the two accumulators at what the point before left in them, the other scoped buffers
    unopened, and the generator register at some state. -/
def PhiS (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.1) ∗ owns (c : Thread nD τ) scM0_1 fullShare ((outsAt0 V c n hn).2.2)) ∗ restBut0 c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the accumulators at that point's contents. -/
theorem PhiS_succ (c : Dev nD) (n : ℕ) (hn : n < cfg0.N) :
    PhiS V c (n + 1) hn = iprop(iprop(iprop(owns (c : Thread nD τ) scM0_0 fullShare ((outsAt0 V c n hn).2.1) ∗ owns (c : Thread nD τ) scM0_1 fullShare ((outsAt0 V c n hn).2.2)) ∗ restBut0 c) ∗ (∃ r, prngReg c r)) := rfl

/-- Before a point that is not the first: the accumulators at what the point before left. -/
theorem PhiS_pos (c : Dev nD) (n : ℕ) (h : n ≤ cfg0.N) (hz : n ≠ 0) :
    PhiS V c n h = iprop(iprop(iprop(owns (c : Thread nD τ) scM0_0 fullShare ((outsAt0 V c (n - 1) (by omega)).2.1) ∗ owns (c : Thread nD τ) scM0_1 fullShare ((outsAt0 V c (n - 1) (by omega)).2.2)) ∗ restBut0 c) ∗ (∃ r, prngReg c r)) := by
  cases n with
  | zero => exact absurd rfl hz
  | succ n => rfl

/-! ## The pipeline's proof data -/

/-- The proof data of pipeline 0 on core `c`: the arrays as the region finds them; after the body at point `t`
    each input's buffer at its block and the two outputs' at `outsAt0`; the invariant `PhiS`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1.1
    | ⟨4, _⟩ => (outsAt0 V c t.val t.isLt).1.2
  Φ t := PhiS V c t.val (Nat.le_of_lt_succ t.isLt)
  q _ := fullShare
  owed _ := 0

/-- The proof data's arrays are the region-entry contents (the definition projected, nothing unfolded). -/
theorem A_eq0 (c : Dev nD) (w : Fin cfg0.W) : (dat0 V c).A w = V c (Pipeline.arrRef spec0 w) := by
  dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1.1 := by dsimp only [dat0]
theorem after0_4 (c : Dev nD) (t : Fin cfg0.N) : (dat0 V c).after 4 t = (outsAt0 V c t.val t.isLt).1.2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Data

end Cert.KernelIdeal.Hand

end
-- ==== Proof.KI.Region0.lean ====
/- Region 0 (the per-batch reduction kernel): the body obligation of its pipeline at every grid point, and
   the passage between the launch's invariant and the region's. At an even point the accumulators may hold
   anything (they are zeroed first) and the outputs are handed back untouched; at an odd point the
   accumulators hold what the point before left and the outputs receive their copy. -/
import proofs.«142478_j79491254714952_2_alg».proof.Proof.KI.Region0Data

-- membership in a rectangle of full extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Body
-- the TensorCore's buffer contents when the region is entered
variable (V : (c : Dev nD) → (b : Ref sig .tc) → Buf (Elt F) ((c : Thread nD τ).loc b))

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the parity of the point says which case it
    is in; the invariant hands the body the accumulators (at what the point before left; at anything at the
    first point), keeps the other scoped buffers and the generator register, and takes the accumulators back
    at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 2 = 0
  · by_cases h1 : t.val % 2 = 1
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A_0 sout0_A_1; (try dsimp only)
      by_cases hz : t.val = 0
      · rw [PhiS_castSucc V c t, PhiS_zero V c _ _ hz, PhiA0_eq]
        iintro ⟨⟨⟨⟨HS0, HS1⟩, Hrest⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t)).2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexists _; iexact H3
        iexists _; iexact H4
      · rw [PhiS_castSucc V c t, PhiS_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t)).2.2.2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexists _; iexact H3
        iexists _; iexact H4
  · by_cases h1 : t.val % 2 = 1
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_B t (fun h => h0 ((hcond0_0 t).mp h)) ((hcond0_1 t).mpr h1)], after0_3]
      rw [show (dat0 V c).leavesExact 4 t = owns (c : Thread nD τ) (ms0_4 t) fullShare ((dat0 V c).after 4 t) from by
        unfold Dat.leavesExact; rw [liveAt0_4_B t (fun h => h0 ((hcond0_0 t).mp h)) ((hcond0_1 t).mpr h1)], after0_4]
      rw [outsAt0_B V c t h0 h1]
      unfold out0_B_3 out0_B_4 sout0_B_0 sout0_B_1; (try dsimp only)
      by_cases hz : t.val = 0
      · exfalso; omega
      · rw [PhiS_castSucc V c t, PhiS_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ (fun h => h0 ((hcond0_0 t).mp h)) ((hcond0_1 t).mpr h1) (iblk0 V c 0 t) (iblk0 V c 1 t) (iblk0 V c 2 t) _ _).2.2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        iintro ⟨H0, H1, H2, ⟨%e3, H3⟩, ⟨%e4, H4⟩, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _)
              unfold owns; iexists _; isplitr
              swap; · iexact HS1
              ipureintro; exact View.read_writes_of_cover _ _ _ _ _ (scover0_B_1 c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_B_3 c _ _ _ _ _ _ _ _ _ _ _ _ _ _ _ _ _ _ _ _ _ _)
        unfold owns; iexists _; isplitr
        swap; · iexact H4
        ipureintro; exact View.read_writes_of_cover _ _ _ _ _ (cover0_B_4 c _ _ _ _ _ _ _ _ _ _ _ _ _ _ _ _ _ _ _ _ _ _)
    · exfalso; omega

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the launch's back: what the accumulators hold is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Body

end Cert.KernelIdeal.Hand

end
-- ==== Proof.KI.Region1.lean ====
import proofs.«142478_j79491254714952_2_alg».proof.Proof.Gen.KernelIdeal.Launch
import proofs.«142478_j79491254714952_2_alg».proof.Proof.Gen.KernelIdeal.Skeleton
import proofs.«142478_j79491254714952_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The second kernel's body, at one grid point

The second pallas_call runs over a 32 × 2 grid. At each point its body reads eleven blocks whole — the two
prediction blocks (16 channels × 128 rows × 256 columns), the label block (128 × 256), four per-channel
prototype columns (16 × 1 × 1) and four per-image scalars —, also reads the one-element output block (the
value read is never used), and writes the output block once, whole, with the point's partial sum.

So what the body leaves in the output's buffer is a function of the eleven input blocks alone: the single
stored value. This file states the body's Hoare triple in that form (the list of pieces the stores leave is
found by running the body symbolically, and it covers the block), the proof data of the pipeline that follow
from it (every input buffer holds its block, fetched at that point or kept from the point before; the output
buffer holds the stored value), and the body obligation of the pipeline loop at every point.
Everything is stated at a parameter `V`: the buffer contents when the region is entered.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's triple -/

set_option maxHeartbeats 4000000 in
/-- The pieces the body's stores leave in the output block's buffer (last first), WITH the proof that on whole
    buffers — the eleven inputs' at contents `x0 … x10`, the output's at anything — the body runs to the
    continuation holding the inputs' as they were and the output's with those pieces written over what it held.
    The pieces are found by running the body (its load of the output block reads whatever is there and the
    value goes nowhere). -/
noncomputable def kernelRun1 (c : Dev nD) (i : grid1.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x16x1x1 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1x1 .f32) (harg13 : arg13.IsWhole)
    (x0 : Vec F S1x16x128x256 .f32) (x1 : Vec F S1x16x128x256 .f32) (x2 : Vec F S1x128x256 .i32) (x3 : Vec F S1x16x1x1 .f32) (x4 : Vec F S1x16x1x1 .f32) (x5 : Vec F S1x16x1x1 .f32) (x6 : Vec F S1x16x1x1 .f32) (x7 : Vec F S1x1x1 .f32) (x8 : Vec F S1x1x1 .f32) (x9 : Vec F S1x1x1 .f32) (x10 : Vec F S1x1x1 .f32) :
    { L11 : List (View.Piece (Elt F) S1x1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11)) -∗ K ⟨⟩))
          ⊢ wp frame (wpE (defs₀ (F := F)) Variants.none c none) E (cc1__kernel2 i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc1__kernel2_eq_skeleton]; unfold cc1__kernel2_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact H11

/-! ## What the body leaves in the output block's buffer -/

/-- The pieces the run found cover the one-element block: one whole-block store. -/
theorem cover1_11 (c : Dev nD) (i : grid1.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x16x1x1 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1x1 .f32) (harg13 : arg13.IsWhole)
    (x0 : Vec F S1x16x128x256 .f32) (x1 : Vec F S1x16x128x256 .f32) (x2 : Vec F S1x128x256 .i32) (x3 : Vec F S1x16x1x1 .f32) (x4 : Vec F S1x16x1x1 .f32) (x5 : Vec F S1x16x1x1 .f32) (x6 : Vec F S1x16x1x1 .f32) (x7 : Vec F S1x1x1 .f32) (x8 : Vec F S1x1x1 .f32) (x9 : Vec F S1x1x1 .f32) (x10 : Vec F S1x1x1 .f32) (y : S1x1x1x1.Idx) :
    ∃ pc ∈ (kernelRun1 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1, y ∈ pc.1.set :=
  View.cover_of_tiledL (kernelRun1 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1 S1x1x1x1.size (by sl_kernel_rfl) y

/-- One buffer of the output window, through which its contents are stated (the choice does not matter: the pieces
    cover the block, so what they leave reads the same through any view over any prior contents). -/
abbrev VO1_11 : View sig .tc .vmem S1x1x1x1 .f32 := (Memref.whole cc1_stg11_0 : Memref sig .tc .vmem S1x1x1x1 .f32).view

/-- Each window's current buffer at point `t`, spelled as the pipeline passes it to the body, and its wholeness. -/
abbrev ms1_0 (t : Fin cfg1.N) : Memref sig .tc .vmem S1x16x128x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x16x128x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128x256 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x16x1x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x16x1x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x16x1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x16x1x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x1x1 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x1x1 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x1x1 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x1x1x1 .f32 := win1_11.stage (cfg1.slots t 11)
abbrev hs1_11 (t : Fin cfg1.N) : (ms1_11 t).IsWhole := hstage1_11 ((cfg1.slots t 11).cast nbuf1_11)

/-- What the body at point `t` leaves in the output block's buffer, from the eleven input blocks: the found pieces
    read back over arbitrary contents. -/
def out1_11 (c : Dev nD) (t : Fin cfg1.N) (x0 : Vec F S1x16x128x256 .f32) (x1 : Vec F S1x16x128x256 .f32) (x2 : Vec F S1x128x256 .i32) (x3 : Vec F S1x16x1x1 .f32) (x4 : Vec F S1x16x1x1 .f32) (x5 : Vec F S1x16x1x1 .f32) (x6 : Vec F S1x16x1x1 .f32) (x7 : Vec F S1x1x1 .f32) (x8 : Vec F S1x1x1 .f32) (x9 : Vec F S1x1x1 .f32) (x10 : Vec F S1x1x1 .f32) : Vec F S1x1x1x1 .f32 :=
  VO1_11.read (Elt F) (VO1_11.writes (Elt F) VO1_11.junk (kernelRun1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) x0 x1 x2 x3 x4 x5 x6 x7 x8 x9 x10).1)

/-! ## The stored value -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The found pieces, read back, are the one stored value: the point's partial sum as a function of the eleven
    input blocks (each load reads its whole buffer; the one store covers the block). -/
theorem kernelRun1_read (c : Dev nD) (i : grid1.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x16x1x1 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1x1 .f32) (harg13 : arg13.IsWhole)
    (x0 : Vec F S1x16x128x256 .f32) (x1 : Vec F S1x16x128x256 .f32) (x2 : Vec F S1x128x256 .i32) (x3 : Vec F S1x16x1x1 .f32) (x4 : Vec F S1x16x1x1 .f32) (x5 : Vec F S1x16x1x1 .f32) (x6 : Vec F S1x16x1x1 .f32) (x7 : Vec F S1x1x1 .f32) (x8 : Vec F S1x1x1 .f32) (x9 : Vec F S1x1x1 .f32) (x10 : Vec F S1x1x1 .f32) :
    VO1_11.read (Elt F) (VO1_11.writes (Elt F) VO1_11.junk (kernelRun1 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1)
      = k1_pay1 (k1_pay4 x2) (k1_pay7 x8) (k1_pay8 x9) (k1_pay9 x10) (k1_pay10 (k1_pay2 x0)) (k1_pay11 (k1_pay3 x1)) (k1_pay12 (k1_pay2 x0) (k1_pay5 x3)) (k1_pay13 (k1_pay2 x0) (k1_pay6 x4)) (k1_pay14 (k1_pay3 x1) x5) (k1_pay15 (k1_pay3 x1) x6) (k1_pay16 x7) := by
  rw [View.read_writes_eq_canon _ _ _ (cover1_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10)]
  unfold kernelRun1
  dsimp only
  sl_unfold_words
  rw [View.canon_unit_zero (S := S1x1x1x1) hz4]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x16x128x256) hz4, View.ld_unit_zero (S := S1x128x256) hz3, View.ld_unit_zero (S := S1x16x1x1) hz4, View.ld_unit_zero (S := S1x1x1) hz3]

/-- So the output block's buffer after the body at point `t` holds the stored value of the input blocks. -/
theorem out1_11_eq (c : Dev nD) (t : Fin cfg1.N) (x0 : Vec F S1x16x128x256 .f32) (x1 : Vec F S1x16x128x256 .f32) (x2 : Vec F S1x128x256 .i32) (x3 : Vec F S1x16x1x1 .f32) (x4 : Vec F S1x16x1x1 .f32) (x5 : Vec F S1x16x1x1 .f32) (x6 : Vec F S1x16x1x1 .f32) (x7 : Vec F S1x1x1 .f32) (x8 : Vec F S1x1x1 .f32) (x9 : Vec F S1x1x1 .f32) (x10 : Vec F S1x1x1 .f32) :
    out1_11 c t x0 x1 x2 x3 x4 x5 x6 x7 x8 x9 x10 = k1_pay1 (k1_pay4 x2) (k1_pay7 x8) (k1_pay8 x9) (k1_pay9 x10) (k1_pay10 (k1_pay2 x0)) (k1_pay11 (k1_pay3 x1)) (k1_pay12 (k1_pay2 x0) (k1_pay5 x3)) (k1_pay13 (k1_pay2 x0) (k1_pay6 x4)) (k1_pay14 (k1_pay3 x1) x5) (k1_pay15 (k1_pay3 x1) x6) (k1_pay16 x7) := by
  unfold out1_11
  exact kernelRun1_read c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) x0 x1 x2 x3 x4 x5 x6 x7 x8 x9 x10

/-! ## The windows' blocks and the proof data -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not (not fetched means the
    block index did not move, and the body left the block in place), for any proof data over `V`'s arrays. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not (not fetched means the
    block index did not move, and the body left the block in place), for any proof data over `V`'s arrays. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not (not fetched means the
    block index did not move, and the body left the block in place), for any proof data over `V`'s arrays. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not (not fetched means the
    block index did not move, and the body left the block in place), for any proof data over `V`'s arrays. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not (not fetched means the
    block index did not move, and the body left the block in place), for any proof data over `V`'s arrays. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current buffer holds its block at every point, fetched there or not (not fetched means the
    block index did not move, and the body left the block in place), for any proof data over `V`'s arrays. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current buffer holds its block at every point, fetched there or not (not fetched means the
    block index did not move, and the body left the block in place), for any proof data over `V`'s arrays. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current buffer holds its block at every point, fetched there or not (not fetched means the
    block index did not move, and the body left the block in place), for any proof data over `V`'s arrays. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current buffer holds its block at every point, fetched there or not (not fetched means the
    block index did not move, and the body left the block in place), for any proof data over `V`'s arrays. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current buffer holds its block at every point, fetched there or not (not fetched means the
    block index did not move, and the body left the block in place), for any proof data over `V`'s arrays. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10's current buffer holds its block at every point, fetched there or not (not fetched means the
    block index did not move, and the body left the block in place), for any proof data over `V`'s arrays. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- The proof data of the second pipeline on core `c`: the arrays as the region finds them; after the body at point
    `t` each input's buffer still at its block and the output's at the stored value; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 c t (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = out1_11 c t (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

set_option maxHeartbeats 4000000 in
/-- The body at any point: the inputs' buffers hold their blocks, so the run applies; the output's buffer comes back with
    the found pieces written, which cover it, so it reads the stored value whatever it held; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  unfold out1_11
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun1 c (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact View.read_writes_of_cover _ _ _ _ _ (cover1_11 c _ _ _ _ _ _ _ _ _ _ _ _ _ _ _ _ _ _ _ _ _ _ _ _ _ _ _ _ _ _ _ _ _ _ _ _)

/-- The pipeline loop's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The kernel program's run as a chain of four segments: the first call (the masked and total channel sums and
  the class-0 count, accumulated over the two row tiles of each batch), 53 host operations (the class means
  and their norms), the second call (each tile's sum of squared differences), 4 host operations (the sum over
  tiles and batches, divided by 32·256·256).

  Between two segments a core holds every unscoped buffer whole, at contents that are a fold from the launch
  memory: a call leaves each of its windows' arrays at what its write-backs folded over the grid leave (the input
  arrays as entered) and every other buffer as entered; a stretch of host operations leaves what the operations
  compute. The run's post reads the result buffer and the three arguments off the last fold.
-/
import proofs.«142478_j79491254714952_2_alg».proof.Proof.Gen.KernelIdeal.Launch
import proofs.«142478_j79491254714952_2_alg».proof.Proof.Gen.KernelIdeal.Skeleton
import proofs.«142478_j79491254714952_2_alg».proof.Proof.Gen.KernelIdeal.Points
import proofs.«142478_j79491254714952_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«142478_j79491254714952_2_alg».proof.Proof.KI.Region0
import proofs.«142478_j79491254714952_2_alg».proof.Proof.KI.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch: what the first call is entered from. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- After the first call: its windows' arrays at what the write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the 53 host operations: what the second call is entered from. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- After the second call. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last 4 host operations: what the launch reads at the end. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Each call's proof data at its entry contents (a literal match on the call's number). -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The calls as segments -/

set_option backward.isDefEq.respectTransparency.types false in
/-- The first call: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1
        ∗ Pipeline.scopedRest (Pipeline.pin (pcfgs (F := F)) adm 0).spec c) : sProp 𝕄) ⊢ Pipeline.ΦA spec0 c := by
      unfold Pipeline.ΦA
      iintro ⟨Hp, -, Hr⟩
      isplitl [Hr]; · iexact Hr
      iexact Hp
    exact h.trans (hin0 (V0 m ρ) c)
  hout c := by
    rw [Pipeline.ownSems0_none]
    have h : (Pipeline.ΦA spec0 c : sProp 𝕄) ⊢ iprop((∃ r, prngReg c r) ∗ BI.emp
        ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0 (V0 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- THE RUN: every weakly fair execution of @main terminates, and in every final state each core's unscoped
    buffers hold the last fold's contents. -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := StableHlo.after_of_writes_sub hostOps1 _ hostOps1_writes (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := (W3_arr m ρ c 1).trans (((dat1 (V2 m ρ) c).arrAt_in 1 rfl _).trans (A_eq1 (V2 m ρ) c 1))
    _ = W1 m ρ c (Proc.devRef .tc main_arg1) := StableHlo.after_of_writes_sub hostOps1 _ hostOps1_writes (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := (W3_arr m ρ c 2).trans (((dat1 (V2 m ρ) c).arrAt_in 2 rfl _).trans (A_eq1 (V2 m ρ) c 2))
    _ = W1 m ρ c (Proc.devRef .tc main_arg2) := StableHlo.after_of_writes_sub hostOps1 _ hostOps1_writes (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl

/-- THE FRAME: every weakly fair execution terminates, nothing faulting, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_bufs m ρ)

end Cert.KernelIdeal.Hand

end
-- ==== Proof.KI.Region0Values.lean ====
/- Region 0 (the per-batch reduction kernel): the pieces each control case finds, as values. With
   s(x0, x1, x2) the tile's 64 sums (masked and total channel sums of the two normalised inputs) and
   n(x2) its class-0 pixel count: an even point leaves 0 + s and 0 + n in the accumulators; an odd point
   leaves acc + s and acc' + n, and the two outputs receive exactly those. -/
import proofs.«142478_j79491254714952_2_alg».proof.Proof.KI.Region0Data
import Idealize.ShloMosaic.Lib.Pipeline.Value

-- membership in a rectangle of full extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- An even point leaves in accumulator 0 the tile's sums added to the zeros it has just stored: the last store's payload, whose accumulator operand is the read-back of the zeroing store. -/
theorem sout0_A_0_eq (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : cond0_0 i) (hc1 : ¬cond0_1 i)
    (x0 : Vec F S1x16x128x256 .f32) (x1 : Vec F S1x16x128x256 .f32) (x2 : Vec F S1x128x256 .i32) :
    sout0_A_0 c i arg2 harg2 arg3 harg3 arg4 harg4 arg5 harg5 arg6 harg6 arg7 harg7 arg8 harg8 hc0 hc1 x0 x1 x2 = k0_pay7 (k0_pay3 x0) (k0_pay4 x1) (k0_pay5 x2) (k0_pay6 x0 x2) (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x1x64) hz3, View.readCov_unit_zero (S := S1x1x64) _ hz3]
  simp only [View.readAt_eq_ld, harg2.read_unread, harg3.read_unread, harg4.read_unread, View.ld_unit_zero (S := S1x16x128x256) hz4, View.ld_unit_zero (S := S1x128x256) hz3]

/-- An even point leaves in accumulator 1 the tile's class-0 count added to the zero it has just stored. -/
theorem sout0_A_1_eq (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : cond0_0 i) (hc1 : ¬cond0_1 i)
    (x0 : Vec F S1x16x128x256 .f32) (x1 : Vec F S1x16x128x256 .f32) (x2 : Vec F S1x128x256 .i32) :
    sout0_A_1 c i arg2 harg2 arg3 harg3 arg4 harg4 arg5 harg5 arg6 harg6 arg7 harg7 arg8 harg8 hc0 hc1 x0 x1 x2 = k0_pay8 (k0_pay5 x2) (k0_pay2 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x1x1) hz3, View.readCov_unit_zero (S := S1x1x1) _ hz3]
  simp only [View.readAt_eq_ld, harg4.read_unread, View.ld_unit_zero (S := S1x128x256) hz3]

/-- An odd point leaves in accumulator 0 the tile's sums added to what the point before left there. -/
theorem sout0_B_0_eq (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : ¬cond0_0 i) (hc1 : cond0_1 i)
    (x0 : Vec F S1x16x128x256 .f32) (x1 : Vec F S1x16x128x256 .f32) (x2 : Vec F S1x128x256 .i32) (xs0 : Vec F S1x1x64 .f32) (xs1 : Vec F S1x1x1 .f32) :
    sout0_B_0 c i arg2 harg2 arg3 harg3 arg4 harg4 arg5 harg5 arg6 harg6 arg7 harg7 arg8 harg8 hc0 hc1 x0 x1 x2 xs0 xs1 = k0_pay7 (k0_pay3 x0) (k0_pay4 x1) (k0_pay5 x2) (k0_pay6 x0 x2) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero (S := S1x1x64) hz3]
  simp only [View.readAt_eq_ld, harg2.read_unread, harg3.read_unread, harg4.read_unread, harg7.read_unread, View.ld_unit_zero (S := S1x16x128x256) hz4, View.ld_unit_zero (S := S1x128x256) hz3, View.ld_unit_zero (S := S1x1x64) hz3]

/-- An odd point leaves in accumulator 1 the tile's class-0 count added to what the point before left there. -/
theorem sout0_B_1_eq (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : ¬cond0_0 i) (hc1 : cond0_1 i)
    (x0 : Vec F S1x16x128x256 .f32) (x1 : Vec F S1x16x128x256 .f32) (x2 : Vec F S1x128x256 .i32) (xs0 : Vec F S1x1x64 .f32) (xs1 : Vec F S1x1x1 .f32) :
    sout0_B_1 c i arg2 harg2 arg3 harg3 arg4 harg4 arg5 harg5 arg6 harg6 arg7 harg7 arg8 harg8 hc0 hc1 x0 x1 x2 xs0 xs1 = k0_pay8 (k0_pay5 x2) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero (S := S1x1x1) hz3]
  simp only [View.readAt_eq_ld, harg4.read_unread, harg8.read_unread, View.ld_unit_zero (S := S1x128x256) hz3, View.ld_unit_zero (S := S1x1x1) hz3]

/-- An odd point stores into output 3 the accumulator it has just updated: the copy reads back the one covering store. -/
theorem out0_B_3_eq (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : ¬cond0_0 i) (hc1 : cond0_1 i)
    (x0 : Vec F S1x16x128x256 .f32) (x1 : Vec F S1x16x128x256 .f32) (x2 : Vec F S1x128x256 .i32) (xs0 : Vec F S1x1x64 .f32) (xs1 : Vec F S1x1x1 .f32) :
    out0_B_3 c i arg2 harg2 arg3 harg3 arg4 harg4 arg5 harg5 arg6 harg6 arg7 harg7 arg8 harg8 hc0 hc1 x0 x1 x2 xs0 xs1 = k0_pay7 (k0_pay3 x0) (k0_pay4 x1) (k0_pay5 x2) (k0_pay6 x0 x2) xs0 := by
  unfold out0_B_3
  rw [View.read_writes_eq_canon _ _ _ (cover0_B_3 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero (S := S1x1x64) hz3, View.readCov_unit_zero (S := S1x1x64) _ hz3]
  simp only [View.readAt_eq_ld, harg2.read_unread, harg3.read_unread, harg4.read_unread, harg7.read_unread, View.ld_unit_zero (S := S1x16x128x256) hz4, View.ld_unit_zero (S := S1x128x256) hz3, View.ld_unit_zero (S := S1x1x64) hz3]

/-- An odd point stores into output 4 the count accumulator it has just updated. -/
theorem out0_B_4_eq (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : ¬cond0_0 i) (hc1 : cond0_1 i)
    (x0 : Vec F S1x16x128x256 .f32) (x1 : Vec F S1x16x128x256 .f32) (x2 : Vec F S1x128x256 .i32) (xs0 : Vec F S1x1x64 .f32) (xs1 : Vec F S1x1x1 .f32) :
    out0_B_4 c i arg2 harg2 arg3 harg3 arg4 harg4 arg5 harg5 arg6 harg6 arg7 harg7 arg8 harg8 hc0 hc1 x0 x1 x2 xs0 xs1 = k0_pay8 (k0_pay5 x2) xs1 := by
  unfold out0_B_4
  rw [View.read_writes_eq_canon _ _ _ (cover0_B_4 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero (S := S1x1x1) hz3, View.readCov_unit_zero (S := S1x1x1) _ hz3]
  simp only [View.readAt_eq_ld, harg4.read_unread, harg8.read_unread, View.ld_unit_zero (S := S1x128x256) hz3, View.ld_unit_zero (S := S1x1x1) hz3]

/-- At an odd point each output is what the same point leaves in its accumulator. -/
theorem out0_B_3_eq_sout (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : ¬cond0_0 i) (hc1 : cond0_1 i)
    (x0 : Vec F S1x16x128x256 .f32) (x1 : Vec F S1x16x128x256 .f32) (x2 : Vec F S1x128x256 .i32) (xs0 : Vec F S1x1x64 .f32) (xs1 : Vec F S1x1x1 .f32) :
    out0_B_3 c i arg2 harg2 arg3 harg3 arg4 harg4 arg5 harg5 arg6 harg6 arg7 harg7 arg8 harg8 hc0 hc1 x0 x1 x2 xs0 xs1 = sout0_B_0 c i arg2 harg2 arg3 harg3 arg4 harg4 arg5 harg5 arg6 harg6 arg7 harg7 arg8 harg8 hc0 hc1 x0 x1 x2 xs0 xs1 :=
  (out0_B_3_eq c i arg2 harg2 arg3 harg3 arg4 harg4 arg5 harg5 arg6 harg6 arg7 harg7 arg8 harg8 hc0 hc1 x0 x1 x2 xs0 xs1).trans (sout0_B_0_eq c i arg2 harg2 arg3 harg3 arg4 harg4 arg5 harg5 arg6 harg6 arg7 harg7 arg8 harg8 hc0 hc1 x0 x1 x2 xs0 xs1).symm
theorem out0_B_4_eq_sout (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : ¬cond0_0 i) (hc1 : cond0_1 i)
    (x0 : Vec F S1x16x128x256 .f32) (x1 : Vec F S1x16x128x256 .f32) (x2 : Vec F S1x128x256 .i32) (xs0 : Vec F S1x1x64 .f32) (xs1 : Vec F S1x1x1 .f32) :
    out0_B_4 c i arg2 harg2 arg3 harg3 arg4 harg4 arg5 harg5 arg6 harg6 arg7 harg7 arg8 harg8 hc0 hc1 x0 x1 x2 xs0 xs1 = sout0_B_1 c i arg2 harg2 arg3 harg3 arg4 harg4 arg5 harg5 arg6 harg6 arg7 harg7 arg8 harg8 hc0 hc1 x0 x1 x2 xs0 xs1 :=
  (out0_B_4_eq c i arg2 harg2 arg3 harg3 arg4 harg4 arg5 harg5 arg6 harg6 arg7 harg7 arg8 harg8 hc0 hc1 x0 x1 x2 xs0 xs1).trans (sout0_B_1_eq c i arg2 harg2 arg3 harg3 arg4 harg4 arg5 harg5 arg6 harg6 arg7 harg7 arg8 harg8 hc0 hc1 x0 x1 x2 xs0 xs1).symm

end Cert.KernelIdeal.Hand

end
-- ==== Proof.KI.Region0Closed.lean ====
/- Region 0 (the per-batch reduction kernel): what the accumulators and the outputs hold point by point, in
   closed form. Every even point starts from zeros, so no induction over the grid is needed: after an even
   point the accumulators hold 0 + (that tile's sums); after the odd point that follows they, and the two
   outputs, hold (0 + the even tile's sums) + the odd tile's sums. -/
import proofs.«142478_j79491254714952_2_alg».proof.Proof.KI.Region0Values

-- membership in a rectangle of full extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Closed
-- the TensorCore's buffer contents when the region is entered
variable (V : (c : Dev nD) → (b : Ref sig .tc) → Buf (Elt F) ((c : Thread nD τ).loc b))

/-- The 64 sums of the tile at point `t` (the masked and the total channel sums of the two normalised inputs)
    added to an accumulator `acc`. -/
def accSum0 (c : Dev nD) (t : Fin cfg0.N) (acc : Vec F S1x1x64 .f32) : Vec F S1x1x64 .f32 :=
  k0_pay7 (k0_pay3 (iblk0 V c 0 t)) (k0_pay4 (iblk0 V c 1 t)) (k0_pay5 (iblk0 V c 2 t)) (k0_pay6 (iblk0 V c 0 t) (iblk0 V c 2 t)) acc

/-- The class-0 pixel count of the tile at point `t` added to an accumulator `acc`. -/
def accCnt0 (c : Dev nD) (t : Fin cfg0.N) (acc : Vec F S1x1x1 .f32) : Vec F S1x1x1 .f32 :=
  k0_pay8 (k0_pay5 (iblk0 V c 2 t)) acc

/-- The point before `t` (the even point of the same batch element, when `t` is odd). -/
abbrev prev0 (t : Fin cfg0.N) : Fin cfg0.N := ⟨t.val - 1, Nat.lt_of_le_of_lt (Nat.sub_le _ _) t.isLt⟩

/-- After an even point the accumulators hold the tile's sums and count over the zeros just stored. -/
theorem outsAt0_even (c : Dev nD) (t : Fin cfg0.N) (h0 : t.val % 2 = 0) :
    (outsAt0 V c t.val t.isLt).2 = (accSum0 V c t (k0_pay1 (F := F)), accCnt0 V c t (k0_pay2 (F := F))) := by
  have h1 : ¬t.val % 2 = 1 := by omega
  rw [outsAt0_A V c t h0 h1]
  exact Prod.ext
    (sout0_A_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t))
    (sout0_A_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t))

/-- What an odd point leaves, as values, over variables: the two outputs and the two accumulators all at the
    tile's sums and count added to what the accumulators held. -/
theorem caseB_eq (c : Dev nD) (i : grid0.Coords) (arg2 : Memref sig .tc .vmem S1x16x128x256 .f32) (harg2 : arg2.IsWhole) (arg3 : Memref sig .tc .vmem S1x16x128x256 .f32) (harg3 : arg3.IsWhole) (arg4 : Memref sig .tc .vmem S1x128x256 .i32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x64 .f32) (harg7 : arg7.IsWhole) (arg8 : Memref sig .tc .vmem S1x1x1 .f32) (harg8 : arg8.IsWhole) (hc0 : ¬cond0_0 i) (hc1 : cond0_1 i)
    (x0 : Vec F S1x16x128x256 .f32) (x1 : Vec F S1x16x128x256 .f32) (x2 : Vec F S1x128x256 .i32) (xs0 : Vec F S1x1x64 .f32) (xs1 : Vec F S1x1x1 .f32) :
    ((out0_B_3 c i arg2 harg2 arg3 harg3 arg4 harg4 arg5 harg5 arg6 harg6 arg7 harg7 arg8 harg8 hc0 hc1 x0 x1 x2 xs0 xs1, out0_B_4 c i arg2 harg2 arg3 harg3 arg4 harg4 arg5 harg5 arg6 harg6 arg7 harg7 arg8 harg8 hc0 hc1 x0 x1 x2 xs0 xs1),
     (sout0_B_0 c i arg2 harg2 arg3 harg3 arg4 harg4 arg5 harg5 arg6 harg6 arg7 harg7 arg8 harg8 hc0 hc1 x0 x1 x2 xs0 xs1, sout0_B_1 c i arg2 harg2 arg3 harg3 arg4 harg4 arg5 harg5 arg6 harg6 arg7 harg7 arg8 harg8 hc0 hc1 x0 x1 x2 xs0 xs1))
      = ((k0_pay7 (k0_pay3 x0) (k0_pay4 x1) (k0_pay5 x2) (k0_pay6 x0 x2) xs0, k0_pay8 (k0_pay5 x2) xs1), (k0_pay7 (k0_pay3 x0) (k0_pay4 x1) (k0_pay5 x2) (k0_pay6 x0 x2) xs0, k0_pay8 (k0_pay5 x2) xs1)) := by
  rw [out0_B_3_eq, out0_B_4_eq, sout0_B_0_eq, sout0_B_1_eq]

/-- After an odd point the two outputs and the two accumulators hold the sums and the count of the two tiles of
    the batch element, added in point order to zero. -/
theorem outsAt0_odd (c : Dev nD) (t : Fin cfg0.N) (h1 : t.val % 2 = 1) :
    outsAt0 V c t.val t.isLt
      = ((accSum0 V c t (accSum0 V c (prev0 t) (k0_pay1 (F := F))), accCnt0 V c t (accCnt0 V c (prev0 t) (k0_pay2 (F := F)))),
         (accSum0 V c t (accSum0 V c (prev0 t) (k0_pay1 (F := F))), accCnt0 V c t (accCnt0 V c (prev0 t) (k0_pay2 (F := F))))) := by
  have h0 : ¬t.val % 2 = 0 := by omega
  have hp : (outsAt0 V c (t.val - 1) (Nat.lt_of_le_of_lt (Nat.sub_le _ _) t.isLt)).2
      = (accSum0 V c (prev0 t) (k0_pay1 (F := F)), accCnt0 V c (prev0 t) (k0_pay2 (F := F))) :=
    outsAt0_even V c (prev0 t) (by show (t.val - 1) % 2 = 0; omega)
  have e1 := congrArg Prod.fst hp
  have e2 := congrArg Prod.snd hp
  refine (outsAt0_B V c t h0 h1).trans ?_
  refine (caseB_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t)
    (outsAt0 V c (t.val - 1) (Nat.lt_of_le_of_lt (Nat.sub_le _ _) t.isLt)).2.1
    (outsAt0 V c (t.val - 1) (Nat.lt_of_le_of_lt (Nat.sub_le _ _) t.isLt)).2.2).trans ?_
  rw [e1, e2]
  rfl

/-- What the pipeline's proof data says output 3 holds after an odd point (the block written back there). -/
theorem after0_3_odd (c : Dev nD) (t : Fin cfg0.N) (h1 : t.val % 2 = 1) :
    (dat0 V c).after 3 t = accSum0 V c t (accSum0 V c (prev0 t) (k0_pay1 (F := F))) := by
  rw [after0_3, outsAt0_odd V c t h1]

/-- What the pipeline's proof data says output 4 holds after an odd point (the block written back there). -/
theorem after0_4_odd (c : Dev nD) (t : Fin cfg0.N) (h1 : t.val % 2 = 1) :
    (dat0 V c).after 4 t = accCnt0 V c t (accCnt0 V c (prev0 t) (k0_pay2 (F := F))) := by
  rw [after0_4, outsAt0_odd V c t h1]

/-- The same with the point before named: for an odd point `t` and its predecessor `tp`, output 3's block written
    back at `t` is the two tiles' sums added in point order to the zero vector, over the payloads themselves. -/
theorem after0_3_odd_at (c : Dev nD) (t tp : Fin cfg0.N) (h1 : t.val % 2 = 1) (hp : tp.val + 1 = t.val) :
    (dat0 V c).after 3 t = k0_pay7 (k0_pay3 (iblk0 V c 0 t)) (k0_pay4 (iblk0 V c 1 t)) (k0_pay5 (iblk0 V c 2 t)) (k0_pay6 (iblk0 V c 0 t) (iblk0 V c 2 t)) (k0_pay7 (k0_pay3 (iblk0 V c 0 tp)) (k0_pay4 (iblk0 V c 1 tp)) (k0_pay5 (iblk0 V c 2 tp)) (k0_pay6 (iblk0 V c 0 tp) (iblk0 V c 2 tp)) (k0_pay1 (F := F))) := by
  obtain rfl : tp = prev0 t := Fin.ext (by show tp.val = t.val - 1; omega)
  have h := after0_3_odd V c t h1
  unfold accSum0 at h
  exact h

/-- And output 4's block written back at `t` is the two tiles' class-0 counts added in point order to zero. -/
theorem after0_4_odd_at (c : Dev nD) (t tp : Fin cfg0.N) (h1 : t.val % 2 = 1) (hp : tp.val + 1 = t.val) :
    (dat0 V c).after 4 t = k0_pay8 (k0_pay5 (iblk0 V c 2 t)) (k0_pay8 (k0_pay5 (iblk0 V c 2 tp)) (k0_pay2 (F := F))) := by
  obtain rfl : tp = prev0 t := Fin.ext (by show tp.val = t.val - 1; omega)
  have h := after0_4_odd V c t h1
  unfold accCnt0 at h
  exact h

end Closed

end Cert.KernelIdeal.Hand

end
-- ==== Proof.Spec.lean ====
/-
  The two programs as formulas on the extended reals, index by index, over curried coordinates
  (batch b : Fin 32, channel c : Fin 16, row r : Fin 256, column q : Fin 256).

  Common part. For an input X, the clamped channel norm  n X b r q = max (√(∑_c X²)) ε₁₂  and the
  normalised feature  f X b c r q = X b c r q / n X b r q.  The label array g gives the class
  indicators  μ_k b r q = 1 if g b r q = k, else 0  (k = 0, 1).

  The reference. Per class k: the pixel count plus ε₆, the masked mean of f over the 256 × 256 pixels.
  It then updates two copies of f twice: (1 − μ₀)·f + μ₀·mean₀, then (1 − μ₁)·that + μ₁·mean₁ ("centre"),
  and μ₀·f + (1 − μ₀)·mean₀, then μ₁·that + (1 − μ₁)·mean₁ ("far centre"). Per pixel it takes the cosine
  (over channels, denominator clamped below by ε₈) of f with each, exponentiates their difference, and
  the result is the mean over all 32·256·256 pixels of the squared difference between the S and T sides.

  The kernel. It accumulates, over the two row tiles h (rows 128h … 128h+127), the class-0 masked channel
  sums, the unmasked channel sums and the class-0 pixel count; takes class 1's sums and count as the
  differences from the totals (the count from 65536); forms both class means and their norms; per pixel
  the cosines of f with both means; exponentiates (2μ₀ − 1)·(cos₀ − cos₁); sums the squared S − T
  differences per tile, then over tiles and batches, and divides by 32·256·256.
-/
import Idealize.ShloMosaic.PureOps.Ideal
import Mathlib.Algebra.BigOperators.Fin

noncomputable section

namespace Cert.Spec

open Idealize.ShloMosaic

/-- The float literals both programs carry, as the extended reals their words denote. -/
abbrev e12 : EReal := Ideal.ofBits .f32 0x2B8CBCCC#32
abbrev e8 : EReal := Ideal.ofBits .f32 0x322BCC77#32
abbrev e6 : EReal := Ideal.ofBits .f32 0x358637BD#32
abbrev nPix : EReal := Ideal.ofBits .f32 0x47800000#32
abbrev nAll : EReal := Ideal.ofBits .f32 0x4A000000#32

abbrev Arr4 := Fin 32 → Fin 16 → Fin 256 → Fin 256 → EReal
abbrev Lab := Fin 32 → Fin 256 → Fin 256 → BitVec 32

/-- Row 128·h + r' of the 256 rows: tile h, row r' inside the tile. -/
def row (h : Fin 2) (r' : Fin 128) : Fin 256 := ⟨128 * h.val + r'.val, by omega⟩

/-! ## Common part -/

/-- The channel norm, clamped below by ε₁₂. -/
def nrm (X : Arr4) (b : Fin 32) (r q : Fin 256) : EReal :=
  max (Ideal.sqrt (∑ c : Fin 16, X b c r q * X b c r q)) e12

/-- The normalised feature. -/
def feat (X : Arr4) (b : Fin 32) (c : Fin 16) (r q : Fin 256) : EReal :=
  Ideal.div (X b c r q) (nrm X b r q)

/-- The indicator of class k. -/
def ind (k : BitVec 32) (g : Lab) (b : Fin 32) (r q : Fin 256) : EReal :=
  if g b r q = k then 1 else 0

/-- The cosine of two channel vectors, its denominator clamped below by ε₈. -/
def cosv (a v : Fin 16 → EReal) : EReal :=
  Ideal.div (∑ c, a c * v c) (max (Ideal.sqrt (∑ c, a c * a c) * Ideal.sqrt (∑ c, v c * v c)) e8)

/-! ## The reference -/

def cntR (k : BitVec 32) (g : Lab) (b : Fin 32) : EReal :=
  (∑ r : Fin 256, ∑ q : Fin 256, ind k g b r q) + e6

def meanR (k : BitVec 32) (X : Arr4) (g : Lab) (b : Fin 32) (c : Fin 16) : EReal :=
  Ideal.div (∑ r : Fin 256, ∑ q : Fin 256, ind k g b r q * feat X b c r q) (cntR k g b)

def cen1R (X : Arr4) (g : Lab) (b : Fin 32) (c : Fin 16) (r q : Fin 256) : EReal :=
  (1 - ind 0 g b r q) * feat X b c r q + ind 0 g b r q * meanR 0 X g b c

def cenR (X : Arr4) (g : Lab) (b : Fin 32) (c : Fin 16) (r q : Fin 256) : EReal :=
  (1 - ind 1 g b r q) * cen1R X g b c r q + ind 1 g b r q * meanR 1 X g b c

def far1R (X : Arr4) (g : Lab) (b : Fin 32) (c : Fin 16) (r q : Fin 256) : EReal :=
  ind 0 g b r q * feat X b c r q + (1 - ind 0 g b r q) * meanR 0 X g b c

def farR (X : Arr4) (g : Lab) (b : Fin 32) (c : Fin 16) (r q : Fin 256) : EReal :=
  ind 1 g b r q * far1R X g b c r q + (1 - ind 1 g b r q) * meanR 1 X g b c

def pcR (X : Arr4) (g : Lab) (b : Fin 32) (r q : Fin 256) : EReal :=
  Ideal.exp (cosv (fun c => feat X b c r q) (fun c => cenR X g b c r q)
    - cosv (fun c => feat X b c r q) (fun c => farR X g b c r q))

/-- The reference's per-pixel difference (its last array before the square). -/
def diffR (S T : Arr4) (g : Lab) (b : Fin 32) (r q : Fin 256) : EReal :=
  pcR S g b r q - pcR T g b r q

def refE (S T : Arr4) (g : Lab) : EReal :=
  Ideal.div (∑ b : Fin 32, ∑ r : Fin 256, ∑ q : Fin 256, diffR S T g b r q * diffR S T g b r q) nAll

/-! ## The kernel -/

/-- One tile's class-0 masked channel sum, unmasked channel sum, and class-0 count. -/
def tileSum0 (X : Arr4) (g : Lab) (b : Fin 32) (c : Fin 16) (h : Fin 2) : EReal :=
  ∑ r' : Fin 128, ∑ q : Fin 256, ind 0 g b (row h r') q * feat X b c (row h r') q
def tileTot (X : Arr4) (b : Fin 32) (c : Fin 16) (h : Fin 2) : EReal :=
  ∑ r' : Fin 128, ∑ q : Fin 256, feat X b c (row h r') q
def tileCnt0 (g : Lab) (b : Fin 32) (h : Fin 2) : EReal :=
  ∑ r' : Fin 128, ∑ q : Fin 256, ind 0 g b (row h r') q

def sum0K (X : Arr4) (g : Lab) (b : Fin 32) (c : Fin 16) : EReal := ∑ h : Fin 2, tileSum0 X g b c h
def totK (X : Arr4) (b : Fin 32) (c : Fin 16) : EReal := ∑ h : Fin 2, tileTot X b c h
def cnt0K (g : Lab) (b : Fin 32) : EReal := ∑ h : Fin 2, tileCnt0 g b h

def mean0K (X : Arr4) (g : Lab) (b : Fin 32) (c : Fin 16) : EReal :=
  Ideal.div (sum0K X g b c) (cnt0K g b + e6)
def mean1K (X : Arr4) (g : Lab) (b : Fin 32) (c : Fin 16) : EReal :=
  Ideal.div (totK X b c - sum0K X g b c) ((nPix - cnt0K g b) + e6)

def norm0K (X : Arr4) (g : Lab) (b : Fin 32) : EReal := Ideal.sqrt (∑ c : Fin 16, mean0K X g b c * mean0K X g b c)
def norm1K (X : Arr4) (g : Lab) (b : Fin 32) : EReal := Ideal.sqrt (∑ c : Fin 16, mean1K X g b c * mean1K X g b c)

def nfeat (X : Arr4) (b : Fin 32) (r q : Fin 256) : EReal :=
  Ideal.sqrt (∑ c : Fin 16, feat X b c r q * feat X b c r q)

def cos0K (X : Arr4) (g : Lab) (b : Fin 32) (r q : Fin 256) : EReal :=
  Ideal.div (∑ c : Fin 16, feat X b c r q * mean0K X g b c) (max (nfeat X b r q * norm0K X g b) e8)
def cos1K (X : Arr4) (g : Lab) (b : Fin 32) (r q : Fin 256) : EReal :=
  Ideal.div (∑ c : Fin 16, feat X b c r q * mean1K X g b c) (max (nfeat X b r q * norm1K X g b) e8)

def pcK (X : Arr4) (g : Lab) (b : Fin 32) (r q : Fin 256) : EReal :=
  Ideal.exp ((Ideal.ofBits .f32 0x40000000#32 * ind 0 g b r q - Ideal.ofBits .f32 0x3F800000#32)
    * (cos0K X g b r q - cos1K X g b r q))

def diffK (S T : Arr4) (g : Lab) (b : Fin 32) (r q : Fin 256) : EReal :=
  pcK S g b r q - pcK T g b r q

/-- One tile's sum of squared differences: what the second call writes at (b, h). -/
def partK (S T : Arr4) (g : Lab) (b : Fin 32) (h : Fin 2) : EReal :=
  ∑ r' : Fin 128, ∑ q : Fin 256, diffK S T g b (row h r') q * diffK S T g b (row h r') q

def kerE (S T : Arr4) (g : Lab) : EReal :=
  Ideal.div (∑ b : Fin 32, ∑ h : Fin 2, partK S T g b h) nAll

end Cert.Spec

end
-- ==== Proof.KI.Blocks0.lean ====
/-
  The first call's blocks as pieces of its arrays. Grid point t = 2·b + h is batch b, row tile h. The two float
  windows' block at t is rows 128h … 128h+127 of batch b; the label window's block the same rows; the statistics
  window's block the 64 entries of batch b, the count window's block the one entry of batch b (both written back at
  the odd points only). Each index map is decided once over the 64 points.
-/
import proofs.«142478_j79491254714952_2_alg».proof.Proof.KI.Region0Data
import proofs.«142478_j79491254714952_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open ValueIdx Cert.Spec

variable {F : FTy → Type} [FloatOps F]
variable (V : (c : Dev nD) → (b : Ref sig .tc) → Buf (Elt F) ((c : Thread nD τ).loc b))

/-- The batch and the row tile of a grid point. -/
def pb0 (t : Fin cfg0.N) : Fin 32 := ⟨t.val / 2, by have := t.isLt; have : cfg0.N = 64 := N_0; omega⟩
def ph0 (t : Fin cfg0.N) : Fin 2 := ⟨t.val % 2, by omega⟩

theorem idx0 : ∀ t : Fin cfg0.N,
    (win0_0.index t (0 : Fin 4) = t.val / 2 ∧ win0_0.index t (1 : Fin 4) = 0 ∧ win0_0.index t (2 : Fin 4) = t.val % 2 ∧ win0_0.index t (3 : Fin 4) = 0)
    ∧ (win0_1.index t (0 : Fin 4) = t.val / 2 ∧ win0_1.index t (1 : Fin 4) = 0 ∧ win0_1.index t (2 : Fin 4) = t.val % 2 ∧ win0_1.index t (3 : Fin 4) = 0)
    ∧ (win0_2.index t (0 : Fin 3) = t.val / 2 ∧ win0_2.index t (1 : Fin 3) = t.val % 2 ∧ win0_2.index t (2 : Fin 3) = 0)
    ∧ (win0_3.index t (0 : Fin 3) = t.val / 2 ∧ win0_3.index t (1 : Fin 3) = 0 ∧ win0_3.index t (2 : Fin 3) = 0)
    ∧ (win0_4.index t (0 : Fin 3) = t.val / 2 ∧ win0_4.index t (1 : Fin 3) = 0 ∧ win0_4.index t (2 : Fin 3) = 0) :=
  (by decide +kernel : ∀ t : Fin grid0.N, _)

theorem blk0_0 (c : Dev nD) (t : Fin cfg0.N) (cc : Fin 16) (r' : Fin 128) (q : Fin 256) :
    iblk0 V c 0 t (ix4 0 cc r' q) = V c main_arg0 (ix4 (pb0 t) cc (row (ph0 t) r') q) := by
  unfold iblk0
  rw [View.read_apply]
  show V c main_arg0 (((cfg0.win 0).blk t).view.emb (ix4 0 cc r' q)) = _
  refine congrArg (V c main_arg0) (funext fun a => Fin.ext ?_)
  obtain ⟨⟨e0, e1, e2, e3⟩, -⟩ := idx0 t
  match a with
  | ⟨0, _⟩ => show win0_0.index t (0 : Fin 4) * 1 + 1 * 0 = t.val / 2; omega
  | ⟨1, _⟩ => show win0_0.index t (1 : Fin 4) * 16 + 1 * cc.val = cc.val; omega
  | ⟨2, _⟩ => show win0_0.index t (2 : Fin 4) * 128 + 1 * r'.val = 128 * (t.val % 2) + r'.val; omega
  | ⟨3, _⟩ => show win0_0.index t (3 : Fin 4) * 256 + 1 * q.val = q.val; omega

theorem blk0_1 (c : Dev nD) (t : Fin cfg0.N) (cc : Fin 16) (r' : Fin 128) (q : Fin 256) :
    iblk0 V c 1 t (ix4 0 cc r' q) = V c main_arg1 (ix4 (pb0 t) cc (row (ph0 t) r') q) := by
  unfold iblk0
  rw [View.read_apply]
  show V c main_arg1 (((cfg0.win 1).blk t).view.emb (ix4 0 cc r' q)) = _
  refine congrArg (V c main_arg1) (funext fun a => Fin.ext ?_)
  obtain ⟨-, ⟨e0, e1, e2, e3⟩, -⟩ := idx0 t
  match a with
  | ⟨0, _⟩ => show win0_1.index t (0 : Fin 4) * 1 + 1 * 0 = t.val / 2; omega
  | ⟨1, _⟩ => show win0_1.index t (1 : Fin 4) * 16 + 1 * cc.val = cc.val; omega
  | ⟨2, _⟩ => show win0_1.index t (2 : Fin 4) * 128 + 1 * r'.val = 128 * (t.val % 2) + r'.val; omega
  | ⟨3, _⟩ => show win0_1.index t (3 : Fin 4) * 256 + 1 * q.val = q.val; omega

theorem blk0_2 (c : Dev nD) (t : Fin cfg0.N) (r' : Fin 128) (q : Fin 256) :
    iblk0 V c 2 t (ix3 0 r' q) = V c main_arg2 (ix3 (pb0 t) (row (ph0 t) r') q) := by
  unfold iblk0
  rw [View.read_apply]
  show V c main_arg2 (((cfg0.win 2).blk t).view.emb (ix3 0 r' q)) = _
  refine congrArg (V c main_arg2) (funext fun a => Fin.ext ?_)
  obtain ⟨-, -, ⟨e0, e1, e2⟩, -⟩ := idx0 t
  match a with
  | ⟨0, _⟩ => show win0_2.index t (0 : Fin 3) * 1 + 1 * 0 = t.val / 2; omega
  | ⟨1, _⟩ => show win0_2.index t (1 : Fin 3) * 128 + 1 * r'.val = 128 * (t.val % 2) + r'.val; omega
  | ⟨2, _⟩ => show win0_2.index t (2 : Fin 3) * 256 + 1 * q.val = q.val; omega

/-- Where an element of the statistics window's block sits in the array: entry k of batch b. -/
theorem emb0_3 (t : Fin cfg0.N) (y : S1x1x64.Idx) :
    ((cfg0.win 3).blk t).view.emb y = (ix3 (pb0 t) 0 (y 2) : S32x1x64.Idx) := by
  funext a; apply Fin.ext
  obtain ⟨-, -, -, ⟨e0, e1, e2⟩, -⟩ := idx0 t
  match a with
  | ⟨0, _⟩ => show win0_3.index t (0 : Fin 3) * 1 + 1 * (y 0).val = t.val / 2; have : (y 0).val < 1 := (y 0).isLt; omega
  | ⟨1, _⟩ => show win0_3.index t (1 : Fin 3) * 1 + 1 * (y 1).val = 0; have : (y 1).val < 1 := (y 1).isLt; omega
  | ⟨2, _⟩ => show win0_3.index t (2 : Fin 3) * 64 + 1 * (y 2).val = (y 2).val; omega

/-- Where the count window's block sits: the one entry of batch b. -/
theorem emb0_4 (t : Fin cfg0.N) (y : S1x1x1.Idx) :
    ((cfg0.win 4).blk t).view.emb y = (ix3 (pb0 t) 0 0 : S32x1x1.Idx) := by
  funext a; apply Fin.ext
  obtain ⟨-, -, -, -, ⟨e0, e1, e2⟩⟩ := idx0 t
  match a with
  | ⟨0, _⟩ => show win0_4.index t (0 : Fin 3) * 1 + 1 * (y 0).val = t.val / 2; have : (y 0).val < 1 := (y 0).isLt; omega
  | ⟨1, _⟩ => show win0_4.index t (1 : Fin 3) * 1 + 1 * (y 1).val = 0; have : (y 1).val < 1 := (y 1).isLt; omega
  | ⟨2, _⟩ => show win0_4.index t (2 : Fin 3) * 1 + 1 * (y 2).val = 0; have : (y 2).val < 1 := (y 2).isLt; omega

/-- Every entry of the statistics array is in the block of batch b's LAST point 2b + 1, which writes it back. -/
theorem cover0_3_arr (i : S32x1x64.Idx) :
    ∃ t : Fin cfg0.N, (cfg0.win 3).flush t = true ∧ i ∈ ((cfg0.win 3).blk t).view.set := by
  have hN : cfg0.N = 64 := N_0
  have h0 : (i 0).val < 32 := (i 0).isLt
  have h1 : (i 1).val < 1 := (i 1).isLt
  have hlt : 2 * (i 0).val + 1 < cfg0.N := lt_of_lt_of_eq (by omega : 2 * (i 0).val + 1 < 64) N_0.symm
  refine ⟨⟨2 * (i 0).val + 1, hlt⟩, (flush0_3 _).2 (by show (2 * (i 0).val + 1) % 2 = 1; omega), ?_⟩
  have hi : ((cfg0.win 3).blk ⟨2 * (i 0).val + 1, hlt⟩).view.emb (ix3 0 0 (i 2)) = i := by
    rw [emb0_3]
    funext a; apply Fin.ext
    match a with
    | ⟨0, _⟩ => show (2 * (i 0).val + 1) / 2 = (i 0).val; omega
    | ⟨1, _⟩ => show 0 = (i 1).val; omega
    | ⟨2, _⟩ => rfl
  have hmem := ((cfg0.win 3).blk ⟨2 * (i 0).val + 1, hlt⟩).view.emb_mem_set (ix3 0 0 (i 2))
  rw [hi] at hmem
  exact hmem

theorem cover0_4_arr (i : S32x1x1.Idx) :
    ∃ t : Fin cfg0.N, (cfg0.win 4).flush t = true ∧ i ∈ ((cfg0.win 4).blk t).view.set := by
  have hN : cfg0.N = 64 := N_0
  have h0 : (i 0).val < 32 := (i 0).isLt
  have h1 : (i 1).val < 1 := (i 1).isLt
  have h2 : (i 2).val < 1 := (i 2).isLt
  have hlt : 2 * (i 0).val + 1 < cfg0.N := lt_of_lt_of_eq (by omega : 2 * (i 0).val + 1 < 64) N_0.symm
  refine ⟨⟨2 * (i 0).val + 1, hlt⟩, (flush0_4 _).2 (by show (2 * (i 0).val + 1) % 2 = 1; omega), ?_⟩
  have hi : ((cfg0.win 4).blk ⟨2 * (i 0).val + 1, hlt⟩).view.emb (ix3 0 0 0) = i := by
    rw [emb0_4]
    funext a; apply Fin.ext
    match a with
    | ⟨0, _⟩ => show (2 * (i 0).val + 1) / 2 = (i 0).val; omega
    | ⟨1, _⟩ => show 0 = (i 1).val; omega
    | ⟨2, _⟩ => show 0 = (i 2).val; omega
  have hmem := ((cfg0.win 4).blk ⟨2 * (i 0).val + 1, hlt⟩).view.emb_mem_set (ix3 0 0 0)
  rw [hi] at hmem
  exact hmem

end Cert.KernelIdeal.Hand

end
-- ==== Proof.SpecP.lean ====
/-
  The kernel's per-tile quantities with the class means and their norms as PARAMETERS (the second call receives
  them as operands), and the first call's 64 per-tile statistics as one function of the statistic's number.
-/
import proofs.«142478_j79491254714952_2_alg».proof.Proof.Spec

noncomputable section

namespace Cert.Spec

open Idealize.ShloMosaic

/-- The cosine of a pixel's feature vector with a given vector M of norm N (denominator clamped below by ε₈). -/
def cosP (X : Arr4) (M : Fin 16 → EReal) (N : EReal) (b : Fin 32) (r q : Fin 256) : EReal :=
  Ideal.div (∑ c : Fin 16, feat X b c r q * M c) (max (nfeat X b r q * N) e8)

/-- exp of the signed difference of the two cosines, the sign 2·μ₀ − 1. -/
def pcP (X : Arr4) (g : Lab) (M0 M1 : Fin 16 → EReal) (N0 N1 : EReal) (b : Fin 32) (r q : Fin 256) : EReal :=
  Ideal.exp ((Ideal.ofBits .f32 0x40000000#32 * ind 0 g b r q - Ideal.ofBits .f32 0x3F800000#32)
    * (cosP X M0 N0 b r q - cosP X M1 N1 b r q))

/-- One tile's sum of squared differences, the eight operands given. -/
def partP (S T : Arr4) (g : Lab) (Ms0 Ms1 Mt0 Mt1 : Fin 16 → EReal) (Ns0 Ns1 Nt0 Nt1 : EReal)
    (b : Fin 32) (h : Fin 2) : EReal :=
  ∑ r' : Fin 128, ∑ q : Fin 256,
    (pcP S g Ms0 Ms1 Ns0 Ns1 b (row h r') q - pcP T g Mt0 Mt1 Nt0 Nt1 b (row h r') q)
      * (pcP S g Ms0 Ms1 Ns0 Ns1 b (row h r') q - pcP T g Mt0 Mt1 Nt0 Nt1 b (row h r') q)

/-- At the kernel's own means and norms these are the kernel's quantities. -/
theorem partP_eq (S T : Arr4) (g : Lab) (b : Fin 32) (h : Fin 2) :
    partP S T g (mean0K S g b) (mean1K S g b) (mean0K T g b) (mean1K T g b)
      (norm0K S g b) (norm1K S g b) (norm0K T g b) (norm1K T g b) b h = partK S T g b h := rfl

/-- The first call's statistic number k of tile h: the class-0 masked sums of S (k < 16), the unmasked sums of S
    (16 ≤ k < 32), the same two for T (32 ≤ k < 48, 48 ≤ k). -/
def tileStat (S T : Arr4) (g : Lab) (b : Fin 32) (h : Fin 2) (k : Fin 64) : EReal :=
  if hk : k.val < 16 then tileSum0 S g b ⟨k.val, hk⟩ h
  else if hk2 : k.val < 32 then tileTot S b ⟨k.val - 16, by omega⟩ h
  else if hk3 : k.val < 48 then tileSum0 T g b ⟨k.val - 32, by omega⟩ h
  else tileTot T b ⟨k.val - 48, by omega⟩ h

end Cert.Spec

end
-- ==== Proof.KPayLib.lean ====
/-
  Layout operations and single-axis sums read at an index given by coordinates, for the shapes the two
  kernels of this program use: a block's unit leading axis broadcast over channels, the per-channel and
  scalar blocks broadcast over a tile, the keepdims reshapes that follow each sum, and a sum over one
  axis of a rank-2 or rank-3 tile as a sum over that axis's coordinate.
-/
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KPay

open Idealize.ShloMosaic ValueIdx

variable {α : Type}

/-! ## Broadcasts -/

/-- A `[1, b, c]` array broadcast to `[a, b, c]` reads, at `(p, i, j)`, the operand at `(0, i, j)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-- An `[a, 1, 1]` array broadcast to `[a, b, c]` reads, at `(p, i, j)`, the operand at `(p, 0, 0)`. -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (i : Fin b) (j : Fin c) :
    broadcastTo ⟨3, ![a, b, c]⟩ v h (ix3 p i j) = v (ix3 p (0 : Fin 1) (0 : Fin 1)) := by
  refine broadcastTo_apply v h (ix3 p i j) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-- A `[1, 1, 1]` array broadcast to `[a, b, c]` reads its one entry everywhere. -/
theorem broadcastTo_111_abc_apply {a b c : ℕ} (v : (⟨3, ![1, 1, 1]⟩ : Shape).Idx → α)
    (h : (⟨3, ![1, 1, 1]⟩ : Shape).Broadcasts ⟨3, ![a, b, c]⟩) (p : Fin a) (i : Fin b) (j : Fin c) :
    broadcastTo ⟨3, ![a, b, c]⟩ v h (ix3 p i j) = v (ix3 (0 : Fin 1) (0 : Fin 1) (0 : Fin 1)) := by
  refine broadcastTo_apply v h (ix3 p i j) (ix3 (0 : Fin 1) (0 : Fin 1) (0 : Fin 1)) fun ax => ?_
  match ax with
  | ⟨0, _⟩ => rfl
  | ⟨1, _⟩ => rfl
  | ⟨2, _⟩ => rfl

/-! ## Reshapes that add a trailing unit axis, or move the one long axis -/

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1, 1]` array cast to `[1, 1, a]` reads, at `(u, v, k)`, the operand at `(k, 0, 0)`. -/
theorem shapeCast_a11_11a_apply {a : ℕ} (x : (⟨3, ![a, 1, 1]⟩ : Shape).Idx → α)
    (h : (⟨3, ![a, 1, 1]⟩ : Shape).ShapeCasts ⟨3, ![1, 1, a]⟩) (u v : Fin 1) (k : Fin a) :
    shapeCast ⟨3, ![1, 1, a]⟩ x h (ix3 u v k) = x (ix3 k (0 : Fin 1) (0 : Fin 1)) :=
  shapeCast_apply x h _ _ (by
    have hu : u.val = 0 := by omega
    have hv : v.val = 0 := by omega
    rw [Shape.rowMajor_val_three, Shape.rowMajor_val_three]
    show (k.val * 1 + 0) * 1 + 0 = (u.val * 1 + v.val) * a + k.val
    rw [hu, hv]; simp)

/-! ## A sum over one axis as a sum over that axis's coordinate -/

section Sums
variable {φ : FTy}

/-- The sum over axis 0 of an `[a, b, c]` tile, at `(i, j)`. -/
theorem sum3_axis0_apply {a b c : ℕ} (src : FVec Ideal ⟨3, ![a, b, c]⟩ φ) (acc : BitVec φ.bits)
    (h : (⟨3, ![a, b, c]⟩ : Shape).Reduces [0] ⟨2, ![b, c]⟩) (hφ : FKind.Formats φ)
    (hacc : acc = FKind.add.neutral φ hφ) (i : Fin b) (j : Fin c) :
    multiReduction .add [0] ⟨2, ![b, c]⟩ src acc h hφ hacc (ix2 i j) = ∑ k : Fin a, src (ix3 k i j) := by
  refine (Ideal.multiReduction_add_single src acc h hφ hacc (ix2 i j)).trans ?_
  refine Finset.sum_congr rfl fun k _ => congrArg src (funext fun d => Fin.ext ?_)
  match d with
  | ⟨0, _⟩ => rfl
  | ⟨1, _⟩ => rfl
  | ⟨2, _⟩ => rfl

/-- The sum over axis 1 of an `[a, b, c]` tile, at `(i, j)`. -/
theorem sum3_axis1_apply {a b c : ℕ} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.add.neutral φ hφ) (i : Fin a) (j : Fin c) :
    multiReduction .add [1] ⟨2, ![a, c]⟩ src acc h hφ hacc (ix2 i j) = ∑ k : Fin b, src (ix3 i k j) := by
  refine (Ideal.multiReduction_add_single src acc h hφ hacc (ix2 i j)).trans ?_
  refine Finset.sum_congr rfl fun k _ => congrArg src (funext fun d => Fin.ext ?_)
  match d with
  | ⟨0, _⟩ => rfl
  | ⟨1, _⟩ => rfl
  | ⟨2, _⟩ => rfl

/-- The sum over axis 2 of an `[a, b, c]` tile, at `(i, j)`. -/
theorem sum3_axis2_apply {a b c : ℕ} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  refine Finset.sum_congr rfl fun k _ => congrArg src (funext fun d => Fin.ext ?_)
  match d with
  | ⟨0, _⟩ => rfl
  | ⟨1, _⟩ => rfl
  | ⟨2, _⟩ => rfl

/-- The sum over axis 1 of an `[a, b]` tile, at `i`. -/
theorem sum2_axis1_apply {a b : ℕ} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun d => Fin.ext ?_)
  match d with
  | ⟨0, _⟩ => rfl
  | ⟨1, _⟩ => rfl

/-- The sum over axis 0 of an `[a, b]` tile, at `j`. -/
theorem sum2_axis0_apply {a b : ℕ} (src : FVec Ideal ⟨2, ![a, b]⟩ φ) (acc : BitVec φ.bits)
    (h : (⟨2, ![a, b]⟩ : Shape).Reduces [0] ⟨1, ![b]⟩) (hφ : FKind.Formats φ)
    (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  refine Finset.sum_congr rfl fun k _ => congrArg src (funext fun d => Fin.ext ?_)
  match d with
  | ⟨0, _⟩ => rfl
  | ⟨1, _⟩ => rfl

end Sums

/-! ## The class-0 indicator word -/

/-- Compare a label with zero, widen the bit to a word, convert: one where the label is zero, else zero. -/
theorem ind_word (w : BitVec 32) :
    (FloatOps.sitofp (F := Ideal) .f32 ((IntOp.cmpi .eq w 0#32).setWidth 32) : EReal) = if w = 0#32 then 1 else 0 := by
  show (((((IntOp.cmpi .eq w 0#32).setWidth 32).toInt : ℝ)) : EReal) = _
  by_cases h : w = 0#32
  · subst h; simp [IntOp.cmpi]
  · rw [if_neg h]
    have hb : (w == 0#32) = false := by simpa using h
    simp [IntOp.cmpi, hb]

end Cert.KernelIdeal.KPay

end
-- ==== Proof.KPay0.lean ====
/-
  The first kernel's stored values as formulas. For one batch b and one row tile h, with the loaded
  blocks tied pointwise to the curried arrays: the normalised feature tile is feat, the label tile's
  class-0 indicator is ind 0, and one grid step adds to the 64-entry accumulator the four 16-entry
  channel sums of the tile (masked S, total S, masked T, total T — each a sum over columns, then over
  rows) and to the count accumulator the number of class-0 pixels of the tile.
-/
import proofs.«142478_j79491254714952_2_alg».proof.Proof.Gen.KernelIdeal.Skeleton
import proofs.«142478_j79491254714952_2_alg».proof.Proof.SpecP
import proofs.«142478_j79491254714952_2_alg».proof.Proof.KPayLib
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KPay

open Cert.KernelIdeal Cert.KernelIdeal.Gen Cert.Spec Idealize.ShloMosaic ValueIdx

/-! ## The indicator tile -/

/-- The indicator payload at a pixel, over the loaded label block. -/
theorem k0_pay5_raw (x2 : Vec Ideal S1x128x256 .i32) (r' : Fin 128) (q : Fin 256) :
    k0_pay5 (F := Ideal) x2 (ix3 0 r' q) = if x2 (ix3 0 r' q) = 0#32 then 1 else 0 := by
  unfold k0_pay5
  refine (shapeCast_ab_1ab_apply _ _ 0 r' q).trans ?_
  rw [sitofp_apply, extui_apply]
  show FloatOps.sitofp (F := Ideal) .f32 ((IntOp.cmpi .eq (shapeCast S128x256 x2 shapeCasts_S1x128x256_S128x256 (ix2 r' q)) 0#32).setWidth 32) = _
  rw [shapeCast_1ab_ab_apply]
  exact ind_word _

/-- The indicator payload is the class-0 indicator of the label array on the tile. -/
theorem k0_pay5_apply (g : Lab) (b : Fin 32) (h : Fin 2) (x2 : Vec Ideal S1x128x256 .i32)
    (hx2 : ∀ r' q, x2 (ix3 0 r' q) = g b (row h r') q) (r' : Fin 128) (q : Fin 256) :
    k0_pay5 (F := Ideal) x2 (ix3 0 r' q) = ind 0 g b (row h r') q := by
  rw [k0_pay5_raw, hx2]; rfl

/-! ## The normalised feature tile -/

/-- The feature payload at a pixel, over the loaded block. -/
theorem k0_pay3_raw (x0 : Vec Ideal S1x16x128x256 .f32) (c : Fin 16) (r' : Fin 128) (q : Fin 256) :
    k0_pay3 (F := Ideal) x0 (ix3 c r' q)
      = Ideal.div (x0 (ix4 0 c r' q))
          (max (Ideal.sqrt (∑ k : Fin 16, x0 (ix4 0 k r' q) * x0 (ix4 0 k r' q))) e12) := by
  have h4 : ∀ k : Fin 16, shapeCast S16x128x256 x0 shapeCasts_S1x16x128x256_S16x128x256 (ix3 k r' q) = x0 (ix4 0 k r' q) :=
    fun k => shapeCast_1abc_abc_apply _ _ k r' q
  unfold k0_pay3
  dsimp only
  refine (divf_apply _ _ _).trans ?_
  refine congrArg₂ Ideal.div (h4 c) ?_
  refine (broadcastTo_1bc_abc_apply _ _ c r' q).trans ?_
  refine (maximumf_apply _ _ _).trans ?_
  refine congrArg₂ max ?_ rfl
  show Ideal.sqrt (shapeCast S1x128x256 _ _ (ix3 0 r' q)) = _
  refine congrArg Ideal.sqrt ?_
  refine (shapeCast_ab_1ab_apply _ _ 0 r' q).trans ?_
  refine (sum3_axis0_apply _ _ _ _ _ r' q).trans ?_
  refine Finset.sum_congr rfl fun k _ => ?_
  refine (mulf_apply _ _ _).trans ?_
  rw [h4 k]

/-- The feature payload is the normalised feature of the array on the tile. -/
theorem k0_pay3_apply (X : Arr4) (b : Fin 32) (h : Fin 2) (x0 : Vec Ideal S1x16x128x256 .f32)
    (hx0 : ∀ c r' q, x0 (ix4 0 c r' q) = X b c (row h r') q) (c : Fin 16) (r' : Fin 128) (q : Fin 256) :
    k0_pay3 (F := Ideal) x0 (ix3 c r' q) = feat X b c (row h r') q := by
  rw [k0_pay3_raw]
  simp only [hx0]
  rfl

/-- The T-side feature payload is the same function of its block. -/
theorem k0_pay4_eq (x1 : Vec Ideal S1x16x128x256 .f32) : k0_pay4 (F := Ideal) x1 = k0_pay3 (F := Ideal) x1 := rfl

theorem k0_pay4_apply (Y : Arr4) (b : Fin 32) (h : Fin 2) (x1 : Vec Ideal S1x16x128x256 .f32)
    (hx1 : ∀ c r' q, x1 (ix4 0 c r' q) = Y b c (row h r') q) (c : Fin 16) (r' : Fin 128) (q : Fin 256) :
    k0_pay4 (F := Ideal) x1 (ix3 c r' q) = feat Y b c (row h r') q := by
  rw [k0_pay4_eq]; exact k0_pay3_apply Y b h x1 hx1 c r' q

/-! ## The zeros stored at the first tile -/

theorem k0_pay1_apply (i : S1x1x64.Idx) : k0_pay1 (F := Ideal) i = 0 := by
  unfold k0_pay1
  rw [shapeCast_self]
  exact Ideal.ofBits_zero_f32

theorem k0_pay2_apply (i : S1x1x1.Idx) : k0_pay2 (F := Ideal) i = 0 := by
  unfold k0_pay2
  rw [shapeCast_self]
  exact Ideal.ofBits_zero_f32

/-! ## The count accumulator -/

/-- One step of the count accumulator over any indicator tile: the old count plus the tile's sum, columns first. -/
theorem k0_pay8_raw (v29 : FVec Ideal S1x128x256 .f32) (cnt : Vec Ideal S1x1x1 .f32) :
    k0_pay8 (F := Ideal) v29 cnt (ix3 0 0 0)
      = cnt (ix3 0 0 0) + ∑ r' : Fin 128, ∑ q : Fin 256, v29 (ix3 0 r' q) := by
  unfold k0_pay8
  dsimp only
  rw [shapeCast_self]
  refine (addf_apply _ _ _).trans ?_
  refine congrArg (cnt (ix3 0 0 0) + ·) ?_
  refine (shapeCast_ab_1ab_apply _ _ 0 0 0).trans ?_
  refine (shapeCast_a_1a_apply _ _ 0 0).trans ?_
  refine (sum2_axis0_apply _ _ _ _ _ 0).trans ?_
  refine Finset.sum_congr rfl fun r' _ => ?_
  refine (shapeCast_a_a1_apply _ _ r' 0).trans ?_
  refine (sum2_axis1_apply _ _ _ _ _ r').trans ?_
  refine Finset.sum_congr rfl fun q _ => ?_
  exact shapeCast_1ab_ab_apply _ _ r' q

/-- One step of the count accumulator: the old count plus the tile's class-0 pixel count. -/
theorem k0_pay8_apply (g : Lab) (b : Fin 32) (h : Fin 2) (x2 : Vec Ideal S1x128x256 .i32)
    (hx2 : ∀ r' q, x2 (ix3 0 r' q) = g b (row h r') q) (cnt : Vec Ideal S1x1x1 .f32) :
    k0_pay8 (F := Ideal) (k0_pay5 x2) cnt (ix3 0 0 0) = cnt (ix3 0 0 0) + tileCnt0 g b h := by
  rw [k0_pay8_raw]
  refine congrArg (cnt (ix3 0 0 0) + ·) ?_
  unfold tileCnt0
  exact Finset.sum_congr rfl fun r' _ => Finset.sum_congr rfl fun q _ => k0_pay5_apply g b h x2 hx2 r' q

/-! ## The statistics accumulator -/

/-- Sum over columns, then over rows, of a [16, 128, 256] tile, the reduced axes kept as unit axes. -/
def chanSum (w : FVec Ideal S16x128x256 .f32) : FVec Ideal S16x1x1 .f32 :=
  shapeCast S16x1x1 (multiReduction .add [1] S16x1 (shapeCast S16x128x1
    (multiReduction .add [2] S16x128 w 0x00000000#32 reduces_S16x128x256_S16x128 (.inl rfl) rfl)
    shapeCasts_S16x128_S16x128x1) 0x00000000#32 reduces_S16x128x1_S16x1 (.inl rfl) rfl) shapeCasts_S16x1_S16x1x1

/-- It is the double sum, rows outside, columns inside. -/
theorem chanSum_apply (w : FVec Ideal S16x128x256 .f32) (c : Fin 16) :
    chanSum w (ix3 c 0 0) = ∑ r' : Fin 128, ∑ q : Fin 256, w (ix3 c r' q) := by
  unfold chanSum
  refine (shapeCast_ab_ab1_apply _ _ c 0 0).trans ?_
  refine (sum3_axis1_apply _ _ _ _ _ c 0).trans ?_
  refine Finset.sum_congr rfl fun r' _ => ?_
  refine (shapeCast_ab_ab1_apply _ _ c r' 0).trans ?_
  exact sum3_axis2_apply _ _ _ _ _ c r'

/-- The channel sum of a tile masked by a [1, 128, 256] tile laid over the channels. -/
theorem chanSum_masked_apply (v29 : FVec Ideal S1x128x256 .f32) (w : FVec Ideal S16x128x256 .f32) (c : Fin 16) :
    chanSum (mulf (broadcastTo S16x128x256 v29 broadcasts_S1x128x256_S16x128x256) w) (ix3 c 0 0)
      = ∑ r' : Fin 128, ∑ q : Fin 256, v29 (ix3 0 r' q) * w (ix3 c r' q) := by
  rw [chanSum_apply]
  refine Finset.sum_congr rfl fun r' _ => Finset.sum_congr rfl fun q _ => ?_
  refine (mulf_apply _ _ _).trans ?_
  rw [broadcastTo_1bc_abc_apply]

theorem concat4_apply_0 (p0 p1 p2 p3 : FVec Ideal S16x1x1 .f32) (k : Fin 64) (c : Fin 16) (hk : k.val = 0 + c.val) :
    concatenate S64x1x1 0 [⟨S16x1x1, p0⟩, ⟨S16x1x1, p1⟩, ⟨S16x1x1, p2⟩, ⟨S16x1x1, p3⟩]
      concatenates_S16x1x1_S16x1x1_S16x1x1_S16x1x1_S64x1x1_d0 (ix3 k 0 0) = p0 (ix3 c 0 0) :=
  concatenate_apply_piece (0 : Fin S64x1x1.rank) _ _ (ix3 k 0 0) 0 (by show (0 : Nat) < 4; omega) S16x1x1 p0 rfl rfl 0 (by rfl) (ix3 c 0 0)
    (fun b hb => by
      match b with
      | ⟨0, _⟩ => exact absurd (Fin.ext rfl) hb
      | ⟨1, _⟩ => rfl
      | ⟨2, _⟩ => rfl)
    (by show 0 + c.val = k.val; omega)

theorem concat4_apply_1 (p0 p1 p2 p3 : FVec Ideal S16x1x1 .f32) (k : Fin 64) (c : Fin 16) (hk : k.val = 16 + c.val) :
    concatenate S64x1x1 0 [⟨S16x1x1, p0⟩, ⟨S16x1x1, p1⟩, ⟨S16x1x1, p2⟩, ⟨S16x1x1, p3⟩]
      concatenates_S16x1x1_S16x1x1_S16x1x1_S16x1x1_S64x1x1_d0 (ix3 k 0 0) = p1 (ix3 c 0 0) :=
  concatenate_apply_piece (0 : Fin S64x1x1.rank) _ _ (ix3 k 0 0) 1 (by show (1 : Nat) < 4; omega) S16x1x1 p1 rfl rfl 16 (by rfl) (ix3 c 0 0)
    (fun b hb => by
      match b with
      | ⟨0, _⟩ => exact absurd (Fin.ext rfl) hb
      | ⟨1, _⟩ => rfl
      | ⟨2, _⟩ => rfl)
    (by show 16 + c.val = k.val; omega)

theorem concat4_apply_2 (p0 p1 p2 p3 : FVec Ideal S16x1x1 .f32) (k : Fin 64) (c : Fin 16) (hk : k.val = 32 + c.val) :
    concatenate S64x1x1 0 [⟨S16x1x1, p0⟩, ⟨S16x1x1, p1⟩, ⟨S16x1x1, p2⟩, ⟨S16x1x1, p3⟩]
      concatenates_S16x1x1_S16x1x1_S16x1x1_S16x1x1_S64x1x1_d0 (ix3 k 0 0) = p2 (ix3 c 0 0) :=
  concatenate_apply_piece (0 : Fin S64x1x1.rank) _ _ (ix3 k 0 0) 2 (by show (2 : Nat) < 4; omega) S16x1x1 p2 rfl rfl 32 (by rfl) (ix3 c 0 0)
    (fun b hb => by
      match b with
      | ⟨0, _⟩ => exact absurd (Fin.ext rfl) hb
      | ⟨1, _⟩ => rfl
      | ⟨2, _⟩ => rfl)
    (by show 32 + c.val = k.val; omega)

theorem concat4_apply_3 (p0 p1 p2 p3 : FVec Ideal S16x1x1 .f32) (k : Fin 64) (c : Fin 16) (hk : k.val = 48 + c.val) :
    concatenate S64x1x1 0 [⟨S16x1x1, p0⟩, ⟨S16x1x1, p1⟩, ⟨S16x1x1, p2⟩, ⟨S16x1x1, p3⟩]
      concatenates_S16x1x1_S16x1x1_S16x1x1_S16x1x1_S64x1x1_d0 (ix3 k 0 0) = p3 (ix3 c 0 0) :=
  concatenate_apply_piece (0 : Fin S64x1x1.rank) _ _ (ix3 k 0 0) 3 (by show (3 : Nat) < 4; omega) S16x1x1 p3 rfl rfl 48 (by rfl) (ix3 c 0 0)
    (fun b hb => by
      match b with
      | ⟨0, _⟩ => exact absurd (Fin.ext rfl) hb
      | ⟨1, _⟩ => rfl
      | ⟨2, _⟩ => rfl)
    (by show 48 + c.val = k.val; omega)

/-- One step of the statistics accumulator, over any tiles: the old entry plus the entry of the four channel
    sums laid end to end. -/
theorem k0_pay7_raw (v16 v24 : FVec Ideal S16x128x256 .f32) (v29 : FVec Ideal S1x128x256 .f32)
    (v35 : FVec Ideal S16x1x1 .f32) (acc : Vec Ideal S1x1x64 .f32) (k : Fin 64) :
    k0_pay7 (F := Ideal) v16 v24 v29 v35 acc (ix3 0 0 k)
      = acc (ix3 0 0 k) + concatenate S64x1x1 0 [⟨S16x1x1, v35⟩, ⟨S16x1x1, chanSum v16⟩,
          ⟨S16x1x1, chanSum (mulf (broadcastTo S16x128x256 v29 broadcasts_S1x128x256_S16x128x256) v24)⟩,
          ⟨S16x1x1, chanSum v24⟩] concatenates_S16x1x1_S16x1x1_S16x1x1_S16x1x1_S64x1x1_d0 (ix3 k 0 0) := by
  unfold k0_pay7
  dsimp only
  rw [shapeCast_self]
  refine (addf_apply _ _ _).trans ?_
  refine congrArg (acc (ix3 0 0 k) + ·) ?_
  exact shapeCast_a11_11a_apply _ _ 0 0 k

/-- The masked S channel sum the first half of the body hands on. -/
theorem k0_pay6_eq (x0 : Vec Ideal S1x16x128x256 .f32) (x2 : Vec Ideal S1x128x256 .i32) :
    k0_pay6 (F := Ideal) x0 x2
      = chanSum (mulf (broadcastTo S16x128x256 (k0_pay5 x2) broadcasts_S1x128x256_S16x128x256) (k0_pay3 x0)) := rfl

section Step
variable (X Y : Arr4) (g : Lab) (b : Fin 32) (h : Fin 2)
  (x0 : Vec Ideal S1x16x128x256 .f32) (hx0 : ∀ c r' q, x0 (ix4 0 c r' q) = X b c (row h r') q)
  (x1 : Vec Ideal S1x16x128x256 .f32) (hx1 : ∀ c r' q, x1 (ix4 0 c r' q) = Y b c (row h r') q)
  (x2 : Vec Ideal S1x128x256 .i32) (hx2 : ∀ r' q, x2 (ix3 0 r' q) = g b (row h r') q)
include hx0 hx2 in
theorem masked_S (c : Fin 16) : k0_pay6 (F := Ideal) x0 x2 (ix3 c 0 0) = tileSum0 X g b c h := by
  rw [k0_pay6_eq, chanSum_masked_apply]
  unfold tileSum0
  refine Finset.sum_congr rfl fun r' _ => Finset.sum_congr rfl fun q _ => ?_
  rw [k0_pay5_apply g b h x2 hx2, k0_pay3_apply X b h x0 hx0]

include hx0 in
theorem total_S (c : Fin 16) : chanSum (k0_pay3 (F := Ideal) x0) (ix3 c 0 0) = tileTot X b c h := by
  rw [chanSum_apply]
  unfold tileTot
  exact Finset.sum_congr rfl fun r' _ => Finset.sum_congr rfl fun q _ => k0_pay3_apply X b h x0 hx0 c r' q

include hx1 hx2 in
theorem masked_T (c : Fin 16) :
    chanSum (mulf (broadcastTo S16x128x256 (k0_pay5 (F := Ideal) x2) broadcasts_S1x128x256_S16x128x256) (k0_pay4 x1)) (ix3 c 0 0)
      = tileSum0 Y g b c h := by
  rw [chanSum_masked_apply]
  unfold tileSum0
  refine Finset.sum_congr rfl fun r' _ => Finset.sum_congr rfl fun q _ => ?_
  rw [k0_pay5_apply g b h x2 hx2, k0_pay4_apply Y b h x1 hx1]

include hx1 in
theorem total_T (c : Fin 16) : chanSum (k0_pay4 (F := Ideal) x1) (ix3 c 0 0) = tileTot Y b c h := by
  rw [chanSum_apply]
  unfold tileTot
  exact Finset.sum_congr rfl fun r' _ => Finset.sum_congr rfl fun q _ => k0_pay4_apply Y b h x1 hx1 c r' q

include hx0 hx1 hx2 in
/-- One step of the statistics accumulator: entry k gains statistic k of the tile. -/
theorem k0_pay7_apply (acc : Vec Ideal S1x1x64 .f32) (k : Fin 64) :
    k0_pay7 (F := Ideal) (k0_pay3 x0) (k0_pay4 x1) (k0_pay5 x2) (k0_pay6 x0 x2) acc (ix3 0 0 k)
      = acc (ix3 0 0 k) + tileStat X Y g b h k := by
  rw [k0_pay7_raw]
  refine congrArg (acc (ix3 0 0 k) + ·) ?_
  unfold tileStat
  by_cases h1 : k.val < 16
  · rw [dif_pos h1]
    exact (concat4_apply_0 _ _ _ _ k ⟨k.val, h1⟩ (by simp)).trans (masked_S X g b h x0 hx0 x2 hx2 _)
  · rw [dif_neg h1]
    by_cases h2 : k.val < 32
    · rw [dif_pos h2]
      exact (concat4_apply_1 _ _ _ _ k ⟨k.val - 16, by omega⟩ (by simp; omega)).trans (total_S X b h x0 hx0 _)
    · rw [dif_neg h2]
      by_cases h3 : k.val < 48
      · rw [dif_pos h3]
        exact (concat4_apply_2 _ _ _ _ k ⟨k.val - 32, by omega⟩ (by simp; omega)).trans (masked_T Y g b h x1 hx1 x2 hx2 _)
      · rw [dif_neg h3]
        exact (concat4_apply_3 _ _ _ _ k ⟨k.val - 48, by omega⟩ (by have := k.isLt; simp; omega)).trans (total_T Y b h x1 hx1 _)
end Step

end Cert.KernelIdeal.KPay

end
-- ==== Proof.SpecIdx.lean ====
/-
  The argument arrays read at curried coordinates: an array of shape [32, 16, 256, 256] as a function of
  (batch, channel, row, column), the label array of shape [32, 256, 256] as a function of (batch, row, column).
-/
import proofs.«142478_j79491254714952_2_alg».proof.Proof.Spec
import Idealize.ShloMosaic.Lib.ValueIdx

noncomputable section

namespace Cert.Spec

open Idealize.ShloMosaic

abbrev Sh4 : Shape := ⟨4, ![32, 16, 256, 256]⟩
abbrev Sh3 : Shape := ⟨3, ![32, 256, 256]⟩

/-- A float array of shape [32, 16, 256, 256] at (b, c, r, q). -/
def arr4 (A : Sh4.Idx → EReal) : Arr4 := fun b c r q => A (ValueIdx.ix4 b c r q)

/-- The label array of shape [32, 256, 256] at (b, r, q). -/
def lab (G : Sh3.Idx → BitVec 32) : Lab := fun b r q => G (ValueIdx.ix3 b r q)

end Cert.Spec

end
-- ==== Proof.KI.Val0.lean ====
/- The first call's two result arrays after its run, index by index. Entry k of batch b of the statistics
   array is statistic k of the batch element's first row tile added to zero, then statistic k of its second
   row tile added to that; the count array's entry of batch b is the two tiles' class-0 pixel counts added
   to zero in the same order. Only the odd grid points write a block back, and the block written at point
   2b + 1 is all of batch b's entries, so the blocks written back cover both arrays. -/
import proofs.«142478_j79491254714952_2_alg».proof.Proof.KI.Region0Closed
import proofs.«142478_j79491254714952_2_alg».proof.Proof.KI.Blocks0
import proofs.«142478_j79491254714952_2_alg».proof.Proof.KPay0
import proofs.«142478_j79491254714952_2_alg».proof.Proof.SpecP
import proofs.«142478_j79491254714952_2_alg».proof.Proof.SpecIdx
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Cert.Spec ValueIdx

variable (V : (c : Dev nD) → (b : Ref sig .tc) → Buf (Elt Ideal) ((c : Thread nD τ).loc b))

/-- The statistics array after the first call: entry k of batch b is the two row tiles' statistic k added,
    in tile order, to zero. -/
def G3 (c : Dev nD) : S32x1x64.Idx → EReal := fun i =>
  (0 + tileStat (arr4 (V c main_arg0)) (arr4 (V c main_arg1)) (lab (V c main_arg2)) (i 0) 0 (i 2))
    + tileStat (arr4 (V c main_arg0)) (arr4 (V c main_arg1)) (lab (V c main_arg2)) (i 0) 1 (i 2)

/-- The count array after the first call: batch b's entry is the two row tiles' class-0 pixel counts added,
    in tile order, to zero. -/
def G4 (c : Dev nD) : S32x1x1.Idx → EReal := fun i =>
  (0 + tileCnt0 (lab (V c main_arg2)) (i 0) 0) + tileCnt0 (lab (V c main_arg2)) (i 0) 1

/-- An index of a [1, 1, 64] block is its last coordinate. -/
theorem idx_1x1x64 (y : S1x1x64.Idx) : y = ix3 0 0 (y 2) := by
  funext a
  match a with
  | ⟨0, _⟩ => exact Fin.ext (by have : (y 0).val < 1 := (y 0).isLt; show (y 0).val = 0; omega)
  | ⟨1, _⟩ => exact Fin.ext (by have : (y 1).val < 1 := (y 1).isLt; show (y 1).val = 0; omega)
  | ⟨2, _⟩ => rfl

/-- A [1, 1, 1] block has one index. -/
theorem idx_1x1x1 (y : S1x1x1.Idx) : y = ix3 0 0 0 := by
  funext a
  match a with
  | ⟨0, _⟩ => exact Fin.ext (by have : (y 0).val < 1 := (y 0).isLt; show (y 0).val = 0; omega)
  | ⟨1, _⟩ => exact Fin.ext (by have : (y 1).val < 1 := (y 1).isLt; show (y 1).val = 0; omega)
  | ⟨2, _⟩ => exact Fin.ext (by have : (y 2).val < 1 := (y 2).isLt; show (y 2).val = 0; omega)

section Point
variable (c : Dev nD) (t : Fin cfg0.N) (h1 : t.val % 2 = 1)
include h1

/-- An odd point is the second row tile of its batch element; the point before it is the first tile of the same
    batch element. -/
theorem ph0_odd : ph0 t = 1 := Fin.ext h1
theorem ph0_prev : ph0 (prev0 t) = 0 := Fin.ext (by show (t.val - 1) % 2 = 0; omega)
theorem pb0_prev : pb0 (prev0 t) = pb0 t := Fin.ext (by show (t.val - 1) / 2 = t.val / 2; omega)

/-- The three input blocks at an odd point are rows 128 … 255 of the batch element, -/
theorem hx0_odd (cc : Fin 16) (r' : Fin 128) (q : Fin 256) :
    iblk0 V c 0 t (ix4 0 cc r' q) = arr4 (V c main_arg0) (pb0 t) cc (row 1 r') q := by
  rw [blk0_0 V c t cc r' q, ph0_odd t h1]; rfl
theorem hx1_odd (cc : Fin 16) (r' : Fin 128) (q : Fin 256) :
    iblk0 V c 1 t (ix4 0 cc r' q) = arr4 (V c main_arg1) (pb0 t) cc (row 1 r') q := by
  rw [blk0_1 V c t cc r' q, ph0_odd t h1]; rfl
theorem hx2_odd (r' : Fin 128) (q : Fin 256) :
    iblk0 V c 2 t (ix3 0 r' q) = lab (V c main_arg2) (pb0 t) (row 1 r') q := by
  rw [blk0_2 V c t r' q, ph0_odd t h1]; rfl

/-- and at the point before it rows 0 … 127 of the same batch element. -/
theorem hx0_prev (cc : Fin 16) (r' : Fin 128) (q : Fin 256) :
    iblk0 V c 0 (prev0 t) (ix4 0 cc r' q) = arr4 (V c main_arg0) (pb0 t) cc (row 0 r') q := by
  rw [blk0_0 V c (prev0 t) cc r' q, ph0_prev t h1, pb0_prev t h1]; rfl
theorem hx1_prev (cc : Fin 16) (r' : Fin 128) (q : Fin 256) :
    iblk0 V c 1 (prev0 t) (ix4 0 cc r' q) = arr4 (V c main_arg1) (pb0 t) cc (row 0 r') q := by
  rw [blk0_1 V c (prev0 t) cc r' q, ph0_prev t h1, pb0_prev t h1]; rfl
theorem hx2_prev (r' : Fin 128) (q : Fin 256) :
    iblk0 V c 2 (prev0 t) (ix3 0 r' q) = lab (V c main_arg2) (pb0 t) (row 0 r') q := by
  rw [blk0_2 V c (prev0 t) r' q, ph0_prev t h1, pb0_prev t h1]; rfl

/-- What an odd point writes back into the statistics array is its block of `G3`. -/
theorem flushed3_eq :
    (dat0 V c).flushed 3 t = ((cfg0.win 3).blk t).view.read (Elt Ideal) (G3 V c) := by
  show (cfg0.win 3).cut (grid0.coords t) ((dat0 V c).after 3 t) = _
  rw [after0_3_odd_at V c t (prev0 t) h1 (by show t.val - 1 + 1 = t.val; omega)]
  funext y
  obtain ⟨k, rfl⟩ : ∃ k : Fin 64, y = ix3 0 0 k := ⟨y 2, idx_1x1x64 y⟩
  rw [View.read_apply, emb0_3]
  show k0_pay7 (F := Ideal) (k0_pay3 (iblk0 V c 0 t)) (k0_pay4 (iblk0 V c 1 t)) (k0_pay5 (iblk0 V c 2 t)) (k0_pay6 (iblk0 V c 0 t) (iblk0 V c 2 t))
      (k0_pay7 (k0_pay3 (iblk0 V c 0 (prev0 t))) (k0_pay4 (iblk0 V c 1 (prev0 t))) (k0_pay5 (iblk0 V c 2 (prev0 t))) (k0_pay6 (iblk0 V c 0 (prev0 t)) (iblk0 V c 2 (prev0 t))) (k0_pay1 (F := Ideal)))
      (ix3 0 0 k)
    = (0 + tileStat (arr4 (V c main_arg0)) (arr4 (V c main_arg1)) (lab (V c main_arg2)) (pb0 t) 0 k) + tileStat (arr4 (V c main_arg0)) (arr4 (V c main_arg1)) (lab (V c main_arg2)) (pb0 t) 1 k
  refine (KPay.k0_pay7_apply (arr4 (V c main_arg0)) (arr4 (V c main_arg1)) (lab (V c main_arg2)) (pb0 t) 1
    (iblk0 V c 0 t) (hx0_odd V c t h1) (iblk0 V c 1 t) (hx1_odd V c t h1) (iblk0 V c 2 t) (hx2_odd V c t h1) _ k).trans ?_
  refine congrArg (· + tileStat (arr4 (V c main_arg0)) (arr4 (V c main_arg1)) (lab (V c main_arg2)) (pb0 t) 1 k) ?_
  refine (KPay.k0_pay7_apply (arr4 (V c main_arg0)) (arr4 (V c main_arg1)) (lab (V c main_arg2)) (pb0 t) 0
    (iblk0 V c 0 (prev0 t)) (hx0_prev V c t h1) (iblk0 V c 1 (prev0 t)) (hx1_prev V c t h1) (iblk0 V c 2 (prev0 t)) (hx2_prev V c t h1) (k0_pay1 (F := Ideal)) k).trans ?_
  exact congrArg (· + tileStat (arr4 (V c main_arg0)) (arr4 (V c main_arg1)) (lab (V c main_arg2)) (pb0 t) 0 k) (KPay.k0_pay1_apply (ix3 0 0 k))

/-- What an odd point writes back into the count array is its block of `G4`. -/
theorem flushed4_eq :
    (dat0 V c).flushed 4 t = ((cfg0.win 4).blk t).view.read (Elt Ideal) (G4 V c) := by
  show (cfg0.win 4).cut (grid0.coords t) ((dat0 V c).after 4 t) = _
  rw [after0_4_odd_at V c t (prev0 t) h1 (by show t.val - 1 + 1 = t.val; omega)]
  funext y
  obtain rfl : y = ix3 0 0 0 := idx_1x1x1 y
  rw [View.read_apply, emb0_4]
  show k0_pay8 (F := Ideal) (k0_pay5 (iblk0 V c 2 t)) (k0_pay8 (k0_pay5 (iblk0 V c 2 (prev0 t))) (k0_pay2 (F := Ideal))) (ix3 0 0 0)
    = (0 + tileCnt0 (lab (V c main_arg2)) (pb0 t) 0) + tileCnt0 (lab (V c main_arg2)) (pb0 t) 1
  refine (KPay.k0_pay8_apply (lab (V c main_arg2)) (pb0 t) 1 (iblk0 V c 2 t) (hx2_odd V c t h1) _).trans ?_
  refine congrArg (· + tileCnt0 (lab (V c main_arg2)) (pb0 t) 1) ?_
  refine (KPay.k0_pay8_apply (lab (V c main_arg2)) (pb0 t) 0 (iblk0 V c 2 (prev0 t)) (hx2_prev V c t h1) (k0_pay2 (F := Ideal))).trans ?_
  exact congrArg (· + tileCnt0 (lab (V c main_arg2)) (pb0 t) 0) (KPay.k0_pay2_apply (ix3 0 0 0))

end Point

/-- The statistics array after the first call's run. -/
theorem final3 (c : Dev nD) : (dat0 V c).arrAt 3 cfg0.N = G3 V c :=
  (dat0 V c).arrAt_eq_of_cover 3 (G3 V c) (fun t hf => flushed3_eq V c t ((flush0_3 t).1 hf)) cover0_3_arr

/-- The count array after the first call's run. -/
theorem final4 (c : Dev nD) : (dat0 V c).arrAt 4 cfg0.N = G4 V c :=
  (dat0 V c).arrAt_eq_of_cover 4 (G4 V c) (fun t hf => flushed4_eq V c t ((flush0_4 t).1 hf)) cover0_4_arr

end Cert.KernelIdeal.Hand

end
-- ==== Proof.KI.Blocks1.lean ====
/-
  The second call's blocks as pieces of its arrays. Grid point t = 2·b + h is batch b, row tile h. The two float
  windows' block at t is rows 128h … 128h+127 of batch b (all 16 channels, all 256 columns); the label window's block
  the same rows of batch b; each class-mean window's block the 16 entries of batch b; each norm window's block the one
  entry of batch b; the output window's block the one entry (b, h). Each index map is decided once over the 64 points.
-/
import proofs.«142478_j79491254714952_2_alg».proof.Proof.KI.Region1
import proofs.«142478_j79491254714952_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open ValueIdx Cert.Spec

variable {F : FTy → Type} [FloatOps F]
variable (V : (c : Dev nD) → (b : Ref sig .tc) → Buf (Elt F) ((c : Thread nD τ).loc b))

/-- The batch and the row tile of a grid point. -/
def pb1 (t : Fin cfg1.N) : Fin 32 := ⟨t.val / 2, by have := t.isLt; have : cfg1.N = 64 := N_1; omega⟩
def ph1 (t : Fin cfg1.N) : Fin 2 := ⟨t.val % 2, by omega⟩

theorem idx1 : ∀ t : Fin cfg1.N,
    (win1_0.index t (0 : Fin 4) = t.val / 2 ∧ win1_0.index t (1 : Fin 4) = 0 ∧ win1_0.index t (2 : Fin 4) = t.val % 2 ∧ win1_0.index t (3 : Fin 4) = 0)
    ∧ (win1_1.index t (0 : Fin 4) = t.val / 2 ∧ win1_1.index t (1 : Fin 4) = 0 ∧ win1_1.index t (2 : Fin 4) = t.val % 2 ∧ win1_1.index t (3 : Fin 4) = 0)
    ∧ (win1_2.index t (0 : Fin 3) = t.val / 2 ∧ win1_2.index t (1 : Fin 3) = t.val % 2 ∧ win1_2.index t (2 : Fin 3) = 0)
    ∧ (win1_3.index t (0 : Fin 4) = t.val / 2 ∧ win1_3.index t (1 : Fin 4) = 0 ∧ win1_3.index t (2 : Fin 4) = 0 ∧ win1_3.index t (3 : Fin 4) = 0)
    ∧ (win1_4.index t (0 : Fin 4) = t.val / 2 ∧ win1_4.index t (1 : Fin 4) = 0 ∧ win1_4.index t (2 : Fin 4) = 0 ∧ win1_4.index t (3 : Fin 4) = 0)
    ∧ (win1_5.index t (0 : Fin 4) = t.val / 2 ∧ win1_5.index t (1 : Fin 4) = 0 ∧ win1_5.index t (2 : Fin 4) = 0 ∧ win1_5.index t (3 : Fin 4) = 0)
    ∧ (win1_6.index t (0 : Fin 4) = t.val / 2 ∧ win1_6.index t (1 : Fin 4) = 0 ∧ win1_6.index t (2 : Fin 4) = 0 ∧ win1_6.index t (3 : Fin 4) = 0)
    ∧ (win1_7.index t (0 : Fin 3) = t.val / 2 ∧ win1_7.index t (1 : Fin 3) = 0 ∧ win1_7.index t (2 : Fin 3) = 0)
    ∧ (win1_8.index t (0 : Fin 3) = t.val / 2 ∧ win1_8.index t (1 : Fin 3) = 0 ∧ win1_8.index t (2 : Fin 3) = 0)
    ∧ (win1_9.index t (0 : Fin 3) = t.val / 2 ∧ win1_9.index t (1 : Fin 3) = 0 ∧ win1_9.index t (2 : Fin 3) = 0)
    ∧ (win1_10.index t (0 : Fin 3) = t.val / 2 ∧ win1_10.index t (1 : Fin 3) = 0 ∧ win1_10.index t (2 : Fin 3) = 0)
    ∧ (win1_11.index t (0 : Fin 4) = t.val / 2 ∧ win1_11.index t (1 : Fin 4) = t.val % 2 ∧ win1_11.index t (2 : Fin 4) = 0 ∧ win1_11.index t (3 : Fin 4) = 0) :=
  (by decide +kernel : ∀ t : Fin grid1.N, _)

/-- A float window's block (windows 0 and 1): channel cc, row r' of the tile, column q. -/
theorem blk1_0 (c : Dev nD) (t : Fin cfg1.N) (cc : Fin 16) (r' : Fin 128) (q : Fin 256) :
    iblk1 V c 0 t (ix4 0 cc r' q) = V c main_arg0 (ix4 (pb1 t) cc (row (ph1 t) r') q) := by
  unfold iblk1
  rw [View.read_apply]
  show V c main_arg0 (((cfg1.win 0).blk t).view.emb (ix4 0 cc r' q)) = _
  refine congrArg (V c main_arg0) (funext fun a => Fin.ext ?_)
  obtain ⟨⟨e0, e1, e2, e3⟩, -⟩ := idx1 t
  match a with
  | ⟨0, _⟩ => show win1_0.index t (0 : Fin 4) * 1 + 1 * 0 = t.val / 2; omega
  | ⟨1, _⟩ => show win1_0.index t (1 : Fin 4) * 16 + 1 * cc.val = cc.val; omega
  | ⟨2, _⟩ => show win1_0.index t (2 : Fin 4) * 128 + 1 * r'.val = 128 * (t.val % 2) + r'.val; omega
  | ⟨3, _⟩ => show win1_0.index t (3 : Fin 4) * 256 + 1 * q.val = q.val; omega

theorem blk1_1 (c : Dev nD) (t : Fin cfg1.N) (cc : Fin 16) (r' : Fin 128) (q : Fin 256) :
    iblk1 V c 1 t (ix4 0 cc r' q) = V c main_arg1 (ix4 (pb1 t) cc (row (ph1 t) r') q) := by
  unfold iblk1
  rw [View.read_apply]
  show V c main_arg1 (((cfg1.win 1).blk t).view.emb (ix4 0 cc r' q)) = _
  refine congrArg (V c main_arg1) (funext fun a => Fin.ext ?_)
  obtain ⟨-, ⟨e0, e1, e2, e3⟩, -⟩ := idx1 t
  match a with
  | ⟨0, _⟩ => show win1_1.index t (0 : Fin 4) * 1 + 1 * 0 = t.val / 2; omega
  | ⟨1, _⟩ => show win1_1.index t (1 : Fin 4) * 16 + 1 * cc.val = cc.val; omega
  | ⟨2, _⟩ => show win1_1.index t (2 : Fin 4) * 128 + 1 * r'.val = 128 * (t.val % 2) + r'.val; omega
  | ⟨3, _⟩ => show win1_1.index t (3 : Fin 4) * 256 + 1 * q.val = q.val; omega

/-- The label window's block. -/
theorem blk1_2 (c : Dev nD) (t : Fin cfg1.N) (r' : Fin 128) (q : Fin 256) :
    iblk1 V c 2 t (ix3 0 r' q) = V c main_arg2 (ix3 (pb1 t) (row (ph1 t) r') q) := by
  unfold iblk1
  rw [View.read_apply]
  show V c main_arg2 (((cfg1.win 2).blk t).view.emb (ix3 0 r' q)) = _
  refine congrArg (V c main_arg2) (funext fun a => Fin.ext ?_)
  obtain ⟨-, -, ⟨e0, e1, e2⟩, -⟩ := idx1 t
  match a with
  | ⟨0, _⟩ => show win1_2.index t (0 : Fin 3) * 1 + 1 * 0 = t.val / 2; omega
  | ⟨1, _⟩ => show win1_2.index t (1 : Fin 3) * 128 + 1 * r'.val = 128 * (t.val % 2) + r'.val; omega
  | ⟨2, _⟩ => show win1_2.index t (2 : Fin 3) * 256 + 1 * q.val = q.val; omega

/-- The four class-mean windows' blocks. -/
theorem blk1_3 (c : Dev nD) (t : Fin cfg1.N) (cc : Fin 16) :
    iblk1 V c 3 t (ix4 0 cc 0 0) = V c main_v41 (ix4 (pb1 t) cc 0 0) := by
  unfold iblk1
  rw [View.read_apply]
  show V c main_v41 (((cfg1.win 3).blk t).view.emb (ix4 0 cc 0 0)) = _
  refine congrArg (V c main_v41) (funext fun a => Fin.ext ?_)
  obtain ⟨-, -, -, ⟨e0, e1, e2, e3⟩, -⟩ := idx1 t
  match a with
  | ⟨0, _⟩ => show win1_3.index t (0 : Fin 4) * 1 + 1 * 0 = t.val / 2; omega
  | ⟨1, _⟩ => show win1_3.index t (1 : Fin 4) * 16 + 1 * cc.val = cc.val; omega
  | ⟨2, _⟩ => show win1_3.index t (2 : Fin 4) * 1 + 1 * 0 = 0; omega
  | ⟨3, _⟩ => show win1_3.index t (3 : Fin 4) * 1 + 1 * 0 = 0; omega

theorem blk1_4 (c : Dev nD) (t : Fin cfg1.N) (cc : Fin 16) :
    iblk1 V c 4 t (ix4 0 cc 0 0) = V c main_v42 (ix4 (pb1 t) cc 0 0) := by
  unfold iblk1
  rw [View.read_apply]
  show V c main_v42 (((cfg1.win 4).blk t).view.emb (ix4 0 cc 0 0)) = _
  refine congrArg (V c main_v42) (funext fun a => Fin.ext ?_)
  obtain ⟨-, -, -, -, ⟨e0, e1, e2, e3⟩, -⟩ := idx1 t
  match a with
  | ⟨0, _⟩ => show win1_4.index t (0 : Fin 4) * 1 + 1 * 0 = t.val / 2; omega
  | ⟨1, _⟩ => show win1_4.index t (1 : Fin 4) * 16 + 1 * cc.val = cc.val; omega
  | ⟨2, _⟩ => show win1_4.index t (2 : Fin 4) * 1 + 1 * 0 = 0; omega
  | ⟨3, _⟩ => show win1_4.index t (3 : Fin 4) * 1 + 1 * 0 = 0; omega

theorem blk1_5 (c : Dev nD) (t : Fin cfg1.N) (cc : Fin 16) :
    iblk1 V c 5 t (ix4 0 cc 0 0) = V c main_v43 (ix4 (pb1 t) cc 0 0) := by
  unfold iblk1
  rw [View.read_apply]
  show V c main_v43 (((cfg1.win 5).blk t).view.emb (ix4 0 cc 0 0)) = _
  refine congrArg (V c main_v43) (funext fun a => Fin.ext ?_)
  obtain ⟨-, -, -, -, -, ⟨e0, e1, e2, e3⟩, -⟩ := idx1 t
  match a with
  | ⟨0, _⟩ => show win1_5.index t (0 : Fin 4) * 1 + 1 * 0 = t.val / 2; omega
  | ⟨1, _⟩ => show win1_5.index t (1 : Fin 4) * 16 + 1 * cc.val = cc.val; omega
  | ⟨2, _⟩ => show win1_5.index t (2 : Fin 4) * 1 + 1 * 0 = 0; omega
  | ⟨3, _⟩ => show win1_5.index t (3 : Fin 4) * 1 + 1 * 0 = 0; omega

theorem blk1_6 (c : Dev nD) (t : Fin cfg1.N) (cc : Fin 16) :
    iblk1 V c 6 t (ix4 0 cc 0 0) = V c main_v44 (ix4 (pb1 t) cc 0 0) := by
  unfold iblk1
  rw [View.read_apply]
  show V c main_v44 (((cfg1.win 6).blk t).view.emb (ix4 0 cc 0 0)) = _
  refine congrArg (V c main_v44) (funext fun a => Fin.ext ?_)
  obtain ⟨-, -, -, -, -, -, ⟨e0, e1, e2, e3⟩, -⟩ := idx1 t
  match a with
  | ⟨0, _⟩ => show win1_6.index t (0 : Fin 4) * 1 + 1 * 0 = t.val / 2; omega
  | ⟨1, _⟩ => show win1_6.index t (1 : Fin 4) * 16 + 1 * cc.val = cc.val; omega
  | ⟨2, _⟩ => show win1_6.index t (2 : Fin 4) * 1 + 1 * 0 = 0; omega
  | ⟨3, _⟩ => show win1_6.index t (3 : Fin 4) * 1 + 1 * 0 = 0; omega

/-- The four norm windows' blocks. -/
theorem blk1_7 (c : Dev nD) (t : Fin cfg1.N) :
    iblk1 V c 7 t (ix3 0 0 0) = V c main_v28 (ix3 (pb1 t) 0 0) := by
  unfold iblk1
  rw [View.read_apply]
  show V c main_v28 (((cfg1.win 7).blk t).view.emb (ix3 0 0 0)) = _
  refine congrArg (V c main_v28) (funext fun a => Fin.ext ?_)
  obtain ⟨-, -, -, -, -, -, -, ⟨e0, e1, e2⟩, -⟩ := idx1 t
  match a with
  | ⟨0, _⟩ => show win1_7.index t (0 : Fin 3) * 1 + 1 * 0 = t.val / 2; omega
  | ⟨1, _⟩ => show win1_7.index t (1 : Fin 3) * 1 + 1 * 0 = 0; omega
  | ⟨2, _⟩ => show win1_7.index t (2 : Fin 3) * 1 + 1 * 0 = 0; omega

theorem blk1_8 (c : Dev nD) (t : Fin cfg1.N) :
    iblk1 V c 8 t (ix3 0 0 0) = V c main_v32 (ix3 (pb1 t) 0 0) := by
  unfold iblk1
  rw [View.read_apply]
  show V c main_v32 (((cfg1.win 8).blk t).view.emb (ix3 0 0 0)) = _
  refine congrArg (V c main_v32) (funext fun a => Fin.ext ?_)
  obtain ⟨-, -, -, -, -, -, -, -, ⟨e0, e1, e2⟩, -⟩ := idx1 t
  match a with
  | ⟨0, _⟩ => show win1_8.index t (0 : Fin 3) * 1 + 1 * 0 = t.val / 2; omega
  | ⟨1, _⟩ => show win1_8.index t (1 : Fin 3) * 1 + 1 * 0 = 0; omega
  | ⟨2, _⟩ => show win1_8.index t (2 : Fin 3) * 1 + 1 * 0 = 0; omega

theorem blk1_9 (c : Dev nD) (t : Fin cfg1.N) :
    iblk1 V c 9 t (ix3 0 0 0) = V c main_v36 (ix3 (pb1 t) 0 0) := by
  unfold iblk1
  rw [View.read_apply]
  show V c main_v36 (((cfg1.win 9).blk t).view.emb (ix3 0 0 0)) = _
  refine congrArg (V c main_v36) (funext fun a => Fin.ext ?_)
  obtain ⟨-, -, -, -, -, -, -, -, -, ⟨e0, e1, e2⟩, -⟩ := idx1 t
  match a with
  | ⟨0, _⟩ => show win1_9.index t (0 : Fin 3) * 1 + 1 * 0 = t.val / 2; omega
  | ⟨1, _⟩ => show win1_9.index t (1 : Fin 3) * 1 + 1 * 0 = 0; omega
  | ⟨2, _⟩ => show win1_9.index t (2 : Fin 3) * 1 + 1 * 0 = 0; omega

theorem blk1_10 (c : Dev nD) (t : Fin cfg1.N) :
    iblk1 V c 10 t (ix3 0 0 0) = V c main_v40 (ix3 (pb1 t) 0 0) := by
  unfold iblk1
  rw [View.read_apply]
  show V c main_v40 (((cfg1.win 10).blk t).view.emb (ix3 0 0 0)) = _
  refine congrArg (V c main_v40) (funext fun a => Fin.ext ?_)
  obtain ⟨-, -, -, -, -, -, -, -, -, -, ⟨e0, e1, e2⟩, -⟩ := idx1 t
  match a with
  | ⟨0, _⟩ => show win1_10.index t (0 : Fin 3) * 1 + 1 * 0 = t.val / 2; omega
  | ⟨1, _⟩ => show win1_10.index t (1 : Fin 3) * 1 + 1 * 0 = 0; omega
  | ⟨2, _⟩ => show win1_10.index t (2 : Fin 3) * 1 + 1 * 0 = 0; omega

/-- The output window's block at t is the one entry (b, h, 0, 0): where its element sits in the array. -/
theorem emb1_11 (t : Fin cfg1.N) (y : S1x1x1x1.Idx) :
    ((cfg1.win 11).blk t).view.emb y = (ix4 (pb1 t) (ph1 t) 0 0 : S32x2x1x1.Idx) := by
  funext a; apply Fin.ext
  obtain ⟨-, -, -, -, -, -, -, -, -, -, -, ⟨e0, e1, e2, e3⟩⟩ := idx1 t
  match a with
  | ⟨0, _⟩ => show win1_11.index t (0 : Fin 4) * 1 + 1 * (y 0).val = t.val / 2; have : (y 0).val < 1 := (y 0).isLt; omega
  | ⟨1, _⟩ => show win1_11.index t (1 : Fin 4) * 1 + 1 * (y 1).val = t.val % 2; have : (y 1).val < 1 := (y 1).isLt; omega
  | ⟨2, _⟩ => show win1_11.index t (2 : Fin 4) * 1 + 1 * (y 2).val = 0; have : (y 2).val < 1 := (y 2).isLt; omega
  | ⟨3, _⟩ => show win1_11.index t (3 : Fin 4) * 1 + 1 * (y 3).val = 0; have : (y 3).val < 1 := (y 3).isLt; omega

/-- Every entry of the output array is some point's block: entry (b, h, 0, 0) is point 2b + h's. -/
theorem cover1_11_arr (i : S32x2x1x1.Idx) :
    ∃ t : Fin cfg1.N, (cfg1.win 11).flush t = true ∧ i ∈ ((cfg1.win 11).blk t).view.set := by
  have hN : cfg1.N = 64 := N_1
  have h0 : (i 0).val < 32 := (i 0).isLt
  have h1 : (i 1).val < 2 := (i 1).isLt
  have h2 : (i 2).val < 1 := (i 2).isLt
  have h3 : (i 3).val < 1 := (i 3).isLt
  have hlt : 2 * (i 0).val + (i 1).val < cfg1.N := lt_of_lt_of_eq (by omega : 2 * (i 0).val + (i 1).val < 64) N_1.symm
  refine ⟨⟨2 * (i 0).val + (i 1).val, hlt⟩, flush1_11 _, ?_⟩
  have hi : ((cfg1.win 11).blk ⟨2 * (i 0).val + (i 1).val, hlt⟩).view.emb (ix4 0 0 0 0) = i := by
    rw [emb1_11]
    funext a; apply Fin.ext
    match a with
    | ⟨0, _⟩ => show (2 * (i 0).val + (i 1).val) / 2 = (i 0).val; omega
    | ⟨1, _⟩ => show (2 * (i 0).val + (i 1).val) % 2 = (i 1).val; omega
    | ⟨2, _⟩ => show 0 = (i 2).val; omega
    | ⟨3, _⟩ => show 0 = (i 3).val; omega
  have hmem := ((cfg1.win 11).blk ⟨2 * (i 0).val + (i 1).val, hlt⟩).view.emb_mem_set (ix4 0 0 0 0)
  rw [hi] at hmem
  exact hmem

end Cert.KernelIdeal.Hand

end
-- ==== Proof.KPay1.lean ====
/-
  The second kernel's stored value as a formula. For one batch b and one row tile h, with the two loaded
  tiles and the label tile tied pointwise to the curried arrays and the eight small operands (four class-mean
  blocks, four norms) tied to given vectors and numbers: the one entry stored is the tile's sum, over rows
  then columns, of the squared difference of the two sides' exp((2·μ₀ − 1)·(cos with mean 0 − cos with mean 1)).
-/
import proofs.«142478_j79491254714952_2_alg».proof.Proof.Gen.KernelIdeal.Skeleton
import proofs.«142478_j79491254714952_2_alg».proof.Proof.SpecP
import proofs.«142478_j79491254714952_2_alg».proof.Proof.KPayLib
import proofs.«142478_j79491254714952_2_alg».proof.Proof.KPay0
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KPay

open Cert.KernelIdeal Cert.KernelIdeal.Gen Cert.Spec Idealize.ShloMosaic ValueIdx

/-! ## The pieces shared with the first kernel -/

theorem k1_pay2_eq (x0 : Vec Ideal S1x16x128x256 .f32) : k1_pay2 (F := Ideal) x0 = k0_pay3 (F := Ideal) x0 := rfl
theorem k1_pay3_eq (x1 : Vec Ideal S1x16x128x256 .f32) : k1_pay3 (F := Ideal) x1 = k0_pay3 (F := Ideal) x1 := rfl
theorem k1_pay4_eq (x2 : Vec Ideal S1x128x256 .i32) : k1_pay4 (F := Ideal) x2 = k0_pay5 (F := Ideal) x2 := rfl

/-! ## The small operands -/

/-- A class-mean block viewed per channel. -/
theorem k1_pay5_apply (m : Vec Ideal S1x16x1x1 .f32) (c : Fin 16) :
    k1_pay5 (F := Ideal) m (ix3 c 0 0) = m (ix4 0 c 0 0) := by
  unfold k1_pay5
  exact shapeCast_1abc_abc_apply _ _ c 0 0

theorem k1_pay6_eq (m : Vec Ideal S1x16x1x1 .f32) : k1_pay6 (F := Ideal) m = k1_pay5 (F := Ideal) m := rfl

theorem k1_pay7_eq (n : Vec Ideal S1x1x1 .f32) : k1_pay7 (F := Ideal) n = n := by
  unfold k1_pay7; exact shapeCast_self _ _
theorem k1_pay8_eq (n : Vec Ideal S1x1x1 .f32) : k1_pay8 (F := Ideal) n = n := by
  unfold k1_pay8; exact shapeCast_self _ _
theorem k1_pay9_eq (n : Vec Ideal S1x1x1 .f32) : k1_pay9 (F := Ideal) n = n := by
  unfold k1_pay9; exact shapeCast_self _ _

/-- A norm laid over the tile. -/
theorem k1_pay16_apply (n : Vec Ideal S1x1x1 .f32) (r' : Fin 128) (q : Fin 256) :
    k1_pay16 (F := Ideal) n (ix3 0 r' q) = n (ix3 0 0 0) := by
  unfold k1_pay16
  rw [shapeCast_self]
  exact broadcastTo_111_abc_apply _ _ 0 r' q

/-! ## Per-pixel channel sums -/

/-- The norm of a pixel's channel vector. -/
theorem k1_pay10_apply (v13 : FVec Ideal S16x128x256 .f32) (r' : Fin 128) (q : Fin 256) :
    k1_pay10 (F := Ideal) v13 (ix3 0 r' q) = Ideal.sqrt (∑ c : Fin 16, v13 (ix3 c r' q) * v13 (ix3 c r' q)) := by
  unfold k1_pay10
  dsimp only
  show Ideal.sqrt (shapeCast S1x128x256 _ _ (ix3 0 r' q)) = _
  refine congrArg Ideal.sqrt ?_
  refine (shapeCast_ab_1ab_apply _ _ 0 r' q).trans ?_
  refine (sum3_axis0_apply _ _ _ _ _ r' q).trans ?_
  exact Finset.sum_congr rfl fun c _ => mulf_apply _ _ _

theorem k1_pay11_eq (v21 : FVec Ideal S16x128x256 .f32) : k1_pay11 (F := Ideal) v21 = k1_pay10 (F := Ideal) v21 := rfl

/-- The inner product of a pixel's channel vector with a per-channel block. -/
theorem k1_pay12_apply (v13 : FVec Ideal S16x128x256 .f32) (v28 : FVec Ideal S16x1x1 .f32) (r' : Fin 128) (q : Fin 256) :
    k1_pay12 (F := Ideal) v13 v28 (ix3 0 r' q) = ∑ c : Fin 16, v13 (ix3 c r' q) * v28 (ix3 c 0 0) := by
  unfold k1_pay12
  dsimp only
  refine (shapeCast_ab_1ab_apply _ _ 0 r' q).trans ?_
  refine (sum3_axis0_apply _ _ _ _ _ r' q).trans ?_
  refine Finset.sum_congr rfl fun c _ => ?_
  refine (mulf_apply _ _ _).trans ?_
  rw [broadcastTo_a11_abc_apply]

theorem k1_pay13_eq (v13 : FVec Ideal S16x128x256 .f32) (v30 : FVec Ideal S16x1x1 .f32) :
    k1_pay13 (F := Ideal) v13 v30 = k1_pay12 (F := Ideal) v13 v30 := rfl
theorem k1_pay14_eq (v21 : FVec Ideal S16x128x256 .f32) (m : Vec Ideal S1x16x1x1 .f32) :
    k1_pay14 (F := Ideal) v21 m = k1_pay12 (F := Ideal) v21 (k1_pay5 m) := rfl
theorem k1_pay15_eq (v21 : FVec Ideal S16x128x256 .f32) (m : Vec Ideal S1x16x1x1 .f32) :
    k1_pay15 (F := Ideal) v21 m = k1_pay12 (F := Ideal) v21 (k1_pay5 m) := rfl

/-! ## The stored entry over any tiles -/

/-- The stored entry as the tile's double sum of the squared difference of the two exponentials, every
    intermediate tile a variable. -/
theorem k1_pay1_raw (v26 : FVec Ideal S1x128x256 .f32) (v38 v40 v42 : FVec Ideal S1x1x1 .f32)
    (v46 v50 v54 v58 v62 v66 v67 : FVec Ideal S1x128x256 .f32) :
    k1_pay1 (F := Ideal) v26 v38 v40 v42 v46 v50 v54 v58 v62 v66 v67 (ix4 0 0 0 0)
      = ∑ r' : Fin 128, ∑ q : Fin 256,
          (Ideal.exp ((Ideal.ofBits .f32 0x40000000#32 * v26 (ix3 0 r' q) - Ideal.ofBits .f32 0x3F800000#32)
              * (Ideal.div (v54 (ix3 0 r' q)) (max (v46 (ix3 0 r' q) * v67 (ix3 0 r' q)) e8)
                - Ideal.div (v58 (ix3 0 r' q)) (max (v46 (ix3 0 r' q) * v38 (ix3 0 0 0)) e8)))
            - Ideal.exp ((Ideal.ofBits .f32 0x40000000#32 * v26 (ix3 0 r' q) - Ideal.ofBits .f32 0x3F800000#32)
              * (Ideal.div (v62 (ix3 0 r' q)) (max (v50 (ix3 0 r' q) * v40 (ix3 0 0 0)) e8)
                - Ideal.div (v66 (ix3 0 r' q)) (max (v50 (ix3 0 r' q) * v42 (ix3 0 0 0)) e8))))
          * (Ideal.exp ((Ideal.ofBits .f32 0x40000000#32 * v26 (ix3 0 r' q) - Ideal.ofBits .f32 0x3F800000#32)
              * (Ideal.div (v54 (ix3 0 r' q)) (max (v46 (ix3 0 r' q) * v67 (ix3 0 r' q)) e8)
                - Ideal.div (v58 (ix3 0 r' q)) (max (v46 (ix3 0 r' q) * v38 (ix3 0 0 0)) e8)))
            - Ideal.exp ((Ideal.ofBits .f32 0x40000000#32 * v26 (ix3 0 r' q) - Ideal.ofBits .f32 0x3F800000#32)
              * (Ideal.div (v62 (ix3 0 r' q)) (max (v50 (ix3 0 r' q) * v40 (ix3 0 0 0)) e8)
                - Ideal.div (v66 (ix3 0 r' q)) (max (v50 (ix3 0 r' q) * v42 (ix3 0 0 0)) e8)))) := by
  have b38 := fun r' q => broadcastTo_111_abc_apply v38 broadcasts_S1x1x1_S1x128x256 (0 : Fin 1) (r' : Fin 128) (q : Fin 256)
  have b40 := fun r' q => broadcastTo_111_abc_apply v40 broadcasts_S1x1x1_S1x128x256 (0 : Fin 1) (r' : Fin 128) (q : Fin 256)
  have b42 := fun r' q => broadcastTo_111_abc_apply v42 broadcasts_S1x1x1_S1x128x256 (0 : Fin 1) (r' : Fin 128) (q : Fin 256)
  unfold k1_pay1
  dsimp only
  refine (shapeCast_abc_1abc_apply _ _ 0 0 0 0).trans ?_
  refine (shapeCast_ab_1ab_apply _ _ 0 0 0).trans ?_
  refine (sum3_axis1_apply _ _ _ _ _ 0 0).trans ?_
  refine Finset.sum_congr rfl fun r' _ => ?_
  refine (shapeCast_ab_ab1_apply _ _ 0 r' 0).trans ?_
  refine (sum3_axis2_apply _ _ _ _ _ 0 r').trans ?_
  refine Finset.sum_congr rfl fun q _ => ?_
  rw [← b38 r' q, ← b40 r' q, ← b42 r' q]
  rfl

/-! ## The stored entry -/

section Final
variable (X Y : Arr4) (g : Lab) (b : Fin 32) (h : Fin 2)
  (x0 : Vec Ideal S1x16x128x256 .f32) (hx0 : ∀ c r' q, x0 (ix4 0 c r' q) = X b c (row h r') q)
  (x1 : Vec Ideal S1x16x128x256 .f32) (hx1 : ∀ c r' q, x1 (ix4 0 c r' q) = Y b c (row h r') q)
  (x2 : Vec Ideal S1x128x256 .i32) (hx2 : ∀ r' q, x2 (ix3 0 r' q) = g b (row h r') q)

include hx0 in
/-- The norm of a pixel's normalised feature vector. -/
theorem nfeat_apply (r' : Fin 128) (q : Fin 256) :
    k1_pay10 (F := Ideal) (k0_pay3 x0) (ix3 0 r' q) = nfeat X b (row h r') q := by
  rw [k1_pay10_apply]
  unfold nfeat
  refine congrArg Ideal.sqrt (Finset.sum_congr rfl fun c _ => ?_)
  rw [k0_pay3_apply X b h x0 hx0]

include hx0 in
/-- The inner product of a pixel's normalised feature vector with a class-mean block. -/
theorem dot_apply (m : Vec Ideal S1x16x1x1 .f32) (M : Fin 16 → EReal) (hm : ∀ c, m (ix4 0 c 0 0) = M c)
    (r' : Fin 128) (q : Fin 256) :
    k1_pay12 (F := Ideal) (k0_pay3 x0) (k1_pay5 m) (ix3 0 r' q) = ∑ c : Fin 16, feat X b c (row h r') q * M c := by
  rw [k1_pay12_apply]
  refine Finset.sum_congr rfl fun c _ => ?_
  rw [k0_pay3_apply X b h x0 hx0, k1_pay5_apply, hm]

variable (Ms0 Ms1 Mt0 Mt1 : Fin 16 → EReal) (Ns0 Ns1 Nt0 Nt1 : EReal)
  (ms0 ms1 mt0 mt1 : Vec Ideal S1x16x1x1 .f32)
  (hms0 : ∀ c, ms0 (ix4 0 c 0 0) = Ms0 c) (hms1 : ∀ c, ms1 (ix4 0 c 0 0) = Ms1 c)
  (hmt0 : ∀ c, mt0 (ix4 0 c 0 0) = Mt0 c) (hmt1 : ∀ c, mt1 (ix4 0 c 0 0) = Mt1 c)
  (ns0 ns1 nt0 nt1 : Vec Ideal S1x1x1 .f32)
  (hns0 : ns0 (ix3 0 0 0) = Ns0) (hns1 : ns1 (ix3 0 0 0) = Ns1)
  (hnt0 : nt0 (ix3 0 0 0) = Nt0) (hnt1 : nt1 (ix3 0 0 0) = Nt1)

include hx0 hx1 hx2 hms0 hms1 hmt0 hmt1 hns0 hns1 hnt0 hnt1 in
/-- The entry the second kernel stores at (b, h): the tile's sum of squared differences at the given means and norms. -/
theorem k1_pay1_apply :
    k1_pay1 (F := Ideal) (k1_pay4 x2) (k1_pay7 ns1) (k1_pay8 nt0) (k1_pay9 nt1)
      (k1_pay10 (k1_pay2 x0)) (k1_pay11 (k1_pay3 x1))
      (k1_pay12 (k1_pay2 x0) (k1_pay5 ms0)) (k1_pay13 (k1_pay2 x0) (k1_pay6 ms1))
      (k1_pay14 (k1_pay3 x1) mt0) (k1_pay15 (k1_pay3 x1) mt1) (k1_pay16 ns0) (ix4 0 0 0 0)
      = partP X Y g Ms0 Ms1 Mt0 Mt1 Ns0 Ns1 Nt0 Nt1 b h := by
  rw [k1_pay1_raw]
  unfold partP
  refine Finset.sum_congr rfl fun r' _ => Finset.sum_congr rfl fun q _ => ?_
  rw [k1_pay7_eq, k1_pay8_eq, k1_pay9_eq, k1_pay11_eq, k1_pay13_eq, k1_pay14_eq, k1_pay15_eq, k1_pay6_eq,
    k1_pay2_eq, k1_pay3_eq, k1_pay4_eq, k1_pay16_apply,
    nfeat_apply X b h x0 hx0, nfeat_apply Y b h x1 hx1,
    dot_apply X b h x0 hx0 ms0 Ms0 hms0, dot_apply X b h x0 hx0 ms1 Ms1 hms1,
    dot_apply Y b h x1 hx1 mt0 Mt0 hmt0, dot_apply Y b h x1 hx1 mt1 Mt1 hmt1,
    k0_pay5_apply g b h x2 hx2, hns0, hns1, hnt0, hnt1]
  rfl

end Final

end Cert.KernelIdeal.KPay

end
-- ==== Proof.KI.Val1.lean ====
/-
  The second call's output array in closed form. Grid point t = 2·b + h writes back the one entry (b, h) of the
  [32, 2, 1, 1] output array, and what it writes is the tile's sum of squared differences computed from the blocks
  it loaded: rows 128h … 128h+127 of batch b of the two float arrays and of the label array, batch b's four class-mean
  vectors and batch b's four norms. The 64 points' entries are pairwise different and together are the whole array,
  so after the call the array is ONE function of the arrays the call was entered with, entry by entry.
-/
import proofs.«142478_j79491254714952_2_alg».proof.Proof.KI.Region1
import proofs.«142478_j79491254714952_2_alg».proof.Proof.KI.Blocks1
import proofs.«142478_j79491254714952_2_alg».proof.Proof.KPay1
import proofs.«142478_j79491254714952_2_alg».proof.Proof.SpecP
import proofs.«142478_j79491254714952_2_alg».proof.Proof.SpecIdx
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open ValueIdx Cert.Spec

variable (V : (c : Dev nD) → (b : Ref sig .tc) → Buf (Elt Ideal) ((c : Thread nD τ).loc b))

/-- What the output array holds after the call, entry (b, h): the tile's sum of squared differences at batch b's
    class means and norms as the call finds them. -/
def G11 (c : Dev nD) : S32x2x1x1.Idx → EReal := fun i =>
  partP (arr4 (V c main_arg0)) (arr4 (V c main_arg1)) (lab (V c main_arg2))
    (fun cc => V c main_v41 (ix4 (i 0) cc 0 0)) (fun cc => V c main_v42 (ix4 (i 0) cc 0 0))
    (fun cc => V c main_v43 (ix4 (i 0) cc 0 0)) (fun cc => V c main_v44 (ix4 (i 0) cc 0 0))
    (V c main_v28 (ix3 (i 0) 0 0)) (V c main_v32 (ix3 (i 0) 0 0))
    (V c main_v36 (ix3 (i 0) 0 0)) (V c main_v40 (ix3 (i 0) 0 0)) (i 0) (i 1)

/-- What point t writes back is block t of that function: the one entry (b, h). -/
theorem flushed11_eq (c : Dev nD) (t : Fin cfg1.N) :
    (dat1 V c).flushed 11 t = ((cfg1.win 11).blk t).view.read (Elt Ideal) (G11 V c) := by
  show (cfg1.win 11).cut (grid1.coords t) ((dat1 V c).after 11 t) = _
  rw [after1_11, out1_11_eq c t (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)]
  funext y
  rw [View.read_apply, emb1_11 t y]
  have hy : y = (ix4 0 0 0 0 : S1x1x1x1.Idx) := by
    funext a; apply Fin.ext
    match a with
    | ⟨0, _⟩ => show (y 0).val = 0; have : (y 0).val < 1 := (y 0).isLt; omega
    | ⟨1, _⟩ => show (y 1).val = 0; have : (y 1).val < 1 := (y 1).isLt; omega
    | ⟨2, _⟩ => show (y 2).val = 0; have : (y 2).val < 1 := (y 2).isLt; omega
    | ⟨3, _⟩ => show (y 3).val = 0; have : (y 3).val < 1 := (y 3).isLt; omega
  subst hy
  exact KPay.k1_pay1_apply (arr4 (V c main_arg0)) (arr4 (V c main_arg1)) (lab (V c main_arg2)) (pb1 t) (ph1 t)
    (iblk1 V c 0 t) (fun cc r' q => blk1_0 V c t cc r' q)
    (iblk1 V c 1 t) (fun cc r' q => blk1_1 V c t cc r' q)
    (iblk1 V c 2 t) (fun r' q => blk1_2 V c t r' q)
    (fun cc => V c main_v41 (ix4 (pb1 t) cc 0 0)) (fun cc => V c main_v42 (ix4 (pb1 t) cc 0 0))
    (fun cc => V c main_v43 (ix4 (pb1 t) cc 0 0)) (fun cc => V c main_v44 (ix4 (pb1 t) cc 0 0))
    (V c main_v28 (ix3 (pb1 t) 0 0)) (V c main_v32 (ix3 (pb1 t) 0 0))
    (V c main_v36 (ix3 (pb1 t) 0 0)) (V c main_v40 (ix3 (pb1 t) 0 0))
    (iblk1 V c 3 t) (iblk1 V c 4 t) (iblk1 V c 5 t) (iblk1 V c 6 t)
    (fun cc => blk1_3 V c t cc) (fun cc => blk1_4 V c t cc) (fun cc => blk1_5 V c t cc) (fun cc => blk1_6 V c t cc)
    (iblk1 V c 7 t) (iblk1 V c 8 t) (iblk1 V c 9 t) (iblk1 V c 10 t)
    (blk1_7 V c t) (blk1_8 V c t) (blk1_9 V c t) (blk1_10 V c t)

/-- So after the call the output array is that function, entry by entry. -/
theorem final11 (c : Dev nD) : (dat1 V c).arrAt 11 cfg1.N = G11 V c :=
  (dat1 V c).arrAt_eq_of_cover 11 (G11 V c) (fun t _ => flushed11_eq V c t) cover1_11_arr

end Cert.KernelIdeal.Hand

end
-- ==== Proof.KI.HostVal.lean ====
/-
  The host operations of the kernel program between and after its two calls, as pure functions of the arrays
  they read, and those functions read at an index.

  The first call leaves a statistics array St of shape [32, 1, 64] — per batch four groups of 16 channel sums —
  and a count array Cn of shape [32, 1, 1]. From them the host forms, per batch b and channel c,

    mean0 g = St[b, 0, 16·g + c] / (Cn[b] + ε₆)                                   (g = 0, 2)
    mean1 g = (St[b, 0, 16·(g+1) + c] − St[b, 0, 16·g + c]) / ((65536 − Cn[b]) + ε₆)   (g = 0, 2)

  the norm over the 16 channels of each of the four, √(∑_c mean²), and the four means laid out as
  [32, 16, 1, 1]. After the second call the host sums its [32, 2, 1, 1] result over everything and divides
  by 32·256·256.
-/
import proofs.«142478_j79491254714952_2_alg».proof.Proof.Gen.KernelIdeal.Launch
import proofs.«142478_j79491254714952_2_alg».proof.Proof.SpecIdx
import Idealize.ShloMosaic.Lib.StableHlo.Run
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

set_option maxRecDepth 16384

noncomputable section

namespace Cert.KernelIdeal.HostVal

open Cert.KernelIdeal Cert.KernelIdeal.Gen Cert.Spec
open Idealize.ShloMosaic Idealize.ShloMosaic.ValueIdx
open scoped BigOperators

/-! ## Coordinates -/

/-- Channel c of group g of the 64 statistics columns: column 16·g + c. -/
def chan (g : Fin 4) (c : Fin 16) : Fin 64 := ⟨16 * g.val + c.val, by omega⟩

theorem chan_val (g : Fin 4) (c : Fin 16) : (chan g c).val = 16 * g.val + c.val := rfl

/-- The statistics array and the count array a valuation holds. -/
abbrev StOf (W : Valuation τ sig (Elt Ideal)) : S32x1x64.Idx → EReal := W (Proc.devRef .tc main_v0_0)
abbrev CnOf (W : Valuation τ sig (Elt Ideal)) : S32x1x1.Idx → EReal := W (Proc.devRef .tc main_v0_1)

/-! ## The stages as functions -/

/-- The four groups of 16 columns cut out of the statistics array. -/
def grp0 (St : S32x1x64.Idx → EReal) : S32x1x16.Idx → EReal :=
  extractStridedSlice S32x1x16 ![0, 0, 0] St slices_S32x1x64_S32x1x16_0_0_0
def grp1 (St : S32x1x64.Idx → EReal) : S32x1x16.Idx → EReal :=
  extractStridedSlice S32x1x16 ![0, 0, 16] St slices_S32x1x64_S32x1x16_0_0_16
def grp2 (St : S32x1x64.Idx → EReal) : S32x1x16.Idx → EReal :=
  extractStridedSlice S32x1x16 ![0, 0, 32] St slices_S32x1x64_S32x1x16_0_0_32
def grp3 (St : S32x1x64.Idx → EReal) : S32x1x16.Idx → EReal :=
  extractStridedSlice S32x1x16 ![0, 0, 48] St slices_S32x1x64_S32x1x16_0_0_48

/-- ε₆ at every batch. -/
def eps : FVec Ideal S32x1x1 .f32 :=
  broadcastInDim S32x1x1 ![] bcast_S_S32x1x1 (constant (F := Ideal) S_ .f32 0x358637BD#32)

/-- The class-0 divisor, count + ε₆, repeated along the channels. -/
def den0 (Cn : S32x1x1.Idx → EReal) : FVec Ideal S32x1x16 .f32 :=
  broadcastInDim S32x1x16 ![0, 1, 2] bcast_S32x1x1_S32x1x16_0_1_2 (addf (Cn : FVec Ideal S32x1x1 .f32) eps)

/-- The class-1 count, 65536 − count. -/
def cnt1 (Cn : S32x1x1.Idx → EReal) : FVec Ideal S32x1x1 .f32 :=
  subf (broadcastInDim S32x1x1 ![] bcast_S_S32x1x1 (constant (F := Ideal) S_ .f32 0x47800000#32)) (Cn : FVec Ideal S32x1x1 .f32)

/-- The class-1 divisor, (65536 − count) + ε₆, repeated along the channels. -/
def den1 (Cn : S32x1x1.Idx → EReal) : FVec Ideal S32x1x16 .f32 :=
  broadcastInDim S32x1x16 ![0, 1, 2] bcast_S32x1x1_S32x1x16_0_1_2 (addf (cnt1 Cn) eps)

/-- The four class means, as [32, 1, 16] arrays. -/
def meanS0 (St : S32x1x64.Idx → EReal) (Cn : S32x1x1.Idx → EReal) : FVec Ideal S32x1x16 .f32 :=
  Host.divf (grp0 St : FVec Ideal S32x1x16 .f32) (den0 Cn)
def meanS1 (St : S32x1x64.Idx → EReal) (Cn : S32x1x1.Idx → EReal) : FVec Ideal S32x1x16 .f32 :=
  Host.divf (subf (grp1 St : FVec Ideal S32x1x16 .f32) (grp0 St)) (den1 Cn)
def meanT0 (St : S32x1x64.Idx → EReal) (Cn : S32x1x1.Idx → EReal) : FVec Ideal S32x1x16 .f32 :=
  Host.divf (grp2 St : FVec Ideal S32x1x16 .f32) (den0 Cn)
def meanT1 (St : S32x1x64.Idx → EReal) (Cn : S32x1x1.Idx → EReal) : FVec Ideal S32x1x16 .f32 :=
  Host.divf (subf (grp3 St : FVec Ideal S32x1x16 .f32) (grp2 St)) (den1 Cn)

/-- The norm over the channels of a [32, 1, 16] array, as a [32, 1, 1] array. -/
def normOf (M : FVec Ideal S32x1x16 .f32) : FVec Ideal S32x1x1 .f32 :=
  Host.sqrt (broadcastInDim S32x1x1 ![0, 1] bcast_S32x1_S32x1x1_0_1
    (Host.reduceAdd (mulf M M) (constant (F := Ideal) S_ .f32 0x00000000#32) reducesTo_S32x1x16_S32x1_d2 h_S_))

/-- A [32, 1, 16] array laid out as [32, 16, 1, 1]. -/
def relay (M : FVec Ideal S32x1x16 .f32) : FVec Ideal S32x16x1x1 .f32 :=
  shapeCast S32x16x1x1 M shapeCasts_S32x1x16_S32x16x1x1

/-- The sum of a [32, 2, 1, 1] array over everything, divided by 32·256·256. -/
def totalOf (P : FVec Ideal S32x2x1x1 .f32) : FVec Ideal S_ .f32 :=
  Host.divf (Host.reduceAdd P (constant (F := Ideal) S_ .f32 0x00000000#32) reducesTo_S32x2x1x1_S_d0_1_2_3 h_S_)
    (constant (F := Ideal) S_ .f32 0x4A000000#32)

/-! ## The stages read at an index -/

theorem grp0_apply (St : S32x1x64.Idx → EReal) (b : Fin 32) (c : Fin 16) :
    grp0 St (ix3 b 0 c) = St (ix3 b 0 (chan 0 c)) :=
  extractStridedSlice_apply _ St _ (ix3 b 0 c) (ix3 b 0 (chan 0 c)) fun a => match a with
    | ⟨0, _⟩ => by show b.val = 0 + b.val; omega
    | ⟨1, _⟩ => rfl
    | ⟨2, _⟩ => by show 16 * 0 + c.val = 0 + c.val; omega
theorem grp1_apply (St : S32x1x64.Idx → EReal) (b : Fin 32) (c : Fin 16) :
    grp1 St (ix3 b 0 c) = St (ix3 b 0 (chan 1 c)) :=
  extractStridedSlice_apply _ St _ (ix3 b 0 c) (ix3 b 0 (chan 1 c)) fun a => match a with
    | ⟨0, _⟩ => by show b.val = 0 + b.val; omega
    | ⟨1, _⟩ => rfl
    | ⟨2, _⟩ => by show 16 * 1 + c.val = 16 + c.val; omega
theorem grp2_apply (St : S32x1x64.Idx → EReal) (b : Fin 32) (c : Fin 16) :
    grp2 St (ix3 b 0 c) = St (ix3 b 0 (chan 2 c)) :=
  extractStridedSlice_apply _ St _ (ix3 b 0 c) (ix3 b 0 (chan 2 c)) fun a => match a with
    | ⟨0, _⟩ => by show b.val = 0 + b.val; omega
    | ⟨1, _⟩ => rfl
    | ⟨2, _⟩ => by show 16 * 2 + c.val = 32 + c.val; omega
theorem grp3_apply (St : S32x1x64.Idx → EReal) (b : Fin 32) (c : Fin 16) :
    grp3 St (ix3 b 0 c) = St (ix3 b 0 (chan 3 c)) :=
  extractStridedSlice_apply _ St _ (ix3 b 0 c) (ix3 b 0 (chan 3 c)) fun a => match a with
    | ⟨0, _⟩ => by show b.val = 0 + b.val; omega
    | ⟨1, _⟩ => rfl
    | ⟨2, _⟩ => by show 16 * 3 + c.val = 48 + c.val; omega

theorem eps_apply (j : S32x1x1.Idx) : eps j = e6 := by
  unfold eps
  rw [broadcastInDim_scalar_apply]
  rfl

/-- A per-batch value repeated along the channels reads the batch's value. -/
theorem rep_apply (x : S32x1x1.Idx → EReal) (b : Fin 32) (c : Fin 16) :
    broadcastInDim S32x1x16 ![0, 1, 2] bcast_S32x1x1_S32x1x16_0_1_2 x (ix3 b 0 c) = x (ix3 b 0 0) :=
  broadcastInDim_apply _ _ x (ix3 b 0 c) (ix3 b 0 0) fun a => match a with
    | ⟨0, _⟩ => rfl
    | ⟨1, _⟩ => rfl
    | ⟨2, _⟩ => rfl

theorem den0_apply (Cn : S32x1x1.Idx → EReal) (b : Fin 32) (c : Fin 16) :
    den0 Cn (ix3 b 0 c) = Cn (ix3 b 0 0) + e6 := by
  unfold den0
  rw [rep_apply, addf_apply, eps_apply]

theorem cnt1_apply (Cn : S32x1x1.Idx → EReal) (j : S32x1x1.Idx) : cnt1 Cn j = nPix - Cn j := by
  unfold cnt1
  rw [subf_apply, broadcastInDim_scalar_apply]
  rfl

theorem den1_apply (Cn : S32x1x1.Idx → EReal) (b : Fin 32) (c : Fin 16) :
    den1 Cn (ix3 b 0 c) = (nPix - Cn (ix3 b 0 0)) + e6 := by
  unfold den1
  rw [rep_apply, addf_apply, eps_apply, cnt1_apply]

theorem meanS0_apply (St : S32x1x64.Idx → EReal) (Cn : S32x1x1.Idx → EReal) (b : Fin 32) (c : Fin 16) :
    meanS0 St Cn (ix3 b 0 c) = Ideal.div (St (ix3 b 0 (chan 0 c))) (Cn (ix3 b 0 0) + e6) := by
  unfold meanS0
  rw [hostDivf_apply, grp0_apply, den0_apply]
theorem meanS1_apply (St : S32x1x64.Idx → EReal) (Cn : S32x1x1.Idx → EReal) (b : Fin 32) (c : Fin 16) :
    meanS1 St Cn (ix3 b 0 c)
      = Ideal.div (St (ix3 b 0 (chan 1 c)) - St (ix3 b 0 (chan 0 c))) ((nPix - Cn (ix3 b 0 0)) + e6) := by
  unfold meanS1
  rw [hostDivf_apply, subf_apply, grp1_apply, grp0_apply, den1_apply]
theorem meanT0_apply (St : S32x1x64.Idx → EReal) (Cn : S32x1x1.Idx → EReal) (b : Fin 32) (c : Fin 16) :
    meanT0 St Cn (ix3 b 0 c) = Ideal.div (St (ix3 b 0 (chan 2 c))) (Cn (ix3 b 0 0) + e6) := by
  unfold meanT0
  rw [hostDivf_apply, grp2_apply, den0_apply]
theorem meanT1_apply (St : S32x1x64.Idx → EReal) (Cn : S32x1x1.Idx → EReal) (b : Fin 32) (c : Fin 16) :
    meanT1 St Cn (ix3 b 0 c)
      = Ideal.div (St (ix3 b 0 (chan 3 c)) - St (ix3 b 0 (chan 2 c))) ((nPix - Cn (ix3 b 0 0)) + e6) := by
  unfold meanT1
  rw [hostDivf_apply, subf_apply, grp3_apply, grp2_apply, den1_apply]

/-- The relaid array at (b, c, 0, 0) is the array at (b, 0, c): both sit at row-major position 16·b + c. -/
theorem relay_apply (M : FVec Ideal S32x1x16 .f32) (b : Fin 32) (c : Fin 16) :
    relay M (ix4 b c 0 0) = M (ix3 b 0 c) := by
  unfold relay
  refine shapeCast_apply M _ (ix4 b c 0 0) (ix3 b 0 c) ?_
  rw [Shape.rowMajor_val_three, Shape.rowMajor_val_four]
  show (b.val * 1 + 0) * 16 + c.val = ((b.val * 16 + c.val) * 1 + 0) * 1 + 0
  omega

/-- The index of [32, 1, 16] above (b, 0) of [32, 1] at channel k. -/
theorem lift_eq (h : S32x1x16.Reduces [2] S32x1) (b : Fin 32) (k : Fin 16) :
    h.lift (ix2 b 0) k = ix3 b 0 k := by
  funext a
  match a with
  | ⟨0, _⟩ => exact Fin.ext rfl
  | ⟨1, _⟩ => exact Fin.ext rfl
  | ⟨2, _⟩ => exact Fin.ext rfl

/-- The host's square root at an index is the extended reals' square root of the element. -/
theorem hostSqrt_apply {s : Shape} {φ : FTy} (x : FVec Ideal s φ) (i : s.Idx) : Host.sqrt x i = Ideal.sqrt (x i) := rfl

/-- The norm at batch b: the root of the sum over the 16 channels of the squares. -/
theorem normOf_apply (M : FVec Ideal S32x1x16 .f32) (b : Fin 32) :
    normOf M (ix3 b 0 0) = Ideal.sqrt (∑ c : Fin 16, M (ix3 b 0 c) * M (ix3 b 0 c)) := by
  have hR : S32x1x16.Reduces [2] S32x1 := by decide
  unfold normOf
  rw [hostSqrt_apply]
  refine congrArg Ideal.sqrt ?_
  refine (broadcastInDim_apply _ _ _ (ix3 b 0 0) (ix2 b 0) fun a => match a with
    | ⟨0, _⟩ => rfl
    | ⟨1, _⟩ => rfl).trans ?_
  rw [hostReduceAdd_apply]
  refine (Ideal.hostReduceAdd_single _ hR _ _ _).trans ?_
  show Ideal.ofBits .f32 0x00000000#32 + ∑ k : Fin 16, mulf M M (hR.lift (ix2 b 0) k) = _
  rw [Ideal.ofBits_zero_f32, zero_add]
  refine Finset.sum_congr rfl fun k _ => ?_
  rw [lift_eq, mulf_apply]

/-- Indices of [32, 2, 1, 1] are pairs (batch, tile). -/
def idxEquivBH : S32x2x1x1.Idx ≃ Fin 32 × Fin 2 where
  toFun i := (i 0, i 1)
  invFun p := ix4 p.1 p.2 0 0
  left_inv i := by
    funext a
    match a with
    | ⟨0, _⟩ => rfl
    | ⟨1, _⟩ => rfl
    | ⟨2, _⟩ =>
      have h : (i 2).val < 1 := (i 2).isLt
      exact Fin.ext (by show 0 = (i 2).val; omega)
    | ⟨3, _⟩ =>
      have h : (i 3).val < 1 := (i 3).isLt
      exact Fin.ext (by show 0 = (i 3).val; omega)
  right_inv _ := rfl

theorem sum_idxBH (f : S32x2x1x1.Idx → EReal) : ∑ i, f i = ∑ b : Fin 32, ∑ h : Fin 2, f (ix4 b h 0 0) := by
  rw [← Equiv.sum_comp idxEquivBH.symm f, Fintype.sum_prod_type]
  rfl

/-- The total: the sum over batches and tiles, divided by 32·256·256. -/
theorem totalOf_apply (P : FVec Ideal S32x2x1x1 .f32) :
    totalOf P ix0 = Ideal.div (∑ b : Fin 32, ∑ h : Fin 2, P (ix4 b h 0 0)) nAll := by
  unfold totalOf
  rw [hostDivf_apply, hostReduceAdd_apply]
  show Ideal.div (Ideal.hostReduceAdd reducesTo_S32x2x1x1_S_d0_1_2_3 P (Ideal.ofBits .f32 0x00000000#32) ix0) nAll = _
  rw [Ideal.hostReduceAdd_total _ (fun b => b.elim0), Ideal.ofBits_zero_f32, zero_add, sum_idxBH]

end Cert.KernelIdeal.HostVal

end
-- ==== Proof.KI.HostMeans.lean ====
/-
  The four class means after the 53 host operations between the calls, from an arbitrary valuation W of the
  buffers: each mean array, laid out [32, 16, 1, 1], is the stage function of HostVal.lean applied to the
  statistics and count arrays W holds, and so at (b, c, 0, 0) the quotient of the channel sum (or of the
  difference of two channel sums) by the class count plus ε₆.
-/
import proofs.«142478_j79491254714952_2_alg».proof.Proof.KI.HostVal

set_option maxRecDepth 16384

noncomputable section

namespace Cert.KernelIdeal.HostVal

open Cert.KernelIdeal Cert.KernelIdeal.Gen Cert.Spec
open Idealize.ShloMosaic Idealize.ShloMosaic.ValueIdx
open scoped BigOperators

/-- The mean array of class 0 of the S side after the host operations, as one function of the two arrays read. -/
theorem after_main_v41 (W : Valuation τ sig (Elt Ideal)) :
    (StableHlo.after (hostOps1 (F := Ideal)) W (Proc.devRef .tc main_v41) : S32x16x1x1.Idx → EReal)
      = relay (meanS0 (StOf W) (CnOf W)) := by
  open StableHlo in after_results_simp
  rfl

/-- … and at batch b, channel c. -/
theorem mean_s0 (W : Valuation τ sig (Elt Ideal)) (b : Fin 32) (c : Fin 16) :
    (StableHlo.after (hostOps1 (F := Ideal)) W (Proc.devRef .tc main_v41) : S32x16x1x1.Idx → EReal) (ix4 b c 0 0)
      = Ideal.div (StOf W (ix3 b 0 (chan 0 c))) (CnOf W (ix3 b 0 0) + e6) :=
  (congrFun (after_main_v41 W) (ix4 b c 0 0)).trans ((relay_apply _ b c).trans (meanS0_apply _ _ b c))

/-- The mean array of class 1 of the S side after the host operations, as one function of the two arrays read. -/
theorem after_main_v42 (W : Valuation τ sig (Elt Ideal)) :
    (StableHlo.after (hostOps1 (F := Ideal)) W (Proc.devRef .tc main_v42) : S32x16x1x1.Idx → EReal)
      = relay (meanS1 (StOf W) (CnOf W)) := by
  open StableHlo in after_results_simp
  rfl

/-- … and at batch b, channel c. -/
theorem mean_s1 (W : Valuation τ sig (Elt Ideal)) (b : Fin 32) (c : Fin 16) :
    (StableHlo.after (hostOps1 (F := Ideal)) W (Proc.devRef .tc main_v42) : S32x16x1x1.Idx → EReal) (ix4 b c 0 0)
      = Ideal.div (StOf W (ix3 b 0 (chan 1 c)) - StOf W (ix3 b 0 (chan 0 c))) ((nPix - CnOf W (ix3 b 0 0)) + e6) :=
  (congrFun (after_main_v42 W) (ix4 b c 0 0)).trans ((relay_apply _ b c).trans (meanS1_apply _ _ b c))

/-- The mean array of class 0 of the T side after the host operations, as one function of the two arrays read. -/
theorem after_main_v43 (W : Valuation τ sig (Elt Ideal)) :
    (StableHlo.after (hostOps1 (F := Ideal)) W (Proc.devRef .tc main_v43) : S32x16x1x1.Idx → EReal)
      = relay (meanT0 (StOf W) (CnOf W)) := by
  open StableHlo in after_results_simp
  rfl

/-- … and at batch b, channel c. -/
theorem mean_t0 (W : Valuation τ sig (Elt Ideal)) (b : Fin 32) (c : Fin 16) :
    (StableHlo.after (hostOps1 (F := Ideal)) W (Proc.devRef .tc main_v43) : S32x16x1x1.Idx → EReal) (ix4 b c 0 0)
      = Ideal.div (StOf W (ix3 b 0 (chan 2 c))) (CnOf W (ix3 b 0 0) + e6) :=
  (congrFun (after_main_v43 W) (ix4 b c 0 0)).trans ((relay_apply _ b c).trans (meanT0_apply _ _ b c))

/-- The mean array of class 1 of the T side after the host operations, as one function of the two arrays read. -/
theorem after_main_v44 (W : Valuation τ sig (Elt Ideal)) :
    (StableHlo.after (hostOps1 (F := Ideal)) W (Proc.devRef .tc main_v44) : S32x16x1x1.Idx → EReal)
      = relay (meanT1 (StOf W) (CnOf W)) := by
  open StableHlo in after_results_simp
  rfl

/-- … and at batch b, channel c. -/
theorem mean_t1 (W : Valuation τ sig (Elt Ideal)) (b : Fin 32) (c : Fin 16) :
    (StableHlo.after (hostOps1 (F := Ideal)) W (Proc.devRef .tc main_v44) : S32x16x1x1.Idx → EReal) (ix4 b c 0 0)
      = Ideal.div (StOf W (ix3 b 0 (chan 3 c)) - StOf W (ix3 b 0 (chan 2 c))) ((nPix - CnOf W (ix3 b 0 0)) + e6) :=
  (congrFun (after_main_v44 W) (ix4 b c 0 0)).trans ((relay_apply _ b c).trans (meanT1_apply _ _ b c))

end Cert.KernelIdeal.HostVal

end
-- ==== Proof.KI.HostNorms.lean ====
/-
  The norms of the four class means after the 53 host operations between the calls, from an arbitrary
  valuation W: at batch b the square root of the sum over the 16 channels of the squared mean. The host sums
  from the constant 0, which is the extended real 0 and drops out.
-/
import proofs.«142478_j79491254714952_2_alg».proof.Proof.KI.HostVal

set_option maxRecDepth 16384

noncomputable section

namespace Cert.KernelIdeal.HostVal

open Cert.KernelIdeal Cert.KernelIdeal.Gen Cert.Spec
open Idealize.ShloMosaic Idealize.ShloMosaic.ValueIdx
open scoped BigOperators

/-- The norm array of class 0 of the S side after the host operations, as one function of the two arrays read. -/
theorem after_main_v28 (W : Valuation τ sig (Elt Ideal)) :
    (StableHlo.after (hostOps1 (F := Ideal)) W (Proc.devRef .tc main_v28) : S32x1x1.Idx → EReal)
      = normOf (meanS0 (StOf W) (CnOf W)) := by
  open StableHlo in after_results_simp
  rfl

/-- … and at batch b. -/
theorem norm_s0 (W : Valuation τ sig (Elt Ideal)) (b : Fin 32) :
    (StableHlo.after (hostOps1 (F := Ideal)) W (Proc.devRef .tc main_v28) : S32x1x1.Idx → EReal) (ix3 b 0 0)
      = Ideal.sqrt (∑ c : Fin 16, Ideal.div (StOf W (ix3 b 0 (chan 0 c))) (CnOf W (ix3 b 0 0) + e6)
          * Ideal.div (StOf W (ix3 b 0 (chan 0 c))) (CnOf W (ix3 b 0 0) + e6)) :=
  (congrFun (after_main_v28 W) (ix3 b 0 0)).trans ((normOf_apply _ b).trans
    (congrArg Ideal.sqrt (Finset.sum_congr rfl fun c _ => by rw [meanS0_apply])))

/-- The norm array of class 1 of the S side after the host operations, as one function of the two arrays read. -/
theorem after_main_v32 (W : Valuation τ sig (Elt Ideal)) :
    (StableHlo.after (hostOps1 (F := Ideal)) W (Proc.devRef .tc main_v32) : S32x1x1.Idx → EReal)
      = normOf (meanS1 (StOf W) (CnOf W)) := by
  open StableHlo in after_results_simp
  rfl

/-- … and at batch b. -/
theorem norm_s1 (W : Valuation τ sig (Elt Ideal)) (b : Fin 32) :
    (StableHlo.after (hostOps1 (F := Ideal)) W (Proc.devRef .tc main_v32) : S32x1x1.Idx → EReal) (ix3 b 0 0)
      = Ideal.sqrt (∑ c : Fin 16, Ideal.div (StOf W (ix3 b 0 (chan 1 c)) - StOf W (ix3 b 0 (chan 0 c))) ((nPix - CnOf W (ix3 b 0 0)) + e6)
          * Ideal.div (StOf W (ix3 b 0 (chan 1 c)) - StOf W (ix3 b 0 (chan 0 c))) ((nPix - CnOf W (ix3 b 0 0)) + e6)) :=
  (congrFun (after_main_v32 W) (ix3 b 0 0)).trans ((normOf_apply _ b).trans
    (congrArg Ideal.sqrt (Finset.sum_congr rfl fun c _ => by rw [meanS1_apply])))

/-- The norm array of class 0 of the T side after the host operations, as one function of the two arrays read. -/
theorem after_main_v36 (W : Valuation τ sig (Elt Ideal)) :
    (StableHlo.after (hostOps1 (F := Ideal)) W (Proc.devRef .tc main_v36) : S32x1x1.Idx → EReal)
      = normOf (meanT0 (StOf W) (CnOf W)) := by
  open StableHlo in after_results_simp
  rfl

/-- … and at batch b. -/
theorem norm_t0 (W : Valuation τ sig (Elt Ideal)) (b : Fin 32) :
    (StableHlo.after (hostOps1 (F := Ideal)) W (Proc.devRef .tc main_v36) : S32x1x1.Idx → EReal) (ix3 b 0 0)
      = Ideal.sqrt (∑ c : Fin 16, Ideal.div (StOf W (ix3 b 0 (chan 2 c))) (CnOf W (ix3 b 0 0) + e6)
          * Ideal.div (StOf W (ix3 b 0 (chan 2 c))) (CnOf W (ix3 b 0 0) + e6)) :=
  (congrFun (after_main_v36 W) (ix3 b 0 0)).trans ((normOf_apply _ b).trans
    (congrArg Ideal.sqrt (Finset.sum_congr rfl fun c _ => by rw [meanT0_apply])))

/-- The norm array of class 1 of the T side after the host operations, as one function of the two arrays read. -/
theorem after_main_v40 (W : Valuation τ sig (Elt Ideal)) :
    (StableHlo.after (hostOps1 (F := Ideal)) W (Proc.devRef .tc main_v40) : S32x1x1.Idx → EReal)
      = normOf (meanT1 (StOf W) (CnOf W)) := by
  open StableHlo in after_results_simp
  rfl

/-- … and at batch b. -/
theorem norm_t1 (W : Valuation τ sig (Elt Ideal)) (b : Fin 32) :
    (StableHlo.after (hostOps1 (F := Ideal)) W (Proc.devRef .tc main_v40) : S32x1x1.Idx → EReal) (ix3 b 0 0)
      = Ideal.sqrt (∑ c : Fin 16, Ideal.div (StOf W (ix3 b 0 (chan 3 c)) - StOf W (ix3 b 0 (chan 2 c))) ((nPix - CnOf W (ix3 b 0 0)) + e6)
          * Ideal.div (StOf W (ix3 b 0 (chan 3 c)) - StOf W (ix3 b 0 (chan 2 c))) ((nPix - CnOf W (ix3 b 0 0)) + e6)) :=
  (congrFun (after_main_v40 W) (ix3 b 0 0)).trans ((normOf_apply _ b).trans
    (congrArg Ideal.sqrt (Finset.sum_congr rfl fun c _ => by rw [meanT1_apply])))

end Cert.KernelIdeal.HostVal

end
-- ==== Proof.KI.HostTotal.lean ====
/-
  The last four host operations, from an arbitrary valuation W: the result is the sum of the second call's
  [32, 2, 1, 1] array over batches and tiles, divided by 32·256·256. And the 53 operations between the calls
  write none of the three argument arrays.
-/
import proofs.«142478_j79491254714952_2_alg».proof.Proof.KI.HostVal
import proofs.«142478_j79491254714952_2_alg».proof.Proof.Gen.KernelIdeal.Regions
set_option maxRecDepth 16384

noncomputable section

namespace Cert.KernelIdeal.HostVal

open Cert.KernelIdeal Cert.KernelIdeal.Gen Cert.Spec
open Idealize.ShloMosaic Idealize.ShloMosaic.ValueIdx
open scoped BigOperators

/-- The result after the last host operations, as one function of the second call's array. -/
theorem after_main_v47 (W : Valuation τ sig (Elt Ideal)) :
    (StableHlo.after (hostOps2 (F := Ideal)) W (Proc.devRef .tc main_v47) : S_.Idx → EReal)
      = totalOf (W (Proc.devRef .tc main_v45)) := by
  open StableHlo in after_results_simp
  rfl

/-- … read at its one index. -/
theorem total (W : Valuation τ sig (Elt Ideal)) :
    (StableHlo.after (hostOps2 (F := Ideal)) W (Proc.devRef .tc main_v47) : S_.Idx → EReal) ix0
      = Ideal.div (∑ b : Fin 32, ∑ h : Fin 2, (W (Proc.devRef .tc main_v45) : S32x2x1x1.Idx → EReal) (ix4 b h 0 0)) nAll :=
  (congrFun (after_main_v47 W) ix0).trans (totalOf_apply _)

variable {F : FTy → Type} [FloatOps F]

/-- A buffer none of the 53 operations writes keeps its contents. -/
theorem kept1 (W : Valuation τ sig (Elt F)) (r : Ref sig .tc) (h : r ∉ hostOps1_W) :
    StableHlo.after hostOps1 W (Proc.devRef .tc r) = W (Proc.devRef .tc r) :=
  StableHlo.after_of_writes_sub hostOps1 W hostOps1_writes h

/-- A buffer none of the last four operations writes keeps its contents. -/
theorem kept2 (W : Valuation τ sig (Elt F)) (r : Ref sig .tc) (h : r ∉ hostOps2_W) :
    StableHlo.after hostOps2 W (Proc.devRef .tc r) = W (Proc.devRef .tc r) :=
  StableHlo.after_of_writes_sub hostOps2 W hostOps2_writes h

theorem kept_arg0 (W : Valuation τ sig (Elt F)) :
    StableHlo.after hostOps1 W (Proc.devRef .tc main_arg0) = W (Proc.devRef .tc main_arg0) := kept1 W main_arg0 (by decide)
theorem kept_arg1 (W : Valuation τ sig (Elt F)) :
    StableHlo.after hostOps1 W (Proc.devRef .tc main_arg1) = W (Proc.devRef .tc main_arg1) := kept1 W main_arg1 (by decide)
theorem kept_arg2 (W : Valuation τ sig (Elt F)) :
    StableHlo.after hostOps1 W (Proc.devRef .tc main_arg2) = W (Proc.devRef .tc main_arg2) := kept1 W main_arg2 (by decide)

end Cert.KernelIdeal.HostVal

end
-- ==== Proof.KI.Value.lean ====
/-
  The kernel program's result as the formula kerE of its three argument arrays, at the extended reals.

  The first call leaves in the statistics array, at batch b and statistic k, the sum over the two row tiles of the
  tile's statistic (the accumulator starts from 0 at the first tile and is written back after the second), and in
  the count array the sum of the two tiles' class-0 counts. The 53 host operations turn these into the two class
  means of each side (class 1 by subtraction from the unmasked sums and from 65536) and the means' norms. The
  second call leaves at (b, h) tile h's sum of squared differences, computed with those means and norms; the last
  host operations add the 64 entries and divide by 32·256·256.
-/
import proofs.«142478_j79491254714952_2_alg».proof.Proof.KI.Run
import proofs.«142478_j79491254714952_2_alg».proof.Proof.KI.Val0
import proofs.«142478_j79491254714952_2_alg».proof.Proof.KI.Val1
import proofs.«142478_j79491254714952_2_alg».proof.Proof.KI.HostMeans
import proofs.«142478_j79491254714952_2_alg».proof.Proof.KI.HostNorms
import proofs.«142478_j79491254714952_2_alg».proof.Proof.KI.HostTotal
import proofs.«142478_j79491254714952_2_alg».proof.Proof.SpecP
import proofs.«142478_j79491254714952_2_alg».proof.Proof.SpecIdx

set_option maxRecDepth 16384

noncomputable section

namespace Cert.KernelIdeal.Hand

open Cert.KernelIdeal Cert.KernelIdeal.Gen Cert.KernelIdeal.HostVal
open Idealize.ShloMosaic Idealize.ShloMosaic.TcCoe
open Idealize.SL Idealize.SL.Sem
open Idealize.ShloMosaic.Pipeline (Dat Cfg Window)
open ValueIdx Cert.Spec

variable (m : (ℓ : Loc nD τ sig) → Buf (Elt Ideal) ℓ) (ρ : Dev nD → PrngReg)

/-- The three argument arrays at curried coordinates. -/
abbrev arrS (c : Dev nD) : Arr4 := arr4 (m ((c : Thread nD τ).loc main_arg0))
abbrev arrT (c : Dev nD) : Arr4 := arr4 (m ((c : Thread nD τ).loc main_arg1))
abbrev labG (c : Dev nD) : Lab := lab (m ((c : Thread nD τ).loc main_arg2))

/-! ## The statistics by their number -/

theorem tileStat_chan0 (S T : Arr4) (g : Lab) (b : Fin 32) (h : Fin 2) (cc : Fin 16) :
    tileStat S T g b h (chan 0 cc) = tileSum0 S g b cc h := by
  have hv : (chan 0 cc).val = cc.val := by rw [chan_val]; simp
  unfold tileStat
  rw [dif_pos (by rw [hv]; exact cc.isLt)]
  exact congrArg (fun x => tileSum0 S g b x h) (Fin.ext hv)

theorem tileStat_chan1 (S T : Arr4) (g : Lab) (b : Fin 32) (h : Fin 2) (cc : Fin 16) :
    tileStat S T g b h (chan 1 cc) = tileTot S b cc h := by
  have hv : (chan 1 cc).val = 16 + cc.val := by rw [chan_val]; simp
  have hc := cc.isLt
  unfold tileStat
  rw [dif_neg (by rw [hv]; omega), dif_pos (by rw [hv]; omega)]
  exact congrArg (fun x => tileTot S b x h) (Fin.ext (by show (chan 1 cc).val - 16 = cc.val; omega))

theorem tileStat_chan2 (S T : Arr4) (g : Lab) (b : Fin 32) (h : Fin 2) (cc : Fin 16) :
    tileStat S T g b h (chan 2 cc) = tileSum0 T g b cc h := by
  have hv : (chan 2 cc).val = 32 + cc.val := by rw [chan_val]; simp
  have hc := cc.isLt
  unfold tileStat
  rw [dif_neg (by rw [hv]; omega), dif_neg (by rw [hv]; omega), dif_pos (by rw [hv]; omega)]
  exact congrArg (fun x => tileSum0 T g b x h) (Fin.ext (by show (chan 2 cc).val - 32 = cc.val; omega))

theorem tileStat_chan3 (S T : Arr4) (g : Lab) (b : Fin 32) (h : Fin 2) (cc : Fin 16) :
    tileStat S T g b h (chan 3 cc) = tileTot T b cc h := by
  have hv : (chan 3 cc).val = 48 + cc.val := by rw [chan_val]; simp
  have hc := cc.isLt
  unfold tileStat
  rw [dif_neg (by rw [hv]; omega), dif_neg (by rw [hv]; omega), dif_neg (by rw [hv]; omega)]
  exact congrArg (fun x => tileTot T b x h) (Fin.ext (by show (chan 3 cc).val - 48 = cc.val; omega))

/-! ## After the first call -/

/-- The arguments as the first call finds them are the launch memory's. -/
theorem V0_arg0 (c : Dev nD) : V0 m ρ c main_arg0 = m ((c : Thread nD τ).loc main_arg0) := rfl
theorem V0_arg1 (c : Dev nD) : V0 m ρ c main_arg1 = m ((c : Thread nD τ).loc main_arg1) := rfl
theorem V0_arg2 (c : Dev nD) : V0 m ρ c main_arg2 = m ((c : Thread nD τ).loc main_arg2) := rfl

/-- The statistics array after the first call: the two tiles' statistics added. -/
theorem St_val (c : Dev nD) (b : Fin 32) (k : Fin 64) :
    StOf (W1 m ρ c) (ix3 b 0 k) = ∑ h : Fin 2, tileStat (arrS m c) (arrT m c) (labG m c) b h k := by
  have e : StOf (W1 m ρ c) = G3 (V0 m ρ) c := (W1_arr m ρ c 3).trans (final3 (V0 m ρ) c)
  rw [e, Fin.sum_univ_two]
  show (0 + tileStat _ _ _ b 0 k) + tileStat _ _ _ b 1 k = _
  rw [zero_add]

/-- The count array after the first call. -/
theorem Cn_val (c : Dev nD) (b : Fin 32) :
    CnOf (W1 m ρ c) (ix3 b 0 0) = cnt0K (labG m c) b := by
  have e : CnOf (W1 m ρ c) = G4 (V0 m ρ) c := (W1_arr m ρ c 4).trans (final4 (V0 m ρ) c)
  rw [e]
  unfold cnt0K
  rw [Fin.sum_univ_two]
  show (0 + tileCnt0 _ b 0) + tileCnt0 _ b 1 = _
  rw [zero_add]

theorem St_chan0 (c : Dev nD) (b : Fin 32) (cc : Fin 16) :
    StOf (W1 m ρ c) (ix3 b 0 (chan 0 cc)) = sum0K (arrS m c) (labG m c) b cc := by
  rw [St_val]; unfold sum0K; exact Finset.sum_congr rfl fun h _ => tileStat_chan0 _ _ _ b h cc
theorem St_chan1 (c : Dev nD) (b : Fin 32) (cc : Fin 16) :
    StOf (W1 m ρ c) (ix3 b 0 (chan 1 cc)) = totK (arrS m c) b cc := by
  rw [St_val]; unfold totK; exact Finset.sum_congr rfl fun h _ => tileStat_chan1 _ _ _ b h cc
theorem St_chan2 (c : Dev nD) (b : Fin 32) (cc : Fin 16) :
    StOf (W1 m ρ c) (ix3 b 0 (chan 2 cc)) = sum0K (arrT m c) (labG m c) b cc := by
  rw [St_val]; unfold sum0K; exact Finset.sum_congr rfl fun h _ => tileStat_chan2 _ _ _ b h cc
theorem St_chan3 (c : Dev nD) (b : Fin 32) (cc : Fin 16) :
    StOf (W1 m ρ c) (ix3 b 0 (chan 3 cc)) = totK (arrT m c) b cc := by
  rw [St_val]; unfold totK; exact Finset.sum_congr rfl fun h _ => tileStat_chan3 _ _ _ b h cc

/-! ## After the 53 host operations -/

theorem V2_arg0 (c : Dev nD) : V2 m ρ c main_arg0 = m ((c : Thread nD τ).loc main_arg0) :=
  (kept_arg0 (W1 m ρ c)).trans ((W1_arr m ρ c 0).trans (((dat0 (V0 m ρ) c).arrAt_in 0 rfl _).trans (A_eq0 (V0 m ρ) c 0)))
theorem V2_arg1 (c : Dev nD) : V2 m ρ c main_arg1 = m ((c : Thread nD τ).loc main_arg1) :=
  (kept_arg1 (W1 m ρ c)).trans ((W1_arr m ρ c 1).trans (((dat0 (V0 m ρ) c).arrAt_in 1 rfl _).trans (A_eq0 (V0 m ρ) c 1)))
theorem V2_arg2 (c : Dev nD) : V2 m ρ c main_arg2 = m ((c : Thread nD τ).loc main_arg2) :=
  (kept_arg2 (W1 m ρ c)).trans ((W1_arr m ρ c 2).trans (((dat0 (V0 m ρ) c).arrAt_in 2 rfl _).trans (A_eq0 (V0 m ρ) c 2)))

theorem mean_s0_val (c : Dev nD) (b : Fin 32) (cc : Fin 16) :
    (V2 m ρ c main_v41 : S32x16x1x1.Idx → EReal) (ix4 b cc 0 0) = mean0K (arrS m c) (labG m c) b cc := by
  show (StableHlo.after (hostOps1 (F := Ideal)) (W1 m ρ c) (Proc.devRef .tc main_v41) : S32x16x1x1.Idx → EReal) (ix4 b cc 0 0) = _
  rw [mean_s0, St_chan0, Cn_val]; rfl
theorem mean_s1_val (c : Dev nD) (b : Fin 32) (cc : Fin 16) :
    (V2 m ρ c main_v42 : S32x16x1x1.Idx → EReal) (ix4 b cc 0 0) = mean1K (arrS m c) (labG m c) b cc := by
  show (StableHlo.after (hostOps1 (F := Ideal)) (W1 m ρ c) (Proc.devRef .tc main_v42) : S32x16x1x1.Idx → EReal) (ix4 b cc 0 0) = _
  rw [mean_s1, St_chan0, St_chan1, Cn_val]; rfl
theorem mean_t0_val (c : Dev nD) (b : Fin 32) (cc : Fin 16) :
    (V2 m ρ c main_v43 : S32x16x1x1.Idx → EReal) (ix4 b cc 0 0) = mean0K (arrT m c) (labG m c) b cc := by
  show (StableHlo.after (hostOps1 (F := Ideal)) (W1 m ρ c) (Proc.devRef .tc main_v43) : S32x16x1x1.Idx → EReal) (ix4 b cc 0 0) = _
  rw [mean_t0, St_chan2, Cn_val]; rfl
theorem mean_t1_val (c : Dev nD) (b : Fin 32) (cc : Fin 16) :
    (V2 m ρ c main_v44 : S32x16x1x1.Idx → EReal) (ix4 b cc 0 0) = mean1K (arrT m c) (labG m c) b cc := by
  show (StableHlo.after (hostOps1 (F := Ideal)) (W1 m ρ c) (Proc.devRef .tc main_v44) : S32x16x1x1.Idx → EReal) (ix4 b cc 0 0) = _
  rw [mean_t1, St_chan2, St_chan3, Cn_val]; rfl

theorem norm_s0_val (c : Dev nD) (b : Fin 32) :
    (V2 m ρ c main_v28 : S32x1x1.Idx → EReal) (ix3 b 0 0) = norm0K (arrS m c) (labG m c) b := by
  show (StableHlo.after (hostOps1 (F := Ideal)) (W1 m ρ c) (Proc.devRef .tc main_v28) : S32x1x1.Idx → EReal) (ix3 b 0 0) = _
  rw [norm_s0]
  refine congrArg Ideal.sqrt (Finset.sum_congr rfl fun cc _ => ?_)
  rw [St_chan0, Cn_val]; rfl
theorem norm_s1_val (c : Dev nD) (b : Fin 32) :
    (V2 m ρ c main_v32 : S32x1x1.Idx → EReal) (ix3 b 0 0) = norm1K (arrS m c) (labG m c) b := by
  show (StableHlo.after (hostOps1 (F := Ideal)) (W1 m ρ c) (Proc.devRef .tc main_v32) : S32x1x1.Idx → EReal) (ix3 b 0 0) = _
  rw [norm_s1]
  refine congrArg Ideal.sqrt (Finset.sum_congr rfl fun cc _ => ?_)
  rw [St_chan0, St_chan1, Cn_val]; rfl
theorem norm_t0_val (c : Dev nD) (b : Fin 32) :
    (V2 m ρ c main_v36 : S32x1x1.Idx → EReal) (ix3 b 0 0) = norm0K (arrT m c) (labG m c) b := by
  show (StableHlo.after (hostOps1 (F := Ideal)) (W1 m ρ c) (Proc.devRef .tc main_v36) : S32x1x1.Idx → EReal) (ix3 b 0 0) = _
  rw [norm_t0]
  refine congrArg Ideal.sqrt (Finset.sum_congr rfl fun cc _ => ?_)
  rw [St_chan2, Cn_val]; rfl
theorem norm_t1_val (c : Dev nD) (b : Fin 32) :
    (V2 m ρ c main_v40 : S32x1x1.Idx → EReal) (ix3 b 0 0) = norm1K (arrT m c) (labG m c) b := by
  show (StableHlo.after (hostOps1 (F := Ideal)) (W1 m ρ c) (Proc.devRef .tc main_v40) : S32x1x1.Idx → EReal) (ix3 b 0 0) = _
  rw [norm_t1]
  refine congrArg Ideal.sqrt (Finset.sum_congr rfl fun cc _ => ?_)
  rw [St_chan2, St_chan3, Cn_val]; rfl

/-! ## After the second call, and the result -/

/-- The second call's array at (b, h): tile h's sum of squared differences. -/
theorem part_val (c : Dev nD) (b : Fin 32) (h : Fin 2) :
    (W3 m ρ c (Proc.devRef .tc main_v45) : S32x2x1x1.Idx → EReal) (ix4 b h 0 0) = partK (arrS m c) (arrT m c) (labG m c) b h := by
  have e : (W3 m ρ c (Proc.devRef .tc main_v45) : S32x2x1x1.Idx → EReal) = G11 (V2 m ρ) c :=
    (W3_arr m ρ c 11).trans (final11 (V2 m ρ) c)
  rw [e]
  show partP (arr4 (V2 m ρ c main_arg0)) (arr4 (V2 m ρ c main_arg1)) (lab (V2 m ρ c main_arg2))
      (fun cc => (V2 m ρ c main_v41 : S32x16x1x1.Idx → EReal) (ix4 b cc 0 0)) (fun cc => (V2 m ρ c main_v42 : S32x16x1x1.Idx → EReal) (ix4 b cc 0 0))
      (fun cc => (V2 m ρ c main_v43 : S32x16x1x1.Idx → EReal) (ix4 b cc 0 0)) (fun cc => (V2 m ρ c main_v44 : S32x16x1x1.Idx → EReal) (ix4 b cc 0 0))
      ((V2 m ρ c main_v28 : S32x1x1.Idx → EReal) (ix3 b 0 0)) ((V2 m ρ c main_v32 : S32x1x1.Idx → EReal) (ix3 b 0 0))
      ((V2 m ρ c main_v36 : S32x1x1.Idx → EReal) (ix3 b 0 0)) ((V2 m ρ c main_v40 : S32x1x1.Idx → EReal) (ix3 b 0 0)) b h = _
  rw [V2_arg0, V2_arg1, V2_arg2]
  have hm0 := funext fun cc => mean_s0_val m ρ c b cc
  have hm1 := funext fun cc => mean_s1_val m ρ c b cc
  have hm2 := funext fun cc => mean_t0_val m ρ c b cc
  have hm3 := funext fun cc => mean_t1_val m ρ c b cc
  rw [hm0, hm1, hm2, hm3, norm_s0_val, norm_s1_val, norm_t0_val, norm_t1_val]
  exact partP_eq _ _ _ b h

/-- THE KERNEL PROGRAM'S RESULT. -/
theorem kernel_value (c : Dev nD) :
    (W4 m ρ c (Proc.devRef .tc main_v47) : S_.Idx → EReal) = fun _ => kerE (arrS m c) (arrT m c) (labG m c) := by
  funext i
  rw [eq_ix0 i]
  show (StableHlo.after (hostOps2 (F := Ideal)) (W3 m ρ c) (Proc.devRef .tc main_v47) : S_.Idx → EReal) ix0 = _
  rw [total]
  unfold kerE
  exact congrArg (fun s : EReal => Ideal.div s nAll)
    (Finset.sum_congr rfl fun b _ => Finset.sum_congr rfl fun h _ => part_val m ρ c b h)

end Cert.KernelIdeal.Hand

end
-- ==== Proof.RefValue1.lean ====
/-
  The reference program's host operations read at an index, at the ideal values.

  The reference is a straight line of array operations. Three kinds of them change the index set: a broadcast
  (the result at an index reads the operand at the coordinates the broadcast keeps, 0 on a unit axis), a sum over
  axes (the result at an index is the sum over the removed coordinates: over the sixteen channels, over the
  256 × 256 pixels, or over everything), and the pointwise operations, which read their operands at the same index.
  The first half of this file states each of these for the shapes the reference uses, over curried coordinates.
  The second half reads the reference's composite terms (a masked count, a masked mean, the two twice-updated
  arrays, a cosine over channels, the exponential of a difference of cosines) for operand arrays known only through
  their values at the coordinates; the stage lemmas instantiate them.
-/
import proofs.«142478_j79491254714952_2_alg».proof.Proof.Gen.ReferenceIdeal.Run
import proofs.«142478_j79491254714952_2_alg».proof.Proof.SpecIdx
import Idealize.ShloMosaic.Lib.IdealHost
import Idealize.ShloMosaic.Lib.Pipeline.Value
import Idealize.ShloMosaic.Lib.ValueIdxCoords

noncomputable section

namespace Cert.ReferenceIdeal.RefValue

open Idealize.ShloMosaic Idealize.ShloMosaic.ValueIdx
open Cert.ReferenceIdeal Cert.ReferenceIdeal.Gen Cert.ReferenceIdeal.Value Cert.Spec
open scoped BigOperators

/-! ## Pointwise operations at an index -/

theorem hsqrt_apply {s : Shape} {φ : FTy} (x : FVec Ideal s φ) (i : s.Idx) : Host.sqrt x i = Ideal.sqrt (x i) := rfl
theorem hexp_apply {s : Shape} {φ : FTy} (x : FVec Ideal s φ) (i : s.Idx) : Host.exp x i = Ideal.exp (x i) := rfl

/-! ## Sums over a rank-3 index set -/

/-- A rank-3 index set is the product of its coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The reference's reductions at an index -/

/-- A channel sum: the reduce over axis 1 from the zero literal. -/
theorem red1_apply (x : FVec Ideal S32x16x256x256 .f32) (h : S32x16x256x256.ReducesTo [1] S32x256x256) (hu : 0 < S_.numel)
    (b : Fin 32) (r q : Fin 256) :
    Host.reduceAdd (F := Ideal) x (constant (F := Ideal) S_ .f32 0x00000000#32) h hu (ix3 b r q)
      = ∑ c : Fin 16, x (ix4 b c r q) := by
  show Ideal.hostReduceAdd h x (Ideal.ofBits .f32 0x00000000#32) (ix3 b r q) = _
  rw [Ideal.hostReduceAdd_single h (by decide), Ideal.ofBits_zero_f32, zero_add]
  refine Finset.sum_congr rfl fun k _ => ?_
  exact congrArg x (funext fun a => Fin.ext (by match a with | ⟨0, _⟩ => rfl | ⟨1, _⟩ => rfl | ⟨2, _⟩ => rfl | ⟨3, _⟩ => rfl))

/-- A pixel sum per (batch, channel): the reduce over axes 2 and 3 from the zero literal. -/
theorem red23_16_apply (x : FVec Ideal S32x16x256x256 .f32) (h : S32x16x256x256.ReducesTo [2, 3] S32x16) (hu : 0 < S_.numel)
    (b : Fin 32) (c : Fin 16) :
    Host.reduceAdd (F := Ideal) x (constant (F := Ideal) S_ .f32 0x00000000#32) h hu (ix2 b c)
      = ∑ r : Fin 256, ∑ q : Fin 256, x (ix4 b c r q) := by
  show Ideal.hostReduceAdd h x (Ideal.ofBits .f32 0x00000000#32) (ix2 b c) = _
  unfold Ideal.hostReduceAdd
  rw [Ideal.ofBits_zero_f32, zero_add]
  refine Eq.trans ?_ (Fintype.sum_prod_type' (fun r q : Fin 256 => x (ix4 b c r q)))
  refine Finset.sum_nbij' (fun i => ((i 2 : Fin 256), (i 3 : Fin 256))) (fun p => ix4 b c p.1 p.2) ?_ ?_ ?_ ?_ ?_
  · intro i _; exact Finset.mem_univ _
  · intro p _
    rw [Finset.mem_filter]
    refine ⟨Finset.mem_univ _, ?_⟩
    funext a
    exact Fin.ext (by match a with | ⟨0, _⟩ => rfl | ⟨1, _⟩ => rfl)
  · intro i hi
    rw [Finset.mem_filter] at hi
    have e0 : (i 0 : Fin 32) = b := Fin.ext (congrArg (fun j : S32x16.Idx => (j 0).val) hi.2)
    have e1 : (i 1 : Fin 16) = c := Fin.ext (congrArg (fun j : S32x16.Idx => (j 1).val) hi.2)
    rw [← e0, ← e1]
    exact (eq_ix4 i).symm
  · intro p _; rfl
  · intro i hi
    rw [Finset.mem_filter] at hi
    have e0 : (i 0 : Fin 32) = b := Fin.ext (congrArg (fun j : S32x16.Idx => (j 0).val) hi.2)
    have e1 : (i 1 : Fin 16) = c := Fin.ext (congrArg (fun j : S32x16.Idx => (j 1).val) hi.2)
    show x i = x (ix4 b c (i 2) (i 3))
    rw [← e0, ← e1]
    exact congrArg x (eq_ix4 i)

/-- A pixel sum per batch of a one-channel array. -/
theorem red23_1_apply (x : FVec Ideal S32x1x256x256 .f32) (h : S32x1x256x256.ReducesTo [2, 3] S32x1) (hu : 0 < S_.numel)
    (b : Fin 32) (u : Fin 1) :
    Host.reduceAdd (F := Ideal) x (constant (F := Ideal) S_ .f32 0x00000000#32) h hu (ix2 b u)
      = ∑ r : Fin 256, ∑ q : Fin 256, x (ix4 b u r q) := by
  show Ideal.hostReduceAdd h x (Ideal.ofBits .f32 0x00000000#32) (ix2 b u) = _
  unfold Ideal.hostReduceAdd
  rw [Ideal.ofBits_zero_f32, zero_add]
  refine Eq.trans ?_ (Fintype.sum_prod_type' (fun r q : Fin 256 => x (ix4 b u r q)))
  refine Finset.sum_nbij' (fun i => ((i 2 : Fin 256), (i 3 : Fin 256))) (fun p => ix4 b u p.1 p.2) ?_ ?_ ?_ ?_ ?_
  · intro i _; exact Finset.mem_univ _
  · intro p _
    rw [Finset.mem_filter]
    refine ⟨Finset.mem_univ _, ?_⟩
    funext a
    exact Fin.ext (by match a with | ⟨0, _⟩ => rfl | ⟨1, _⟩ => rfl)
  · intro i hi
    rw [Finset.mem_filter] at hi
    have e0 : (i 0 : Fin 32) = b := Fin.ext (congrArg (fun j : S32x1.Idx => (j 0).val) hi.2)
    have e1 : (i 1 : Fin 1) = u := Subsingleton.elim (α := Fin 1) _ _
    rw [← e0, ← e1]
    exact (eq_ix4 i).symm
  · intro p _; rfl
  · intro i hi
    rw [Finset.mem_filter] at hi
    have e0 : (i 0 : Fin 32) = b := Fin.ext (congrArg (fun j : S32x1.Idx => (j 0).val) hi.2)
    have e1 : (i 1 : Fin 1) = u := Subsingleton.elim (α := Fin 1) _ _
    show x i = x (ix4 b u (i 2) (i 3))
    rw [← e0, ← e1]
    exact congrArg x (eq_ix4 i)

/-- The sum over every pixel of every batch: the reduce over all three axes from the zero literal. -/
theorem redAll_apply (x : FVec Ideal S32x256x256 .f32) (h : S32x256x256.ReducesTo [0, 1, 2] S_) (hu : 0 < S_.numel) (j : S_.Idx) :
    Host.reduceAdd (F := Ideal) x (constant (F := Ideal) S_ .f32 0x00000000#32) h hu j
      = ∑ b : Fin 32, ∑ r : Fin 256, ∑ q : Fin 256, x (ix3 b r q) := by
  show Ideal.hostReduceAdd h x (Ideal.ofBits .f32 0x00000000#32) j = _
  rw [Ideal.hostReduceAdd_total h (fun b => b.elim0), Ideal.ofBits_zero_f32, zero_add]
  exact sum_idx3 x

/-! ## The reference's broadcasts at an index -/

theorem bc_3to4_apply {α : Type} (x : S32x256x256.Idx → α) (h : S32x256x256.BroadcastsInDim S32x1x256x256 (![0, 2, 3] : Fin 3 → Fin S32x1x256x256.rank))
    (b : Fin 32) (u : Fin 1) (r q : Fin 256) :
    broadcastInDim S32x1x256x256 ![0, 2, 3] h x (ix4 b u r q) = x (ix3 b r q) := by
  unfold broadcastInDim
  exact congrArg x (funext fun a => Fin.ext (by match a with | ⟨0, _⟩ => rfl | ⟨1, _⟩ => rfl | ⟨2, _⟩ => rfl))

theorem bc_1to16_apply {α : Type} (x : S32x1x256x256.Idx → α) (h : S32x1x256x256.BroadcastsInDim S32x16x256x256 (![0, 1, 2, 3] : Fin 4 → Fin S32x16x256x256.rank))
    (b : Fin 32) (c : Fin 16) (r q : Fin 256) :
    broadcastInDim S32x16x256x256 ![0, 1, 2, 3] h x (ix4 b c r q) = x (ix4 b 0 r q) := by
  unfold broadcastInDim
  exact congrArg x (funext fun a => Fin.ext (by match a with | ⟨0, _⟩ => rfl | ⟨1, _⟩ => rfl | ⟨2, _⟩ => rfl | ⟨3, _⟩ => rfl))

theorem bc_cnt_apply {α : Type} (x : S32x1.Idx → α) (h : S32x1.BroadcastsInDim S32x16 (![0, 1] : Fin 2 → Fin S32x16.rank))
    (b : Fin 32) (c : Fin 16) :
    broadcastInDim S32x16 ![0, 1] h x (ix2 b c) = x (ix2 b 0) := by
  unfold broadcastInDim
  exact congrArg x (funext fun a => Fin.ext (by match a with | ⟨0, _⟩ => rfl | ⟨1, _⟩ => rfl))

theorem bc_mean_apply {α : Type} (x : S32x16.Idx → α) (h : S32x16.BroadcastsInDim S32x16x1x1 (![0, 1] : Fin 2 → Fin S32x16x1x1.rank))
    (b : Fin 32) (c : Fin 16) (u v : Fin 1) :
    broadcastInDim S32x16x1x1 ![0, 1] h x (ix4 b c u v) = x (ix2 b c) := by
  unfold broadcastInDim
  exact congrArg x (funext fun a => Fin.ext (by match a with | ⟨0, _⟩ => rfl | ⟨1, _⟩ => rfl))

theorem bc_pix_apply {α : Type} (x : S32x16x1x1.Idx → α) (h : S32x16x1x1.BroadcastsInDim S32x16x256x256 (![0, 1, 2, 3] : Fin 4 → Fin S32x16x256x256.rank))
    (b : Fin 32) (c : Fin 16) (r q : Fin 256) :
    broadcastInDim S32x16x256x256 ![0, 1, 2, 3] h x (ix4 b c r q) = x (ix4 b c 0 0) := by
  unfold broadcastInDim
  exact congrArg x (funext fun a => Fin.ext (by match a with | ⟨0, _⟩ => rfl | ⟨1, _⟩ => rfl | ⟨2, _⟩ => rfl | ⟨3, _⟩ => rfl))

/-! ## A label word compared with a literal -/

/-- The labels are converted to floats as signed integers; comparing the result with the literal 0.0 decides
    whether the word is zero, and the one-bit answer converts to 1 or 0. -/
theorem ind_zero (g : BitVec 32) :
    (((BitVec.ofBool (decide ((((g.toInt : ℝ)) : EReal) = Ideal.ofBits .f32 0x00000000#32))).toNat : ℝ) : EReal)
      = if g = 0#32 then 1 else 0 := by
  rw [Ideal.ofBits_zero_f32]
  by_cases h : g = 0#32
  · subst h; simp
  · have hne : ¬ (((g.toInt : ℝ)) : EReal) = 0 := by
      intro e
      apply h
      have : g.toInt = 0 := by exact_mod_cast e
      exact BitVec.toInt_inj.mp (by simpa using this)
    simp [h, hne]

/-- The same with the literal 1.0: it decides whether the word is one. -/
theorem ind_one (g : BitVec 32) :
    (((BitVec.ofBool (decide ((((g.toInt : ℝ)) : EReal) = Ideal.ofBits .f32 0x3F800000#32))).toNat : ℝ) : EReal)
      = if g = 1#32 then 1 else 0 := by
  rw [Ideal.ofBits_one_f32]
  by_cases h : g = 1#32
  · subst h; simp
  · have hne : ¬ (((g.toInt : ℝ)) : EReal) = 1 := by
      intro e
      apply h
      have : g.toInt = 1 := by exact_mod_cast e
      exact BitVec.toInt_inj.mp (by simpa using this)
    simp [h, hne]

/-! ## The reference's composite stages over arbitrary operand arrays

Each lemma reads one of the reference's composite terms at an index, for operand arrays known only through their
values at the coordinates: a mask array (one channel), a feature array (sixteen channels), a count array (per batch),
a mean array (per batch and channel). -/

section Generic
variable (M M0 M1 : FVec Ideal S32x1x256x256 .f32) (Fe Ce Fa : FVec Ideal S32x16x256x256 .f32)
  (Cn : FVec Ideal S32x1 .f32) (Me0 Me1 : FVec Ideal S32x16x1x1 .f32)
  (μ μ0 μ1 : Fin 32 → Fin 256 → Fin 256 → EReal) (φ ψ χ : Fin 32 → Fin 16 → Fin 256 → Fin 256 → EReal)
  (κ : Fin 32 → EReal) (m0 m1 : Fin 32 → Fin 16 → EReal)

/-- A masked pixel count plus ε₆. -/
theorem cnt_apply (hM : ∀ b r q, M (ix4 b 0 r q) = μ b r q) (b : Fin 32) :
    (addf (F := Ideal) (Host.reduceAdd (F := Ideal) M (constant (F := Ideal) S_ .f32 0x00000000#32) reducesTo_S32x1x256x256_S32x1_d2_3 h_S_) (broadcastInDim S32x1 ![] bcast_S_S32x1 (constant (F := Ideal) S_ .f32 0x358637BD#32))) (ix2 b 0)
      = (∑ r : Fin 256, ∑ q : Fin 256, μ b r q) + e6 := by
  rw [addf_apply, red23_1_apply, broadcastInDim_scalar_apply, constant_apply]
  refine congrArg (fun s : EReal => s + e6) ?_
  exact Finset.sum_congr rfl fun r _ => Finset.sum_congr rfl fun q _ => hM b r q

/-- A masked mean over the pixels: the masked pixel sum divided by the count. -/
theorem mean_apply (hM : ∀ b r q, M (ix4 b 0 r q) = μ b r q) (hF : ∀ b c r q, Fe (ix4 b c r q) = φ b c r q)
    (hC : ∀ b, Cn (ix2 b 0) = κ b) (b : Fin 32) (c : Fin 16) (u v : Fin 1) :
    (broadcastInDim S32x16x1x1 ![0, 1] bcast_S32x16_S32x16x1x1_0_1 (Host.divf (F := Ideal) (Host.reduceAdd (F := Ideal) (mulf (F := Ideal) (broadcastInDim S32x16x256x256 ![0, 1, 2, 3] bcast_S32x1x256x256_S32x16x256x256_0_1_2_3 M) Fe) (constant (F := Ideal) S_ .f32 0x00000000#32) reducesTo_S32x16x256x256_S32x16_d2_3 h_S_) (broadcastInDim S32x16 ![0, 1] bcast_S32x1_S32x16_0_1 Cn))) (ix4 b c u v)
      = Ideal.div (∑ r : Fin 256, ∑ q : Fin 256, μ b r q * φ b c r q) (κ b) := by
  rw [bc_mean_apply, hostDivf_apply, red23_16_apply, bc_cnt_apply, hC]
  refine congrArg (fun s : EReal => Ideal.div s (κ b)) ?_
  refine Finset.sum_congr rfl fun r _ => Finset.sum_congr rfl fun q _ => ?_
  rw [mulf_apply, bc_1to16_apply, hM, hF]

/-- The twice-updated centre array. -/
theorem cen_apply (hM0 : ∀ b r q, M0 (ix4 b 0 r q) = μ0 b r q) (hM1 : ∀ b r q, M1 (ix4 b 0 r q) = μ1 b r q)
    (hF : ∀ b c r q, Fe (ix4 b c r q) = φ b c r q)
    (hMe0 : ∀ b c, Me0 (ix4 b c 0 0) = m0 b c) (hMe1 : ∀ b c, Me1 (ix4 b c 0 0) = m1 b c)
    (b : Fin 32) (c : Fin 16) (r q : Fin 256) :
    (addf (F := Ideal) (mulf (F := Ideal) (broadcastInDim S32x16x256x256 ![0, 1, 2, 3] bcast_S32x1x256x256_S32x16x256x256_0_1_2_3 (subf (F := Ideal) (broadcastInDim S32x1x256x256 ![] bcast_S_S32x1x256x256 (constant (F := Ideal) S_ .f32 0x3F800000#32)) M1)) (addf (F := Ideal) (mulf (F := Ideal) (broadcastInDim S32x16x256x256 ![0, 1, 2, 3] bcast_S32x1x256x256_S32x16x256x256_0_1_2_3 (subf (F := Ideal) (broadcastInDim S32x1x256x256 ![] bcast_S_S32x1x256x256 (constant (F := Ideal) S_ .f32 0x3F800000#32)) M0)) Fe) (mulf (F := Ideal) (broadcastInDim S32x16x256x256 ![0, 1, 2, 3] bcast_S32x1x256x256_S32x16x256x256_0_1_2_3 M0) (broadcastInDim S32x16x256x256 ![0, 1, 2, 3] bcast_S32x16x1x1_S32x16x256x256_0_1_2_3 Me0)))) (mulf (F := Ideal) (broadcastInDim S32x16x256x256 ![0, 1, 2, 3] bcast_S32x1x256x256_S32x16x256x256_0_1_2_3 M1) (broadcastInDim S32x16x256x256 ![0, 1, 2, 3] bcast_S32x16x1x1_S32x16x256x256_0_1_2_3 Me1))) (ix4 b c r q)
      = (1 - μ1 b r q) * ((1 - μ0 b r q) * φ b c r q + μ0 b r q * m0 b c) + μ1 b r q * m1 b c := by
  simp only [addf_apply, mulf_apply]
  rw [bc_1to16_apply, bc_1to16_apply, bc_1to16_apply, bc_1to16_apply, bc_pix_apply, bc_pix_apply]
  simp only [subf_apply]
  rw [broadcastInDim_scalar_apply, constant_apply, Ideal.ofBits_one_f32, hM0, hM1, hF, hMe0, hMe1]

/-- The twice-updated far-centre array. -/
theorem far_apply (hM0 : ∀ b r q, M0 (ix4 b 0 r q) = μ0 b r q) (hM1 : ∀ b r q, M1 (ix4 b 0 r q) = μ1 b r q)
    (hF : ∀ b c r q, Fe (ix4 b c r q) = φ b c r q)
    (hMe0 : ∀ b c, Me0 (ix4 b c 0 0) = m0 b c) (hMe1 : ∀ b c, Me1 (ix4 b c 0 0) = m1 b c)
    (b : Fin 32) (c : Fin 16) (r q : Fin 256) :
    (addf (F := Ideal) (mulf (F := Ideal) (broadcastInDim S32x16x256x256 ![0, 1, 2, 3] bcast_S32x1x256x256_S32x16x256x256_0_1_2_3 M1) (addf (F := Ideal) (mulf (F := Ideal) (broadcastInDim S32x16x256x256 ![0, 1, 2, 3] bcast_S32x1x256x256_S32x16x256x256_0_1_2_3 M0) Fe) (mulf (F := Ideal) (broadcastInDim S32x16x256x256 ![0, 1, 2, 3] bcast_S32x1x256x256_S32x16x256x256_0_1_2_3 (subf (F := Ideal) (broadcastInDim S32x1x256x256 ![] bcast_S_S32x1x256x256 (constant (F := Ideal) S_ .f32 0x3F800000#32)) M0)) (broadcastInDim S32x16x256x256 ![0, 1, 2, 3] bcast_S32x16x1x1_S32x16x256x256_0_1_2_3 Me0)))) (mulf (F := Ideal) (broadcastInDim S32x16x256x256 ![0, 1, 2, 3] bcast_S32x1x256x256_S32x16x256x256_0_1_2_3 (subf (F := Ideal) (broadcastInDim S32x1x256x256 ![] bcast_S_S32x1x256x256 (constant (F := Ideal) S_ .f32 0x3F800000#32)) M1)) (broadcastInDim S32x16x256x256 ![0, 1, 2, 3] bcast_S32x16x1x1_S32x16x256x256_0_1_2_3 Me1))) (ix4 b c r q)
      = μ1 b r q * (μ0 b r q * φ b c r q + (1 - μ0 b r q) * m0 b c) + (1 - μ1 b r q) * m1 b c := by
  simp only [addf_apply, mulf_apply]
  rw [bc_1to16_apply, bc_1to16_apply, bc_1to16_apply, bc_1to16_apply, bc_pix_apply, bc_pix_apply]
  simp only [subf_apply]
  rw [broadcastInDim_scalar_apply, constant_apply, Ideal.ofBits_one_f32, hM0, hM1, hF, hMe0, hMe1]

/-- The cosine over the channels of two sixteen-channel arrays at a pixel. -/
theorem cos_apply (hF : ∀ b c r q, Fe (ix4 b c r q) = φ b c r q) (hC : ∀ b c r q, Ce (ix4 b c r q) = ψ b c r q)
    (b : Fin 32) (r q : Fin 256) :
    (Host.divf (F := Ideal) (Host.reduceAdd (F := Ideal) (mulf (F := Ideal) Fe Ce) (constant (F := Ideal) S_ .f32 0x00000000#32) reducesTo_S32x16x256x256_S32x256x256_d1 h_S_) (maximumf (F := Ideal) (mulf (F := Ideal) (Host.sqrt (F := Ideal) (Host.reduceAdd (F := Ideal) (mulf (F := Ideal) Fe Fe) (constant (F := Ideal) S_ .f32 0x00000000#32) reducesTo_S32x16x256x256_S32x256x256_d1 h_S_)) (Host.sqrt (F := Ideal) (Host.reduceAdd (F := Ideal) (mulf (F := Ideal) Ce Ce) (constant (F := Ideal) S_ .f32 0x00000000#32) reducesTo_S32x16x256x256_S32x256x256_d1 h_S_))) (broadcastInDim S32x256x256 ![] bcast_S_S32x256x256 (constant (F := Ideal) S_ .f32 0x322BCC77#32)))) (ix3 b r q)
      = cosv (fun c => φ b c r q) (fun c => ψ b c r q) := by
  rw [hostDivf_apply, maximumf_apply, mulf_apply, hsqrt_apply, hsqrt_apply, red1_apply, red1_apply, red1_apply,
    broadcastInDim_scalar_apply, constant_apply]
  simp only [mulf_apply, hF, hC]
  rfl

/-- The exponential of the difference of the two cosines at a pixel. -/
theorem pc_apply (hF : ∀ b c r q, Fe (ix4 b c r q) = φ b c r q) (hC : ∀ b c r q, Ce (ix4 b c r q) = ψ b c r q)
    (hFa : ∀ b c r q, Fa (ix4 b c r q) = χ b c r q) (b : Fin 32) (r q : Fin 256) :
    (Host.exp (F := Ideal) (subf (F := Ideal) (Host.divf (F := Ideal) (Host.reduceAdd (F := Ideal) (mulf (F := Ideal) Fe Ce) (constant (F := Ideal) S_ .f32 0x00000000#32) reducesTo_S32x16x256x256_S32x256x256_d1 h_S_) (maximumf (F := Ideal) (mulf (F := Ideal) (Host.sqrt (F := Ideal) (Host.reduceAdd (F := Ideal) (mulf (F := Ideal) Fe Fe) (constant (F := Ideal) S_ .f32 0x00000000#32) reducesTo_S32x16x256x256_S32x256x256_d1 h_S_)) (Host.sqrt (F := Ideal) (Host.reduceAdd (F := Ideal) (mulf (F := Ideal) Ce Ce) (constant (F := Ideal) S_ .f32 0x00000000#32) reducesTo_S32x16x256x256_S32x256x256_d1 h_S_))) (broadcastInDim S32x256x256 ![] bcast_S_S32x256x256 (constant (F := Ideal) S_ .f32 0x322BCC77#32)))) (Host.divf (F := Ideal) (Host.reduceAdd (F := Ideal) (mulf (F := Ideal) Fe Fa) (constant (F := Ideal) S_ .f32 0x00000000#32) reducesTo_S32x16x256x256_S32x256x256_d1 h_S_) (maximumf (F := Ideal) (mulf (F := Ideal) (Host.sqrt (F := Ideal) (Host.reduceAdd (F := Ideal) (mulf (F := Ideal) Fe Fe) (constant (F := Ideal) S_ .f32 0x00000000#32) reducesTo_S32x16x256x256_S32x256x256_d1 h_S_)) (Host.sqrt (F := Ideal) (Host.reduceAdd (F := Ideal) (mulf (F := Ideal) Fa Fa) (constant (F := Ideal) S_ .f32 0x00000000#32) reducesTo_S32x16x256x256_S32x256x256_d1 h_S_))) (broadcastInDim S32x256x256 ![] bcast_S_S32x256x256 (constant (F := Ideal) S_ .f32 0x322BCC77#32)))))) (ix3 b r q)
      = Ideal.exp (cosv (fun c => φ b c r q) (fun c => ψ b c r q) - cosv (fun c => φ b c r q) (fun c => χ b c r q)) := by
  rw [hexp_apply, subf_apply, cos_apply Fe Ce φ ψ hF hC, cos_apply Fe Fa φ χ hF hFa]

end Generic

end Cert.ReferenceIdeal.RefValue

end
-- ==== Proof.RefValue2.lean ====
/-
  The reference's named intermediates as formulas of the argument arrays, index by index.

  For a valuation whose three argument buffers hold A0, A1 (floats, [32, 16, 256, 256]) and G (label words,
  [32, 256, 256]): the normalised features, the label word as a signed integer, the two class indicators (the
  comparison of the converted label with the literals 0.0 and 1.0 decides whether the word is 0 resp. 1), the two
  counts plus ε₆, the four class means, and the four twice-updated arrays (centre and far centre of each side).
  Each is the instance of one composite lemma at the stages below it.
-/
import proofs.«142478_j79491254714952_2_alg».proof.Proof.RefValue1

noncomputable section

namespace Cert.ReferenceIdeal.RefValue

open Idealize.ShloMosaic Idealize.ShloMosaic.ValueIdx
open Cert.ReferenceIdeal Cert.ReferenceIdeal.Gen Cert.ReferenceIdeal.Value Cert.Spec
open scoped BigOperators

/-! ## The first stages -/

section Stages
variable (V0 : Valuation τ sig (Elt Ideal)) (A0 A1 : Sh4.Idx → EReal) (G : Sh3.Idx → BitVec 32)

/-- %7: the normalised first argument. -/
theorem res_v7_apply (h0 : V0 (Proc.devRef .tc main_arg0) = A0) (b : Fin 32) (c : Fin 16) (r q : Fin 256) :
    res_main_v7 (F := Ideal) V0 (ix4 b c r q) = feat (arr4 A0) b c r q := by
  unfold res_main_v7
  rw [h0]
  rw [hostDivf_apply, bc_1to16_apply, maximumf_apply, hsqrt_apply, bc_3to4_apply, broadcastInDim_scalar_apply, red1_apply]
  simp only [mulf_apply, constant_apply]
  rfl

/-- %15: the normalised second argument. -/
theorem res_v15_apply (h1 : V0 (Proc.devRef .tc main_arg1) = A1) (b : Fin 32) (c : Fin 16) (r q : Fin 256) :
    res_main_v15 (F := Ideal) V0 (ix4 b c r q) = feat (arr4 A1) b c r q := by
  unfold res_main_v15
  rw [h1]
  rw [hostDivf_apply, bc_1to16_apply, maximumf_apply, hsqrt_apply, bc_3to4_apply, broadcastInDim_scalar_apply, red1_apply]
  simp only [mulf_apply, constant_apply]
  rfl

/-- %17: the label word read as a signed integer. -/
theorem res_v17_apply (h2 : V0 (Proc.devRef .tc main_arg2) = G) (b : Fin 32) (r q : Fin 256) :
    res_main_v17 (F := Ideal) V0 (ix4 b 0 r q) = (((G (ix3 b r q)).toInt : ℝ) : EReal) := by
  unfold res_main_v17
  rw [h2]
  show (((broadcastInDim S32x1x256x256 ![0, 2, 3] _ G (ix4 b 0 r q)).toInt : ℝ) : EReal) = _
  rw [bc_3to4_apply]

/-- %20: the indicator of class 0. -/
theorem res_v20_apply (h2 : V0 (Proc.devRef .tc main_arg2) = G) (b : Fin 32) (r q : Fin 256) :
    res_main_v20 (F := Ideal) V0 (ix4 b 0 r q) = ind 0 (lab G) b r q := by
  unfold res_main_v20
  show (((BitVec.ofBool (decide (res_main_v17 (F := Ideal) V0 (ix4 b 0 r q)
    = broadcastInDim S32x1x256x256 ![] _ (constant (F := Ideal) S_ .f32 0x00000000#32) (ix4 b 0 r q)))).toNat : ℝ) : EReal) = _
  rw [res_v17_apply V0 G h2, broadcastInDim_scalar_apply, constant_apply]
  exact ind_zero _

/-- %70: the indicator of class 1. -/
theorem res_v70_apply (h2 : V0 (Proc.devRef .tc main_arg2) = G) (b : Fin 32) (r q : Fin 256) :
    res_main_v70 (F := Ideal) V0 (ix4 b 0 r q) = ind 1 (lab G) b r q := by
  unfold res_main_v70
  show (((BitVec.ofBool (decide (res_main_v17 (F := Ideal) V0 (ix4 b 0 r q)
    = broadcastInDim S32x1x256x256 ![] _ (constant (F := Ideal) S_ .f32 0x3F800000#32) (ix4 b 0 r q)))).toNat : ℝ) : EReal) = _
  rw [res_v17_apply V0 G h2, broadcastInDim_scalar_apply, constant_apply]
  exact ind_one _

/-- %23: the class-0 pixel count plus ε₆. -/
theorem res_v23_apply (h2 : V0 (Proc.devRef .tc main_arg2) = G) (b : Fin 32) :
    res_main_v23 (F := Ideal) V0 (ix2 b 0) = cntR 0 (lab G) b := by
  unfold res_main_v23
  exact cnt_apply _ (ind 0 (lab G)) (res_v20_apply V0 G h2) b

/-- %73: the class-1 pixel count plus ε₆. -/
theorem res_v73_apply (h2 : V0 (Proc.devRef .tc main_arg2) = G) (b : Fin 32) :
    res_main_v73 (F := Ideal) V0 (ix2 b 0) = cntR 1 (lab G) b := by
  unfold res_main_v73
  exact cnt_apply _ (ind 1 (lab G)) (res_v70_apply V0 G h2) b

/-- %29: the class-0 mean of the first argument's features. -/
theorem res_v29_apply (h0 : V0 (Proc.devRef .tc main_arg0) = A0) (h2 : V0 (Proc.devRef .tc main_arg2) = G)
    (b : Fin 32) (c : Fin 16) (u v : Fin 1) :
    res_main_v29 (F := Ideal) V0 (ix4 b c u v) = meanR 0 (arr4 A0) (lab G) b c := by
  unfold res_main_v29
  exact mean_apply _ _ _ (ind 0 (lab G)) (feat (arr4 A0)) (cntR 0 (lab G))
    (res_v20_apply V0 G h2) (res_v7_apply V0 A0 h0) (res_v23_apply V0 G h2) b c u v

/-- %35: the class-0 mean of the second argument's features. -/
theorem res_v35_apply (h1 : V0 (Proc.devRef .tc main_arg1) = A1) (h2 : V0 (Proc.devRef .tc main_arg2) = G)
    (b : Fin 32) (c : Fin 16) (u v : Fin 1) :
    res_main_v35 (F := Ideal) V0 (ix4 b c u v) = meanR 0 (arr4 A1) (lab G) b c := by
  unfold res_main_v35
  exact mean_apply _ _ _ (ind 0 (lab G)) (feat (arr4 A1)) (cntR 0 (lab G))
    (res_v20_apply V0 G h2) (res_v15_apply V0 A1 h1) (res_v23_apply V0 G h2) b c u v

/-- %79: the class-1 mean of the first argument's features. -/
theorem res_v79_apply (h0 : V0 (Proc.devRef .tc main_arg0) = A0) (h2 : V0 (Proc.devRef .tc main_arg2) = G)
    (b : Fin 32) (c : Fin 16) (u v : Fin 1) :
    res_main_v79 (F := Ideal) V0 (ix4 b c u v) = meanR 1 (arr4 A0) (lab G) b c := by
  unfold res_main_v79
  exact mean_apply _ _ _ (ind 1 (lab G)) (feat (arr4 A0)) (cntR 1 (lab G))
    (res_v70_apply V0 G h2) (res_v7_apply V0 A0 h0) (res_v73_apply V0 G h2) b c u v

/-- %85: the class-1 mean of the second argument's features. -/
theorem res_v85_apply (h1 : V0 (Proc.devRef .tc main_arg1) = A1) (h2 : V0 (Proc.devRef .tc main_arg2) = G)
    (b : Fin 32) (c : Fin 16) (u v : Fin 1) :
    res_main_v85 (F := Ideal) V0 (ix4 b c u v) = meanR 1 (arr4 A1) (lab G) b c := by
  unfold res_main_v85
  exact mean_apply _ _ _ (ind 1 (lab G)) (feat (arr4 A1)) (cntR 1 (lab G))
    (res_v70_apply V0 G h2) (res_v15_apply V0 A1 h1) (res_v73_apply V0 G h2) b c u v

/-- %93: the first argument's centre array. -/
theorem res_v93_apply (h0 : V0 (Proc.devRef .tc main_arg0) = A0) (h2 : V0 (Proc.devRef .tc main_arg2) = G)
    (b : Fin 32) (c : Fin 16) (r q : Fin 256) :
    res_main_v93 (F := Ideal) V0 (ix4 b c r q) = cenR (arr4 A0) (lab G) b c r q := by
  unfold res_main_v93
  exact cen_apply _ _ _ _ _ (ind 0 (lab G)) (ind 1 (lab G)) (feat (arr4 A0)) (meanR 0 (arr4 A0) (lab G)) (meanR 1 (arr4 A0) (lab G))
    (res_v20_apply V0 G h2) (res_v70_apply V0 G h2) (res_v7_apply V0 A0 h0)
    (fun b c => res_v29_apply V0 A0 G h0 h2 b c 0 0) (fun b c => res_v79_apply V0 A0 G h0 h2 b c 0 0) b c r q

/-- %101: the second argument's centre array. -/
theorem res_v101_apply (h1 : V0 (Proc.devRef .tc main_arg1) = A1) (h2 : V0 (Proc.devRef .tc main_arg2) = G)
    (b : Fin 32) (c : Fin 16) (r q : Fin 256) :
    res_main_v101 (F := Ideal) V0 (ix4 b c r q) = cenR (arr4 A1) (lab G) b c r q := by
  unfold res_main_v101
  exact cen_apply _ _ _ _ _ (ind 0 (lab G)) (ind 1 (lab G)) (feat (arr4 A1)) (meanR 0 (arr4 A1) (lab G)) (meanR 1 (arr4 A1) (lab G))
    (res_v20_apply V0 G h2) (res_v70_apply V0 G h2) (res_v15_apply V0 A1 h1)
    (fun b c => res_v35_apply V0 A1 G h1 h2 b c 0 0) (fun b c => res_v85_apply V0 A1 G h1 h2 b c 0 0) b c r q

/-- %109: the first argument's far-centre array. -/
theorem res_v109_apply (h0 : V0 (Proc.devRef .tc main_arg0) = A0) (h2 : V0 (Proc.devRef .tc main_arg2) = G)
    (b : Fin 32) (c : Fin 16) (r q : Fin 256) :
    res_main_v109 (F := Ideal) V0 (ix4 b c r q) = farR (arr4 A0) (lab G) b c r q := by
  unfold res_main_v109
  exact far_apply _ _ _ _ _ (ind 0 (lab G)) (ind 1 (lab G)) (feat (arr4 A0)) (meanR 0 (arr4 A0) (lab G)) (meanR 1 (arr4 A0) (lab G))
    (res_v20_apply V0 G h2) (res_v70_apply V0 G h2) (res_v7_apply V0 A0 h0)
    (fun b c => res_v29_apply V0 A0 G h0 h2 b c 0 0) (fun b c => res_v79_apply V0 A0 G h0 h2 b c 0 0) b c r q

/-- %117: the second argument's far-centre array. -/
theorem res_v117_apply (h1 : V0 (Proc.devRef .tc main_arg1) = A1) (h2 : V0 (Proc.devRef .tc main_arg2) = G)
    (b : Fin 32) (c : Fin 16) (r q : Fin 256) :
    res_main_v117 (F := Ideal) V0 (ix4 b c r q) = farR (arr4 A1) (lab G) b c r q := by
  unfold res_main_v117
  exact far_apply _ _ _ _ _ (ind 0 (lab G)) (ind 1 (lab G)) (feat (arr4 A1)) (meanR 0 (arr4 A1) (lab G)) (meanR 1 (arr4 A1) (lab G))
    (res_v20_apply V0 G h2) (res_v70_apply V0 G h2) (res_v15_apply V0 A1 h1)
    (fun b c => res_v35_apply V0 A1 G h1 h2 b c 0 0) (fun b c => res_v85_apply V0 A1 G h1 h2 b c 0 0) b c r q

end Stages

end Cert.ReferenceIdeal.RefValue

end
-- ==== Proof.RefValue.lean ====
/-
  The reference's value: per pixel, the difference of the two sides' exponentials of (cosine with the centre
  minus cosine with the far centre); the result is the sum over all 32 · 256 · 256 pixels of its square, from the
  zero literal, divided by the literal 2097152.
-/
import proofs.«142478_j79491254714952_2_alg».proof.Proof.RefValue2

noncomputable section

namespace Cert.ReferenceIdeal.RefValue

open Idealize.ShloMosaic Idealize.ShloMosaic.ValueIdx
open Cert.ReferenceIdeal Cert.ReferenceIdeal.Gen Cert.ReferenceIdeal.Value Cert.Spec
open scoped BigOperators

section Stages
variable (V0 : Valuation τ sig (Elt Ideal)) (A0 A1 : Sh4.Idx → EReal) (G : Sh3.Idx → BitVec 32)

/-- %170: the per-pixel difference of the two sides. -/
theorem res_v170_apply (h0 : V0 (Proc.devRef .tc main_arg0) = A0) (h1 : V0 (Proc.devRef .tc main_arg1) = A1)
    (h2 : V0 (Proc.devRef .tc main_arg2) = G) (b : Fin 32) (r q : Fin 256) :
    res_main_v170 (F := Ideal) V0 (ix3 b r q) = diffR (arr4 A0) (arr4 A1) (lab G) b r q := by
  unfold res_main_v170
  rw [subf_apply,
    pc_apply _ _ _ (feat (arr4 A0)) (cenR (arr4 A0) (lab G)) (farR (arr4 A0) (lab G))
      (res_v7_apply V0 A0 h0) (res_v93_apply V0 A0 G h0 h2) (res_v109_apply V0 A0 G h0 h2),
    pc_apply _ _ _ (feat (arr4 A1)) (cenR (arr4 A1) (lab G)) (farR (arr4 A1) (lab G))
      (res_v15_apply V0 A1 h1) (res_v101_apply V0 A1 G h1 h2) (res_v117_apply V0 A1 G h1 h2)]
  rfl

/-- THE REFERENCE'S VALUE: the mean over all pixels of the squared per-pixel difference. -/
theorem ref_value (h0 : V0 (Proc.devRef .tc main_arg0) = A0) (h1 : V0 (Proc.devRef .tc main_arg1) = A1)
    (h2 : V0 (Proc.devRef .tc main_arg2) = G) :
    (Host.divf (F := Ideal) (Host.reduceAdd (F := Ideal) (mulf (F := Ideal) (res_main_v170 (F := Ideal) V0) (res_main_v170 (F := Ideal) V0))
        (constant (F := Ideal) S_ .f32 0x00000000#32) reducesTo_S32x256x256_S_d0_1_2 h_S_)
      (constant (F := Ideal) S_ .f32 0x4A000000#32) : S_.Idx → EReal)
      = fun _ => refE (arr4 A0) (arr4 A1) (lab G) := by
  funext j
  rw [hostDivf_apply, redAll_apply, constant_apply]
  refine congrArg (fun s : EReal => Ideal.div s nAll) ?_
  refine Finset.sum_congr rfl fun b _ => Finset.sum_congr rfl fun r _ => Finset.sum_congr rfl fun q _ => ?_
  rw [mulf_apply, res_v170_apply V0 A0 A1 G h0 h1 h2]

end Stages

end Cert.ReferenceIdeal.RefValue

end
-- ==== Proof.Algebra1.lean ====
/-
  Tools for the algebra on the extended reals: the float literals as real numbers, a predicate
  "is a real number" on the extended reals with its closure under the operations the two
  formulas use, finite sums of coerced reals, and the splitting of a sum over the 256 rows into
  the two tiles of 128 rows.
-/
import proofs.«142478_j79491254714952_2_alg».proof.Proof.Spec
import Mathlib.Data.EReal.Basic
import Mathlib.Data.EReal.Operations
import Mathlib.Analysis.SpecialFunctions.Pow.Real
import Mathlib.Tactic

noncomputable section

namespace Cert.Spec

open Idealize.ShloMosaic

/-! ## The literals -/

theorem lit_one : Ideal.ofBits .f32 0x3F800000#32 = ((1 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem nPix_eq : nPix = ((65536 : ℝ) : EReal) := by
  simp [nPix, Ideal.ofBits, Ideal.ieee, -EReal.coe_mul]; norm_num

theorem e12_pos : ∃ ε : ℝ, 0 < ε ∧ e12 = (ε : EReal) := by
  have h : ∃ ε : ℝ, e12 = (ε : EReal) ∧ 0 < ε := by
    simp only [e12, Ideal.ofBits, Ideal.ieee]
    simp [-EReal.coe_mul]
  obtain ⟨ε, h1, h2⟩ := h
  exact ⟨ε, h2, h1⟩

theorem e8_pos : ∃ ε : ℝ, 0 < ε ∧ e8 = (ε : EReal) := by
  have h : ∃ ε : ℝ, e8 = (ε : EReal) ∧ 0 < ε := by
    simp only [e8, Ideal.ofBits, Ideal.ieee]
    simp [-EReal.coe_mul]
  obtain ⟨ε, h1, h2⟩ := h
  exact ⟨ε, h2, h1⟩

theorem e6_pos : ∃ ε : ℝ, 0 < ε ∧ e6 = (ε : EReal) := by
  have h : ∃ ε : ℝ, e6 = (ε : EReal) ∧ 0 < ε := by
    simp only [e6, Ideal.ofBits, Ideal.ieee]
    simp [-EReal.coe_mul]
  obtain ⟨ε, h1, h2⟩ := h
  exact ⟨ε, h2, h1⟩

/-! ## Being a real number -/

/-- The extended real x is (the coercion of) a real number. -/
def IsR (x : EReal) : Prop := ∃ r : ℝ, x = (r : EReal)

theorem IsR.coe (r : ℝ) : IsR (r : EReal) := ⟨r, rfl⟩
theorem IsR.zero : IsR 0 := ⟨0, rfl⟩
theorem IsR.one : IsR 1 := ⟨1, rfl⟩

theorem IsR.add {x y : EReal} : IsR x → IsR y → IsR (x + y) := by
  rintro ⟨a, rfl⟩ ⟨b, rfl⟩; exact ⟨a + b, (EReal.coe_add a b).symm⟩

theorem IsR.mul {x y : EReal} : IsR x → IsR y → IsR (x * y) := by
  rintro ⟨a, rfl⟩ ⟨b, rfl⟩; exact ⟨a * b, (EReal.coe_mul a b).symm⟩

theorem IsR.sub {x y : EReal} : IsR x → IsR y → IsR (x - y) := by
  rintro ⟨a, rfl⟩ ⟨b, rfl⟩; exact ⟨a - b, (EReal.coe_sub a b).symm⟩

theorem coe_max (a b : ℝ) : ((max a b : ℝ) : EReal) = max (a : EReal) (b : EReal) :=
  EReal.coe_strictMono.monotone.map_max

theorem IsR.max {x y : EReal} : IsR x → IsR y → IsR (max x y) := by
  rintro ⟨a, rfl⟩ ⟨b, rfl⟩; exact ⟨_, (coe_max a b).symm⟩

theorem IsR.sum {ι : Type*} (s : Finset ι) (f : ι → EReal) (h : ∀ i ∈ s, IsR (f i)) :
    IsR (∑ i ∈ s, f i) := by
  classical
  induction s using Finset.induction_on with
  | empty => simpa using IsR.zero
  | insert a s ha ih =>
    rw [Finset.sum_insert ha]
    exact (h a (Finset.mem_insert_self a s)).add
      (ih fun i hi => h i (Finset.mem_insert_of_mem hi))

/-- A finite sum of coerced reals is the coercion of the sum. -/
theorem coe_sum {ι : Type*} (s : Finset ι) (f : ι → EReal) (φ : ι → ℝ)
    (h : ∀ i ∈ s, f i = (φ i : EReal)) : ∑ i ∈ s, f i = ((∑ i ∈ s, φ i : ℝ) : EReal) := by
  classical
  induction s using Finset.induction_on with
  | empty => simp
  | insert a s ha ih =>
    rw [Finset.sum_insert ha, Finset.sum_insert ha, EReal.coe_add,
      h a (Finset.mem_insert_self a s), ih fun i hi => h i (Finset.mem_insert_of_mem hi)]

theorem IsR.mul_self_nonneg {x : EReal} : IsR x → 0 ≤ x * x := by
  rintro ⟨a, rfl⟩
  rw [← EReal.coe_mul]
  exact_mod_cast _root_.mul_self_nonneg a

theorem IsR.sqrt {x : EReal} (hx : IsR x) (h0 : 0 ≤ x) : IsR (Ideal.sqrt x) := by
  obtain ⟨a, rfl⟩ := hx
  have ha : 0 ≤ a := by exact_mod_cast h0
  exact ⟨Real.sqrt a, by rw [Ideal.sqrt_coe, if_neg (not_lt.2 ha)]⟩

theorem IsR.div {x y : EReal} (hx : IsR x) (hy : IsR y) (h0 : 0 < y) : IsR (Ideal.div x y) := by
  obtain ⟨a, rfl⟩ := hx
  obtain ⟨b, rfl⟩ := hy
  have hb : b ≠ 0 := by
    have : (0 : ℝ) < b := by exact_mod_cast h0
    exact ne_of_gt this
  exact ⟨a * (1 / b), by rw [Ideal.div_coe hb, EReal.coe_mul]⟩

theorem IsR.exp {x : EReal} (hx : IsR x) : IsR (Ideal.exp x) := by
  obtain ⟨a, rfl⟩ := hx
  exact ⟨Real.exp a, Ideal.exp_coe a⟩

theorem pos_add_of_nonneg_of_pos {a b : EReal} (ha : 0 ≤ a) (hb : 0 < b) : 0 < a + b :=
  lt_of_lt_of_le hb (le_add_of_nonneg_left ha)

theorem pos_max_right {a b : EReal} (hb : 0 < b) : 0 < max a b :=
  lt_max_of_lt_right hb

/-- Cancellation of a real summand. -/
theorem eq_sub_of_add_eq {a b c : EReal} (ha : IsR a) (hb : IsR b) (h : a + b = c) :
    b = c - a := by
  obtain ⟨a', rfl⟩ := ha
  obtain ⟨b', rfl⟩ := hb
  rw [← h, ← EReal.coe_add, ← EReal.coe_sub]
  congr 1; ring

/-! ## The 256 rows as two tiles of 128 -/

theorem sum_rows {M : Type*} [AddCommMonoid M] (f : Fin 256 → M) :
    ∑ r : Fin 256, f r = ∑ h : Fin 2, ∑ r' : Fin 128, f (row h r') := by
  rw [Fin.sum_univ_two]
  have h := Fin.sum_univ_add (a := 128) (b := 128) (fun i => f i)
  have e0 : ∀ r' : Fin 128, row 0 r' = Fin.castAdd 128 r' := fun r' => Fin.ext (by simp [row])
  have e1 : ∀ r' : Fin 128, row 1 r' = Fin.natAdd 128 r' := fun r' => Fin.ext (by simp [row, Nat.add_comm])
  simp only [e0, e1]
  exact h

end Cert.Spec

end
-- ==== Proof.Algebra2.lean ====
/-
  The reference formula equals the kernel formula.

  With real inputs every intermediate quantity is a real number: each quotient has a denominator
  max(·, ε) ≥ ε > 0 or count + ε₆ > 0, each square root is of a sum of squares. With labels in
  {0, 1} the two class indicators are complementary, so the class-1 count and masked sum are the
  differences from 65536 and from the unmasked sum. Per pixel, after the two updates the centre
  is the pixel's own class mean and the far centre the other class mean, so the exponent is
  ±(cos₀ − cos₁) with the sign 2μ₀ − 1. Sums over the 256 rows are sums over the two tiles.
-/
import proofs.«142478_j79491254714952_2_alg».proof.Proof.Algebra1

noncomputable section

namespace Cert.Spec

open Idealize.ShloMosaic

/-! ## Realness of the common part -/

theorem sumsq_isR {a : Fin 16 → EReal} (ha : ∀ c, IsR (a c)) : IsR (∑ c, a c * a c) :=
  IsR.sum _ _ fun c _ => (ha c).mul (ha c)

theorem sumsq_nonneg {a : Fin 16 → EReal} (ha : ∀ c, IsR (a c)) : 0 ≤ ∑ c, a c * a c :=
  Finset.sum_nonneg fun c _ => (ha c).mul_self_nonneg

theorem e12_isR : IsR e12 := by obtain ⟨ε, _, he⟩ := e12_pos; exact ⟨ε, he⟩
theorem e8_isR : IsR e8 := by obtain ⟨ε, _, he⟩ := e8_pos; exact ⟨ε, he⟩
theorem e6_isR : IsR e6 := by obtain ⟨ε, _, he⟩ := e6_pos; exact ⟨ε, he⟩
theorem e12_gt : 0 < e12 := by obtain ⟨ε, hε, he⟩ := e12_pos; rw [he]; exact_mod_cast hε
theorem e8_gt : 0 < e8 := by obtain ⟨ε, hε, he⟩ := e8_pos; rw [he]; exact_mod_cast hε
theorem e6_gt : 0 < e6 := by obtain ⟨ε, hε, he⟩ := e6_pos; rw [he]; exact_mod_cast hε

section
variable {X : Arr4} (hX : ∀ b c r q, IsR (X b c r q)) (g : Lab)
include hX

theorem nrm_isR (b : Fin 32) (r q : Fin 256) : IsR (nrm X b r q) :=
  ((sumsq_isR fun c => hX b c r q).sqrt (sumsq_nonneg fun c => hX b c r q)).max e12_isR

omit hX in
theorem nrm_pos (b : Fin 32) (r q : Fin 256) : 0 < nrm X b r q := pos_max_right e12_gt

theorem feat_isR (b : Fin 32) (c : Fin 16) (r q : Fin 256) : IsR (feat X b c r q) :=
  (hX b c r q).div (nrm_isR hX b r q) (nrm_pos b r q)

end

theorem ind_isR (k : BitVec 32) (g : Lab) (b : Fin 32) (r q : Fin 256) : IsR (ind k g b r q) := by
  unfold ind; split_ifs
  · exact IsR.one
  · exact IsR.zero

theorem ind_nonneg (k : BitVec 32) (g : Lab) (b : Fin 32) (r q : Fin 256) : 0 ≤ ind k g b r q := by
  unfold ind; split_ifs
  · exact zero_le_one
  · exact le_refl _

theorem sum2_isR (f : Fin 256 → Fin 256 → EReal) (h : ∀ r q, IsR (f r q)) :
    IsR (∑ r : Fin 256, ∑ q : Fin 256, f r q) :=
  IsR.sum _ _ fun r _ => IsR.sum _ _ fun q _ => h r q

theorem cntR_isR (k : BitVec 32) (g : Lab) (b : Fin 32) : IsR (cntR k g b) :=
  (sum2_isR _ fun r q => ind_isR k g b r q).add e6_isR

theorem cntR_pos (k : BitVec 32) (g : Lab) (b : Fin 32) : 0 < cntR k g b :=
  pos_add_of_nonneg_of_pos
    (Finset.sum_nonneg fun r _ => Finset.sum_nonneg fun q _ => ind_nonneg k g b r q) e6_gt

theorem meanR_isR {X : Arr4} (hX : ∀ b c r q, IsR (X b c r q)) (k : BitVec 32) (g : Lab)
    (b : Fin 32) (c : Fin 16) : IsR (meanR k X g b c) :=
  (sum2_isR _ fun r q => (ind_isR k g b r q).mul (feat_isR hX b c r q)).div
    (cntR_isR k g b) (cntR_pos k g b)

theorem cosv_isR {a v : Fin 16 → EReal} (ha : ∀ c, IsR (a c)) (hv : ∀ c, IsR (v c)) :
    IsR (cosv a v) :=
  (IsR.sum _ _ fun c _ => (ha c).mul (hv c)).div
    ((((sumsq_isR ha).sqrt (sumsq_nonneg ha)).mul ((sumsq_isR hv).sqrt (sumsq_nonneg hv))).max
      e8_isR)
    (pos_max_right e8_gt)

/-! ## The kernel's accumulated sums are the sums over all rows -/

theorem sum0K_eq (X : Arr4) (g : Lab) (b : Fin 32) (c : Fin 16) :
    sum0K X g b c = ∑ r : Fin 256, ∑ q : Fin 256, ind 0 g b r q * feat X b c r q :=
  (sum_rows fun r => ∑ q : Fin 256, ind 0 g b r q * feat X b c r q).symm

theorem totK_eq (X : Arr4) (b : Fin 32) (c : Fin 16) :
    totK X b c = ∑ r : Fin 256, ∑ q : Fin 256, feat X b c r q :=
  (sum_rows fun r => ∑ q : Fin 256, feat X b c r q).symm

theorem cnt0K_eq (g : Lab) (b : Fin 32) :
    cnt0K g b = ∑ r : Fin 256, ∑ q : Fin 256, ind 0 g b r q :=
  (sum_rows fun r => ∑ q : Fin 256, ind 0 g b r q).symm

theorem mean0K_eq (X : Arr4) (g : Lab) (b : Fin 32) (c : Fin 16) :
    mean0K X g b c = meanR 0 X g b c := by
  unfold mean0K meanR cntR
  rw [sum0K_eq, cnt0K_eq]

/-! ## Complementary indicators -/

theorem ind_cases {g : Lab} (hg : ∀ b r q, g b r q = 0#32 ∨ g b r q = 1#32) (b : Fin 32)
    (r q : Fin 256) :
    (ind 0 g b r q = 1 ∧ ind 1 g b r q = 0) ∨ (ind 0 g b r q = 0 ∧ ind 1 g b r q = 1) := by
  rcases hg b r q with h | h
  · left; constructor <;> simp [ind, h]
  · right; constructor <;> simp [ind, h]

theorem sum1_eq {X : Arr4} (hX : ∀ b c r q, IsR (X b c r q)) {g : Lab}
    (hg : ∀ b r q, g b r q = 0#32 ∨ g b r q = 1#32) (b : Fin 32) (c : Fin 16) :
    ∑ r : Fin 256, ∑ q : Fin 256, ind 1 g b r q * feat X b c r q
      = totK X b c - sum0K X g b c := by
  rw [totK_eq, sum0K_eq]
  refine eq_sub_of_add_eq
    (sum2_isR _ fun r q => (ind_isR 0 g b r q).mul (feat_isR hX b c r q))
    (sum2_isR _ fun r q => (ind_isR 1 g b r q).mul (feat_isR hX b c r q)) ?_
  rw [← Finset.sum_add_distrib]
  refine Finset.sum_congr rfl fun r _ => ?_
  rw [← Finset.sum_add_distrib]
  refine Finset.sum_congr rfl fun q _ => ?_
  rcases ind_cases hg b r q with ⟨h0, h1⟩ | ⟨h0, h1⟩ <;>
    simp only [h0, h1, one_mul, zero_mul, add_zero, zero_add]

theorem cnt1_eq {g : Lab} (hg : ∀ b r q, g b r q = 0#32 ∨ g b r q = 1#32) (b : Fin 32) :
    ∑ r : Fin 256, ∑ q : Fin 256, ind 1 g b r q = nPix - cnt0K g b := by
  rw [cnt0K_eq]
  refine eq_sub_of_add_eq (sum2_isR _ fun r q => ind_isR 0 g b r q)
    (sum2_isR _ fun r q => ind_isR 1 g b r q) ?_
  have h1 : ∀ r q, ind 0 g b r q + ind 1 g b r q = ((1 : ℝ) : EReal) := by
    intro r q
    rcases ind_cases hg b r q with ⟨h0, h1⟩ | ⟨h0, h1⟩ <;>
      simp only [h0, h1, add_zero, zero_add, EReal.coe_one]
  simp only [← Finset.sum_add_distrib, h1]
  rw [coe_sum Finset.univ _ (fun _ : Fin 256 => (256 : ℝ)) (fun r _ => by
    rw [coe_sum Finset.univ _ (fun _ : Fin 256 => (1 : ℝ)) (fun q _ => rfl)]; simp)]
  rw [nPix_eq]
  congr 1
  simp
  norm_num

theorem mean1K_eq {X : Arr4} (hX : ∀ b c r q, IsR (X b c r q)) {g : Lab}
    (hg : ∀ b r q, g b r q = 0#32 ∨ g b r q = 1#32) (b : Fin 32) (c : Fin 16) :
    mean1K X g b c = meanR 1 X g b c := by
  unfold mean1K meanR cntR
  rw [sum1_eq hX hg, cnt1_eq hg]

/-! ## One pixel -/

theorem cos0K_eq (X : Arr4) (g : Lab) (b : Fin 32) (r q : Fin 256) :
    cos0K X g b r q = cosv (fun c => feat X b c r q) (fun c => meanR 0 X g b c) := by
  have : (fun c => meanR 0 X g b c) = fun c => mean0K X g b c := by
    funext c; exact (mean0K_eq X g b c).symm
  rw [this]; rfl

theorem cos1K_eq {X : Arr4} (hX : ∀ b c r q, IsR (X b c r q)) {g : Lab}
    (hg : ∀ b r q, g b r q = 0#32 ∨ g b r q = 1#32) (b : Fin 32) (r q : Fin 256) :
    cos1K X g b r q = cosv (fun c => feat X b c r q) (fun c => meanR 1 X g b c) := by
  have : (fun c => meanR 1 X g b c) = fun c => mean1K X g b c := by
    funext c; exact (mean1K_eq hX hg b c).symm
  rw [this]; rfl

theorem one_sub_one : (1 : EReal) - 1 = 0 := by
  rw [← EReal.coe_one, ← EReal.coe_sub, sub_self, EReal.coe_zero]

theorem sign_pos {a b : EReal} (ha : IsR a) (hb : IsR b) :
    (Ideal.ofBits .f32 0x40000000#32 * 1 - Ideal.ofBits .f32 0x3F800000#32) * (a - b) = a - b := by
  obtain ⟨a', rfl⟩ := ha
  obtain ⟨b', rfl⟩ := hb
  rw [lit_two, lit_one, mul_one, ← EReal.coe_sub, ← EReal.coe_sub, ← EReal.coe_mul]
  congr 1; ring

theorem sign_neg {a b : EReal} (ha : IsR a) (hb : IsR b) :
    (Ideal.ofBits .f32 0x40000000#32 * 0 - Ideal.ofBits .f32 0x3F800000#32) * (a - b) = b - a := by
  obtain ⟨a', rfl⟩ := ha
  obtain ⟨b', rfl⟩ := hb
  rw [lit_two, lit_one, mul_zero, ← EReal.coe_zero, ← EReal.coe_sub, ← EReal.coe_sub,
    ← EReal.coe_sub, ← EReal.coe_mul]
  congr 1; ring

theorem pcR_eq_pcK {X : Arr4} (hX : ∀ b c r q, IsR (X b c r q)) {g : Lab}
    (hg : ∀ b r q, g b r q = 0#32 ∨ g b r q = 1#32) (b : Fin 32) (r q : Fin 256) :
    pcR X g b r q = pcK X g b r q := by
  have hf : ∀ c, IsR (feat X b c r q) := fun c => feat_isR hX b c r q
  have hc0 : IsR (cosv (fun c => feat X b c r q) (fun c => meanR 0 X g b c)) :=
    cosv_isR hf fun c => meanR_isR hX 0 g b c
  have hc1 : IsR (cosv (fun c => feat X b c r q) (fun c => meanR 1 X g b c)) :=
    cosv_isR hf fun c => meanR_isR hX 1 g b c
  unfold pcR pcK
  rw [cos0K_eq, cos1K_eq hX hg]
  rcases ind_cases hg b r q with ⟨h0, h1⟩ | ⟨h0, h1⟩
  · have hcen : (fun c => cenR X g b c r q) = fun c => meanR 0 X g b c := by
      funext c
      simp only [cenR, cen1R, h0, h1, one_sub_one, sub_zero, one_mul, zero_mul, add_zero, zero_add]
    have hfar : (fun c => farR X g b c r q) = fun c => meanR 1 X g b c := by
      funext c
      simp only [farR, far1R, h0, h1, one_sub_one, sub_zero, one_mul, zero_mul, add_zero, zero_add]
    rw [hcen, hfar, h0, sign_pos hc0 hc1]
  · have hcen : (fun c => cenR X g b c r q) = fun c => meanR 1 X g b c := by
      funext c
      simp only [cenR, cen1R, h0, h1, one_sub_one, sub_zero, one_mul, zero_mul, add_zero, zero_add]
    have hfar : (fun c => farR X g b c r q) = fun c => meanR 0 X g b c := by
      funext c
      simp only [farR, far1R, h0, h1, one_sub_one, sub_zero, one_mul, zero_mul, add_zero, zero_add]
    rw [hcen, hfar, h0, sign_neg hc0 hc1]

/-! ## The two formulas -/

theorem ref_eq_ker (S T : Arr4) (g : Lab)
    (hS : ∀ b c r q, ∃ x : ℝ, S b c r q = (x : EReal))
    (hT : ∀ b c r q, ∃ x : ℝ, T b c r q = (x : EReal))
    (hg : ∀ b r q, g b r q = 0#32 ∨ g b r q = 1#32) : refE S T g = kerE S T g := by
  have hd : ∀ b r q, diffR S T g b r q = diffK S T g b r q := by
    intro b r q
    unfold diffR diffK
    rw [pcR_eq_pcK hS hg, pcR_eq_pcK hT hg]
  unfold refE kerE
  congr 1
  refine Finset.sum_congr rfl fun b _ => ?_
  have hk : (∑ h : Fin 2, partK S T g b h)
      = ∑ r : Fin 256, ∑ q : Fin 256, diffK S T g b r q * diffK S T g b r q :=
    (sum_rows fun r => ∑ q : Fin 256, diffK S T g b r q * diffK S T g b r q).symm
  rw [hk]
  simp only [hd]

end Cert.Spec

end
-- ==== Proof.Algebra.lean ====
/-
  The algebra of the certificate: the reference formula and the kernel formula of Spec.lean agree
  on real inputs with labels in {0, 1} (Cert.Spec.ref_eq_ker, proved in Algebra2.lean from the
  tools of Algebra1.lean).
-/
import proofs.«142478_j79491254714952_2_alg».proof.Proof.Algebra2
-- ==== Proof.lean ====
/-
  The certificate's five claims.

  The kernel program computes, per batch, class-0 masked channel sums, unmasked channel sums and the class-0 pixel
  count of the channel-normalised inputs in a first call (accumulated over the two row tiles of the batch), derives
  both class means and their norms on the host (class 1 by subtraction: the labels are 0 or 1), and in a second call
  sums, per tile, the squared difference of exp(±(cos to mean 0 − cos to mean 1)) between the S and T sides; the host
  adds the tiles and divides by the number of pixels. The reference computes both class means directly, updates two
  copies of the features twice with the class masks, and takes the cosines against the results.

  Frames: the two kernel programs run as four segments (call, host operations, call, host operations), each call's
  body run per grid point (the first call's two cases: the accumulators zeroed at a batch's first tile, the outputs
  stored at its last); the reference is a straight line of host operations. The idealisation rewrote nothing.
  Equivalence at the extended reals: both results are read as formulas of the arguments (kerE, refE); under the
  precondition every float entry is a real and every label is 0 or 1, and then the two formulas agree.
-/
import proofs.«142478_j79491254714952_2_alg».proof.Defs
import proofs.«142478_j79491254714952_2_alg».proof.Proof.Gen.Kernel
import proofs.«142478_j79491254714952_2_alg».proof.Proof.Gen.KernelIdeal
import proofs.«142478_j79491254714952_2_alg».proof.Proof.Gen.ReferenceIdeal
import proofs.«142478_j79491254714952_2_alg».proof.Proof.Gen.Pre_finite_inputs
import proofs.«142478_j79491254714952_2_alg».proof.Proof.RefFrame
import proofs.«142478_j79491254714952_2_alg».proof.Proof.PreDecode
import proofs.«142478_j79491254714952_2_alg».proof.Proof.K.Run
import proofs.«142478_j79491254714952_2_alg».proof.Proof.KI.Run
import proofs.«142478_j79491254714952_2_alg».proof.Proof.KI.Value
import proofs.«142478_j79491254714952_2_alg».proof.Proof.RefValue
import proofs.«142478_j79491254714952_2_alg».proof.Proof.Algebra

noncomputable section

namespace Cert.Proof

open Idealize.ShloMosaic Idealize.SL.Sem

/-- The word-level kernel program runs to the end, faults nowhere, and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- The same program read at the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- At the extended reals, from memories agreeing on the arguments, both programs end with the same result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.Spec.kerE (Cert.KernelIdeal.Hand.arrS m c) (Cert.KernelIdeal.Hand.arrT m c) (Cert.KernelIdeal.Hand.labG m c), ?_, ?_⟩
  · refine (θ_run Cert.KernelIdeal.defs _ _).mono (fun r h c => ⟨?_, ?_, ?_, ?_⟩) (Cert.KernelIdeal.Hand.run_bufs (F := Ideal) m ρ)
    · exact (h c _ (Cert.KernelIdeal.Hand.mem_uc Cert.KernelIdeal.main_v47 (by decide))).trans (Cert.KernelIdeal.Hand.kernel_value m ρ c)
    · exact (h c _ (Cert.KernelIdeal.Hand.mem_uc Cert.KernelIdeal.main_arg0 (by decide))).trans (Cert.KernelIdeal.Hand.W4_main_arg0 m ρ c)
    · exact (h c _ (Cert.KernelIdeal.Hand.mem_uc Cert.KernelIdeal.main_arg1 (by decide))).trans (Cert.KernelIdeal.Hand.W4_main_arg1 m ρ c)
    · exact (h c _ (Cert.KernelIdeal.Hand.mem_uc Cert.KernelIdeal.main_arg2 (by decide))).trans (Cert.KernelIdeal.Hand.W4_main_arg2 m ρ c)
  · refine (θ_run Cert.ReferenceIdeal.defs _ _).mono (fun r h c => ⟨?_, (h c).2⟩) (Cert.ReferenceIdeal.Value.run (F := Ideal) m' ρ')
    obtain ⟨hS, hT, hg⟩ := Cert.Proof.PreDecode.decode _ _ _ (hpre c)
    rw [(h c).1]
    rw [Cert.ReferenceIdeal.RefValue.ref_value (Idealize.ShloMosaic.StableHlo.launchContents m' c) _ _ _ (hagree c).1 (hagree c).2.1 (hagree c).2.2]
    funext _
    exact Cert.Spec.ref_eq_ker _ _ _ (fun b cc r q => hS _) (fun b cc r q => hT _) (fun b r q => hg _)

theorem claim : Cert.Claim :=
  ⟨Cert.Kernel.Gen.facts, Cert.KernelIdeal.Gen.facts, Cert.ReferenceIdeal.Gen.facts, Cert.Pre_finite_inputs.Gen.facts,
    frame_k, frame_ki, Cert.Proof.RefFrame.frame_ri, trivial, algebraic⟩

end Cert.Proof

end
